-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) (main_arg2 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S4096x4096 : Shape := ⟨2, ![4096, 4096]⟩
abbrev S1024x1024 : Shape := ⟨2, ![1024, 1024]⟩
abbrev S4096x8192 : Shape := ⟨2, ![4096, 8192]⟩

abbrev nBuf : Space → Nat
  | .hbm => 11
  | .vmem => 34
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .bf16⟩
  | .hbm, ⟨4, _⟩ => ⟨S4096x4096, .bf16⟩
  | .hbm, ⟨5, _⟩ => ⟨S4096x4096, .bf16⟩
  | .hbm, ⟨6, _⟩ => ⟨S4096x4096, .bf16⟩
  | .hbm, ⟨7, _⟩ => ⟨S4096x4096, .bf16⟩
  | .hbm, ⟨8, _⟩ => ⟨S4096x4096, .f32⟩
  | .hbm, ⟨9, _⟩ => ⟨S4096x4096, .f32⟩
  | .hbm, ⟨10, _⟩ => ⟨S4096x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1024x1024, .bf16⟩
  | .local _ .vmem, ⟨28, _⟩ => ⟨S1024x1024, .bf16⟩
  | .local _ .vmem, ⟨29, _⟩ => ⟨S1024x1024, .bf16⟩
  | .local _ .vmem, ⟨30, _⟩ => ⟨S1024x1024, .bf16⟩
  | .local _ .vmem, ⟨31, _⟩ => ⟨S1024x1024, .f32⟩
  | .local _ .vmem, ⟨32, _⟩ => ⟨S1024x1024, .f32⟩
  | .local _ .vmem, ⟨33, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_scratch0 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg4_0 : Ref sig .tc := ⟨.vmem, 31, rfl⟩
abbrev cc2_stg4_1 : Ref sig .tc := ⟨.vmem, 32, rfl⟩
abbrev cc2_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_13 : BitVec 32 := 0#32
  let v21 : BitVec 1 := Scalar.cmpi .ne v20 c0_i32_13
  v21

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev grid2 : Pipeline.Grid := ⟨3, ![4, 4, 4], ![false, false, false]⟩

def k2_cond2 (i : grid2.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_13 : BitVec 32 := 0#32
  let v21 : BitVec 1 := Scalar.cmpi .ne v20 c0_i32_13
  v21

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, true]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, true]

abbrev stage2_4 : Fin 2 → Memref sig .tc .vmem S1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  concatenates_S4096x4096_S4096x4096_S4096x8192_d1 : Shape.Concatenates [S4096x4096, S4096x4096] S4096x8192 1
  dot_S1024x1024_S1024x1024_S1024x1024_1_1_0_0_n_n_wf : DotDims.WF S1024x1024 S1024x1024 S1024x1024 [1] [1] [0] [0] [] []
  dot_S1024x1024_S1024x1024_S1024x1024_0_0_1_1_n_n_wf : DotDims.WF S1024x1024 S1024x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .bf16 = 32 ∨ (Rect.block (s := S4096x4096) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .bf16 = 32 ∨ (Rect.block (s := S4096x4096) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x4096.size a
  hwx0_4 : ∀ i : grid0.Coords, EltTy.bits .bf16 = 32 ∨ (Rect.block (s := S4096x4096) S1024x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .bf16 = 32 ∨ (Rect.block (s := S4096x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .bf16 = 32 ∨ (Rect.block (s := S4096x4096) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x4096.size a
  hwx1_3 : ∀ i : grid1.Coords, EltTy.bits .bf16 = 32 ∨ (Rect.block (s := S4096x4096) S1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S4096x4096.size a
  hwx1_4 : ∀ i : grid1.Coords, EltTy.bits .f32 = 32 ∨ (Rect.block (s := S4096x4096) S1024x1024.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x4096.size a
  hwx2_0 : ∀ i : grid2.Coords, EltTy.bits .bf16 = 32 ∨ (Rect.block (s := S4096x4096) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x4096.size a
  hwx2_1 : ∀ i : grid2.Coords, EltTy.bits .bf16 = 32 ∨ (Rect.block (s := S4096x4096) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x4096.size a
  hwx2_2 : ∀ i : grid2.Coords, EltTy.bits .bf16 = 32 ∨ (Rect.block (s := S4096x4096) S1024x1024.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x4096.size a
  hwx2_3 : ∀ i : grid2.Coords, EltTy.bits .bf16 = 32 ∨ (Rect.block (s := S4096x4096) S1024x1024.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1024.size a ≤ S4096x4096.size a
  hwx2_4 : ∀ i : grid2.Coords, EltTy.bits .f32 = 32 ∨ (Rect.block (s := S4096x4096) S1024x1024.size (cc2_transform_4 i) (hinb2_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_0) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3_1) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v1) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3_1) S1024x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3_0) S1024x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v5) S1024x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x8192 : Shape := ⟨2, ![4096, 8192]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]

class Facts₀ : Prop where
  transposes_S4096x4096_S4096x4096_1_0 : S4096x4096.Transposes [1, 0] S4096x4096
  concatenates_S4096x4096_S4096x4096_S4096x8192_d1 : Shape.Concatenates [S4096x4096, S4096x4096] S4096x8192 1
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.K.R0Runs.lean ====
/-
  The fused row-pass kernel (R_r = x · W_rᵀ and R_i = x · W_iᵀ, block by block): what its three control cases share.
  The grid is 4 × 4 × 4, the last axis the contracted one; a point's position t has t mod 4 = that axis. At the
  axis' first step both accumulators are zeroed, at every step each adds its block's partial product, and at the
  last step each is rounded into its output block, which the pipeline then writes back; at the other steps the
  two outputs' staging buffers are left alone and not written back.
-/
import proofs.«175415_j18622978196102_2_alg».proof.Proof.Gen.Kernel.Launch
import proofs.«175415_j18622978196102_2_alg».proof.Proof.Gen.Kernel.Skeleton
import proofs.«175415_j18622978196102_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the unscoped buffers hold when the region is entered, core by core
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, over the grid -/

/-- "This is the contracted axis' first step". -/
abbrev cond0_0 (i : grid0.Coords) : Prop := (Scalar.cmpi .ne (Scalar.extui (Scalar.cmpi .eq (BitVec.ofNat 32 (i 2).val) 0#32)) 0#32) = 1#1
/-- It holds at the positions ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)
/-- "This is the contracted axis' last step". -/
abbrev cond0_1 (i : grid0.Coords) : Prop := k0_cond2 i = 1#1
/-- It holds at the positions ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At a first step both output windows are idle and not written back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
/-- At a middle step likewise. -/
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
/-- At a last step both output windows are live: the body stores into them. -/
theorem liveAt0_3_C : ∀ t : Fin cfg0.N, ¬cond0_0 (grid0.coords t) → cond0_1 (grid0.coords t) → cfg0.idle 3 (grid0.coords t) = false := by decide +kernel
theorem liveAt0_4_C : ∀ t : Fin cfg0.N, ¬cond0_0 (grid0.coords t) → cond0_1 (grid0.coords t) → cfg0.idle 4 (grid0.coords t) = false := by decide +kernel

/-! ## The memrefs the body is called with -/

/-- One staging buffer of each output window, through which its contents are stated. -/
abbrev VO0_3 : View sig .tc .vmem S1024x1024 .bf16 := (Memref.whole cc0_stg3_0 : Memref sig .tc .vmem S1024x1024 .bf16).view
abbrev VO0_4 : View sig .tc .vmem S1024x1024 .bf16 := (Memref.whole cc0_stg4_0 : Memref sig .tc .vmem S1024x1024 .bf16).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
/-- The two accumulators: whole scoped buffers of the kernel's own. -/
abbrev scM0_0 : Memref sig .tc .vmem S1024x1024 .f32 := Memref.whole cc0_scratch0
abbrev VS0_0 : View sig .tc .vmem S1024x1024 .f32 := scM0_0.view
abbrev scM0_1 : Memref sig .tc .vmem S1024x1024 .f32 := Memref.whole cc0_scratch1
abbrev VS0_1 : View sig .tc .vmem S1024x1024 .f32 := scM0_1.view

/-- The scoped buffers no window of this kernel stages, split at the two accumulators. -/
theorem scopedRest0_split (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
          ∗ Pipeline.scopedRestBut (Ix := Unit) (Name := ℕ) (U := UR sig nD τ) (Lvl := ℕ) (Val := Elt F) spec0 c [cc0_scratch0, cc0_scratch1]) :=
  Pipeline.scopedRest_split_of_list spec0 c [cc0_scratch0, cc0_scratch1] (by decide) (by decide)

/-- The other scoped buffers and the generator register: what rides beside the accumulators through every point. -/
def Rest0 (c : Dev nD) : sProp 𝕄 :=
  iprop(Pipeline.scopedRestBut (Ix := Unit) (Name := ℕ) (U := UR sig nD τ) (Lvl := ℕ) (Val := Elt F) spec0 c [cc0_scratch0, cc0_scratch1] ∗ (∃ r, prngReg c r))

/-- The launch's invariant with the two accumulators as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.Kernel.Hand

end
-- ==== Proof.K.R0RunA.lean ====
/-
  The fused row-pass kernel, a first step of the contracted axis: the body run on whole staging memrefs, the stores it leaves in
  the two accumulators (and, at a last step, in the two output blocks) found as the run's witness.
-/
import proofs.«175415_j18622978196102_2_alg».proof.Proof.K.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the unscoped buffers hold when the region is entered, core by core
variable (V : (c : Dev nD) → (b : Ref sig .tc) → Buf (Elt F) ((c : Thread nD τ).loc b))

set_option maxHeartbeats 1000000 in
/-- At a first step: the three input blocks at their contents, the two outputs' buffers at contents handed back
    untouched, the two accumulators at anything; the body runs and leaves each accumulator with its pieces written
    (the zeroing, then the block's partial product added). -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i)
    (x0 x1 x2 : Vec F S1024x1024 .bf16) :
    Σ' (L3 : List (View.Piece (Elt F) S1024x1024 .bf16)) (L4 : List (View.Piece (Elt F) S1024x1024 .bf16)) (LS0 : List (View.Piece (Elt F) S1024x1024 .f32)), { LS1 : List (View.Piece (Elt F) S1024x1024 .f32) //
      ∀ (xi3 xi4 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4 ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0_row_fused_kernel i arg3 harg3 arg4 harg4 arg5 harg5 arg6 harg6 arg7 harg7 arg8 harg8 arg9 harg9) K } := by
  refine ⟨[], [], ?_, ?_, fun xi3 xi4 E K => ?run⟩
  case run =>
    simp only [cc0_row_fused_kernel_eq_skeleton]; unfold cc0_row_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    iexists _; iexact HS1

end Cert.Kernel.Hand

end
-- ==== Proof.K.R0RunB.lean ====
/-
  The fused row-pass kernel, a middle step of the contracted axis: the body run on whole staging memrefs, the stores it leaves in
  the two accumulators (and, at a last step, in the two output blocks) found as the run's witness.
-/
import proofs.«175415_j18622978196102_2_alg».proof.Proof.K.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the unscoped buffers hold when the region is entered, core by core
variable (V : (c : Dev nD) → (b : Ref sig .tc) → Buf (Elt F) ((c : Thread nD τ).loc b))

set_option maxHeartbeats 1000000 in
/-- At a middle step: as at a first step, but the accumulators enter at the contents the step before left. -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i)
    (x0 x1 x2 : Vec F S1024x1024 .bf16) (xs0 xs1 : Vec F S1024x1024 .f32) :
    Σ' (L3 : List (View.Piece (Elt F) S1024x1024 .bf16)) (L4 : List (View.Piece (Elt F) S1024x1024 .bf16)) (LS0 : List (View.Piece (Elt F) S1024x1024 .f32)), { LS1 : List (View.Piece (Elt F) S1024x1024 .f32) //
      ∀ (xi3 xi4 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4 ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0_row_fused_kernel i arg3 harg3 arg4 harg4 arg5 harg5 arg6 harg6 arg7 harg7 arg8 harg8 arg9 harg9) K } := by
  refine ⟨[], [], ?_, ?_, fun xi3 xi4 E K => ?run⟩
  case run =>
    simp only [cc0_row_fused_kernel_eq_skeleton]; unfold cc0_row_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    iexists _; iexact HS1

end Cert.Kernel.Hand

end
-- ==== Proof.K.R0RunC.lean ====
/-
  The fused row-pass kernel, a last step of the contracted axis: the body run on whole staging memrefs, the stores it leaves in
  the two accumulators (and, at a last step, in the two output blocks) found as the run's witness.
-/
import proofs.«175415_j18622978196102_2_alg».proof.Proof.K.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the unscoped buffers hold when the region is entered, core by core
variable (V : (c : Dev nD) → (b : Ref sig .tc) → Buf (Elt F) ((c : Thread nD τ).loc b))

set_option maxHeartbeats 1000000 in
/-- At a last step: the accumulators enter at the contents the step before left, the two outputs' buffers at
    anything; the body leaves all four with their pieces written. -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 x1 x2 : Vec F S1024x1024 .bf16) (xs0 xs1 : Vec F S1024x1024 .f32) :
    Σ' (L3 : List (View.Piece (Elt F) S1024x1024 .bf16)) (L4 : List (View.Piece (Elt F) S1024x1024 .bf16)) (LS0 : List (View.Piece (Elt F) S1024x1024 .f32)), { LS1 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0_row_fused_kernel i arg3 harg3 arg4 harg4 arg5 harg5 arg6 harg6 arg7 harg7 arg8 harg8 arg9 harg9) K } := by
  refine ⟨?_, ?_, ?_, ?_, fun E K => ?run⟩
  case run =>
    simp only [cc0_row_fused_kernel_eq_skeleton]; unfold cc0_row_fused_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    isplitl [HS0]; · iexists _; iexact HS0
    iexists _; iexact HS1

end Cert.Kernel.Hand

end
-- ==== Proof.K.R0.lean ====
/-
  The fused row-pass kernel's frame data: what the two output blocks and the two accumulators hold after every
  point of the grid (the accumulators zeroed at a contracted-axis first step, each block's partial product added at
  every step, both rounded into the outputs at the last step), the pipeline's proof data built from that, and the
  body obligation: at every point the body, run from the invariant and the windows' current buffers, returns them
  at the next point's.
-/
import proofs.«175415_j18622978196102_2_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the unscoped buffers hold when the region is entered, core by core
variable (V : (c : Dev nD) → (b : Ref sig .tc) → Buf (Elt F) ((c : Thread nD τ).loc b))

/-! ## What each case leaves -/

/-- At a first step nothing is stored into the first output's block (the window is idle there and not written
    back): no pieces — a placeholder that nothing consults. -/
def out0_A_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i)
    (x0 x1 x2 : Vec F S1024x1024 .bf16) : Vec F S1024x1024 .bf16 :=
  VO0_3.read (Elt F) (VO0_3.writes (Elt F) VO0_3.junk (kernelRun0_A c i arg3 harg3 arg4 harg4 arg5 harg5 arg6 harg6 arg7 harg7 arg8 harg8 arg9 harg9 hc0 hc1 x0 x1 x2).1)

/-- At a first step nothing is stored into the second output's block (the window is idle there and not written
    back): no pieces — a placeholder that nothing consults. -/
def out0_A_4 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i)
    (x0 x1 x2 : Vec F S1024x1024 .bf16) : Vec F S1024x1024 .bf16 :=
  VO0_4.read (Elt F) (VO0_4.writes (Elt F) VO0_4.junk (kernelRun0_A c i arg3 harg3 arg4 harg4 arg5 harg5 arg6 harg6 arg7 harg7 arg8 harg8 arg9 harg9 hc0 hc1 x0 x1 x2).2.1)

/-- At a first step the stores into the first accumulator tile it, so they cover it. -/
theorem scover0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i)
    (x0 x1 x2 : Vec F S1024x1024 .bf16) (y : S1024x1024.Idx) :
    ∃ pc ∈ (kernelRun0_A c i arg3 harg3 arg4 harg4 arg5 harg5 arg6 harg6 arg7 harg7 arg8 harg8 arg9 harg9 hc0 hc1 x0 x1 x2).2.2.1, y ∈ pc.1.set :=
  View.cover_of_tiledL (kernelRun0_A c i arg3 harg3 arg4 harg4 arg5 harg5 arg6 harg6 arg7 harg7 arg8 harg8 arg9 harg9 hc0 hc1 x0 x1 x2).2.2.1 S1024x1024.size (by sl_kernel_rfl) y

/-- What a first step leaves in the first accumulator: its pieces read back. -/
def sout0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i)
    (x0 x1 x2 : Vec F S1024x1024 .bf16) : Vec F S1024x1024 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1 x2).2.2.1)

/-- At a first step the stores into the second accumulator tile it, so they cover it. -/
theorem scover0_A_1 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i)
    (x0 x1 x2 : Vec F S1024x1024 .bf16) (y : S1024x1024.Idx) :
    ∃ pc ∈ (kernelRun0_A c i arg3 harg3 arg4 harg4 arg5 harg5 arg6 harg6 arg7 harg7 arg8 harg8 arg9 harg9 hc0 hc1 x0 x1 x2).2.2.2.1, y ∈ pc.1.set :=
  View.cover_of_tiledL (kernelRun0_A c i arg3 harg3 arg4 harg4 arg5 harg5 arg6 harg6 arg7 harg7 arg8 harg8 arg9 harg9 hc0 hc1 x0 x1 x2).2.2.2.1 S1024x1024.size (by sl_kernel_rfl) y

/-- What a first step leaves in the second accumulator: its pieces read back. -/
def sout0_A_1 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i)
    (x0 x1 x2 : Vec F S1024x1024 .bf16) : Vec F S1024x1024 .f32 :=
  VS0_1.read (Elt F) (VS0_1.writes (Elt F) VS0_1.junk (kernelRun0_A c i arg3 harg3 arg4 harg4 arg5 harg5 arg6 harg6 arg7 harg7 arg8 harg8 arg9 harg9 hc0 hc1 x0 x1 x2).2.2.2.1)

/-- At a middle step nothing is stored into the first output's block (the window is idle there and not written
    back): no pieces — a placeholder that nothing consults. -/
def out0_B_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i)
    (x0 x1 x2 : Vec F S1024x1024 .bf16) (xs0 xs1 : Vec F S1024x1024 .f32) : Vec F S1024x1024 .bf16 :=
  VO0_3.read (Elt F) (VO0_3.writes (Elt F) VO0_3.junk (kernelRun0_B c i arg3 harg3 arg4 harg4 arg5 harg5 arg6 harg6 arg7 harg7 arg8 harg8 arg9 harg9 hc0 hc1 x0 x1 x2 xs0 xs1).1)

/-- At a middle step nothing is stored into the second output's block (the window is idle there and not written
    back): no pieces — a placeholder that nothing consults. -/
def out0_B_4 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i)
    (x0 x1 x2 : Vec F S1024x1024 .bf16) (xs0 xs1 : Vec F S1024x1024 .f32) : Vec F S1024x1024 .bf16 :=
  VO0_4.read (Elt F) (VO0_4.writes (Elt F) VO0_4.junk (kernelRun0_B c i arg3 harg3 arg4 harg4 arg5 harg5 arg6 harg6 arg7 harg7 arg8 harg8 arg9 harg9 hc0 hc1 x0 x1 x2 xs0 xs1).2.1)

/-- At a middle step the stores into the first accumulator tile it, so they cover it. -/
theorem scover0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i)
    (x0 x1 x2 : Vec F S1024x1024 .bf16) (xs0 xs1 : Vec F S1024x1024 .f32) (y : S1024x1024.Idx) :
    ∃ pc ∈ (kernelRun0_B c i arg3 harg3 arg4 harg4 arg5 harg5 arg6 harg6 arg7 harg7 arg8 harg8 arg9 harg9 hc0 hc1 x0 x1 x2 xs0 xs1).2.2.1, y ∈ pc.1.set :=
  View.cover_of_tiledL (kernelRun0_B c i arg3 harg3 arg4 harg4 arg5 harg5 arg6 harg6 arg7 harg7 arg8 harg8 arg9 harg9 hc0 hc1 x0 x1 x2 xs0 xs1).2.2.1 S1024x1024.size (by sl_kernel_rfl) y

/-- What a middle step leaves in the first accumulator: its pieces read back. -/
def sout0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i)
    (x0 x1 x2 : Vec F S1024x1024 .bf16) (xs0 xs1 : Vec F S1024x1024 .f32) : Vec F S1024x1024 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 xs0 xs1).2.2.1)

/-- At a middle step the stores into the second accumulator tile it, so they cover it. -/
theorem scover0_B_1 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i)
    (x0 x1 x2 : Vec F S1024x1024 .bf16) (xs0 xs1 : Vec F S1024x1024 .f32) (y : S1024x1024.Idx) :
    ∃ pc ∈ (kernelRun0_B c i arg3 harg3 arg4 harg4 arg5 harg5 arg6 harg6 arg7 harg7 arg8 harg8 arg9 harg9 hc0 hc1 x0 x1 x2 xs0 xs1).2.2.2.1, y ∈ pc.1.set :=
  View.cover_of_tiledL (kernelRun0_B c i arg3 harg3 arg4 harg4 arg5 harg5 arg6 harg6 arg7 harg7 arg8 harg8 arg9 harg9 hc0 hc1 x0 x1 x2 xs0 xs1).2.2.2.1 S1024x1024.size (by sl_kernel_rfl) y

/-- What a middle step leaves in the second accumulator: its pieces read back. -/
def sout0_B_1 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i)
    (x0 x1 x2 : Vec F S1024x1024 .bf16) (xs0 xs1 : Vec F S1024x1024 .f32) : Vec F S1024x1024 .f32 :=
  VS0_1.read (Elt F) (VS0_1.writes (Elt F) VS0_1.junk (kernelRun0_B c i arg3 harg3 arg4 harg4 arg5 harg5 arg6 harg6 arg7 harg7 arg8 harg8 arg9 harg9 hc0 hc1 x0 x1 x2 xs0 xs1).2.2.2.1)

/-- At a last step the stores into the first output's block tile it, so they cover it. -/
theorem cover0_C_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 x1 x2 : Vec F S1024x1024 .bf16) (xs0 xs1 : Vec F S1024x1024 .f32) (y : S1024x1024.Idx) :
    ∃ pc ∈ (kernelRun0_C c i arg3 harg3 arg4 harg4 arg5 harg5 arg6 harg6 arg7 harg7 arg8 harg8 arg9 harg9 hc0 hc1 x0 x1 x2 xs0 xs1).1, y ∈ pc.1.set :=
  View.cover_of_tiledL (kernelRun0_C c i arg3 harg3 arg4 harg4 arg5 harg5 arg6 harg6 arg7 harg7 arg8 harg8 arg9 harg9 hc0 hc1 x0 x1 x2 xs0 xs1).1 S1024x1024.size (by sl_kernel_rfl) y

/-- What a last step leaves in the first output's staging buffer: its pieces read back. -/
def out0_C_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 x1 x2 : Vec F S1024x1024 .bf16) (xs0 xs1 : Vec F S1024x1024 .f32) : Vec F S1024x1024 .bf16 :=
  VO0_3.read (Elt F) (VO0_3.writes (Elt F) VO0_3.junk (kernelRun0_C c i arg3 harg3 arg4 harg4 arg5 harg5 arg6 harg6 arg7 harg7 arg8 harg8 arg9 harg9 hc0 hc1 x0 x1 x2 xs0 xs1).1)

/-- At a last step the stores into the second output's block tile it, so they cover it. -/
theorem cover0_C_4 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 x1 x2 : Vec F S1024x1024 .bf16) (xs0 xs1 : Vec F S1024x1024 .f32) (y : S1024x1024.Idx) :
    ∃ pc ∈ (kernelRun0_C c i arg3 harg3 arg4 harg4 arg5 harg5 arg6 harg6 arg7 harg7 arg8 harg8 arg9 harg9 hc0 hc1 x0 x1 x2 xs0 xs1).2.1, y ∈ pc.1.set :=
  View.cover_of_tiledL (kernelRun0_C c i arg3 harg3 arg4 harg4 arg5 harg5 arg6 harg6 arg7 harg7 arg8 harg8 arg9 harg9 hc0 hc1 x0 x1 x2 xs0 xs1).2.1 S1024x1024.size (by sl_kernel_rfl) y

/-- What a last step leaves in the second output's staging buffer: its pieces read back. -/
def out0_C_4 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 x1 x2 : Vec F S1024x1024 .bf16) (xs0 xs1 : Vec F S1024x1024 .f32) : Vec F S1024x1024 .bf16 :=
  VO0_4.read (Elt F) (VO0_4.writes (Elt F) VO0_4.junk (kernelRun0_C c i arg3 harg3 arg4 harg4 arg5 harg5 arg6 harg6 arg7 harg7 arg8 harg8 arg9 harg9 hc0 hc1 x0 x1 x2 xs0 xs1).2.1)

/-- At a last step the stores into the first accumulator tile it, so they cover it. -/
theorem scover0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 x1 x2 : Vec F S1024x1024 .bf16) (xs0 xs1 : Vec F S1024x1024 .f32) (y : S1024x1024.Idx) :
    ∃ pc ∈ (kernelRun0_C c i arg3 harg3 arg4 harg4 arg5 harg5 arg6 harg6 arg7 harg7 arg8 harg8 arg9 harg9 hc0 hc1 x0 x1 x2 xs0 xs1).2.2.1, y ∈ pc.1.set :=
  View.cover_of_tiledL (kernelRun0_C c i arg3 harg3 arg4 harg4 arg5 harg5 arg6 harg6 arg7 harg7 arg8 harg8 arg9 harg9 hc0 hc1 x0 x1 x2 xs0 xs1).2.2.1 S1024x1024.size (by sl_kernel_rfl) y

/-- What a last step leaves in the first accumulator: its pieces read back. -/
def sout0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 x1 x2 : Vec F S1024x1024 .bf16) (xs0 xs1 : Vec F S1024x1024 .f32) : Vec F S1024x1024 .f32 :=
  VS0_0.read (Elt F) (VS0_0.writes (Elt F) VS0_0.junk (kernelRun0_C c i arg3 harg3 arg4 harg4 arg5 harg5 arg6 harg6 arg7 harg7 arg8 harg8 arg9 harg9 hc0 hc1 x0 x1 x2 xs0 xs1).2.2.1)

/-- At a last step the stores into the second accumulator tile it, so they cover it. -/
theorem scover0_C_1 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 x1 x2 : Vec F S1024x1024 .bf16) (xs0 xs1 : Vec F S1024x1024 .f32) (y : S1024x1024.Idx) :
    ∃ pc ∈ (kernelRun0_C c i arg3 harg3 arg4 harg4 arg5 harg5 arg6 harg6 arg7 harg7 arg8 harg8 arg9 harg9 hc0 hc1 x0 x1 x2 xs0 xs1).2.2.2.1, y ∈ pc.1.set :=
  View.cover_of_tiledL (kernelRun0_C c i arg3 harg3 arg4 harg4 arg5 harg5 arg6 harg6 arg7 harg7 arg8 harg8 arg9 harg9 hc0 hc1 x0 x1 x2 xs0 xs1).2.2.2.1 S1024x1024.size (by sl_kernel_rfl) y

/-- What a last step leaves in the second accumulator: its pieces read back. -/
def sout0_C_1 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 x1 x2 : Vec F S1024x1024 .bf16) (xs0 xs1 : Vec F S1024x1024 .f32) : Vec F S1024x1024 .f32 :=
  VS0_1.read (Elt F) (VS0_1.writes (Elt F) VS0_1.junk (kernelRun0_C c i arg3 harg3 arg4 harg4 arg5 harg5 arg6 harg6 arg7 harg7 arg8 harg8 arg9 harg9 hc0 hc1 x0 x1 x2 xs0 xs1).2.2.2.1)

/-! ## What the outputs and the accumulators hold after each point -/

/-- THE ACCUMULATION. What the two outputs' staging buffers and the two accumulators hold after the body at position
    `n` (a tuple: first output, second output, first accumulator, second accumulator): the case the position's
    residue mod 4 selects, run at the point's memrefs and input blocks, the accumulators entering a middle or last
    step at what this leaves at `n - 1`. Residues 0 and 3 at once are no case. -/
def outsAt0 (c : Dev nD) : (n : ℕ) → n < cfg0.N → Vec F S1024x1024 .bf16 × Vec F S1024x1024 .bf16 × Vec F S1024x1024 .f32 × Vec F S1024x1024 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 4 = 0 then
      if h1 : (n + 1) % 4 = 3 then
        False.elim (by have hN : n + 1 < 64 := lt_of_lt_of_eq hn (show cfg0.N = 64 from N_0); omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2)

/-- `outsAt0` at a first step: that case's contents. -/
theorem outsAt0_A (c : Dev nD) (t : Fin cfg0.N) (h0 : t.val % 4 = 0) (h1 : ¬t.val % 4 = 3) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at a middle step: that case's contents, over what the step before left in the accumulators. -/
theorem outsAt0_B (c : Dev nD) (t : Fin cfg0.N) (h0 : ¬t.val % 4 = 0) (h1 : ¬t.val % 4 = 3) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last step: that case's contents, over what the step before left in the accumulators. -/
theorem outsAt0_C (c : Dev nD) (t : Fin cfg0.N) (h0 : ¬t.val % 4 = 0) (h1 : t.val % 4 = 3) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (both accumulators at anything);
    afterwards both accumulators at what the point before left in them (`outsAt0`'s last two components), the other
    scoped buffers unopened, and the generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.1) ∗ owns (c : Thread nD τ) scM0_1 fullShare ((outsAt0 V c n hn).2.2.2)) ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulators at that point's contents. -/
theorem PhiS0_succ (c : Dev nD) (n : ℕ) (hn : n < cfg0.N) :
    PhiS0 V c (n + 1) hn = iprop(iprop(iprop(owns (c : Thread nD τ) scM0_0 fullShare ((outsAt0 V c n hn).2.2.1) ∗ owns (c : Thread nD τ) scM0_1 fullShare ((outsAt0 V c n hn).2.2.2)) ∗ Pipeline.scopedRestBut (Ix := Unit) (Name := ℕ) (U := UR sig nD τ) (Lvl := ℕ) (Val := Elt F) spec0 c [cc0_scratch0, cc0_scratch1]) ∗ (∃ r, prngReg c r)) := rfl

/-- Before a point that is not the first: the accumulators at what the point before left. -/
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.1) ∗ owns (c : Thread nD τ) scM0_1 fullShare ((outsAt0 V c (n - 1) (by omega)).2.2.2)) ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The pipeline's proof data -/

/-- The proof data of this kernel's pipeline on core `c`: the arrays as the region finds them; after the body at
    point `t` each input's buffer at its block and the two outputs' at `outsAt0`'s first two components; the invariant
    `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' memrefs hold their blocks; the position's residue mod 4 says which case the
    point is in, so that case's run applies; the invariant hands the body both accumulators at what the point before
    left (at anything at the first point), the other scoped buffers and the generator register ride along untouched,
    and the accumulators come back at this point's contents (their stores cover them); at a last step the two
    outputs' buffers come back at theirs, elsewhere untouched; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 4 = 0
  · by_cases h1 : t.val % 4 = 3
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold sout0_A_0 sout0_A_1; (try dsimp only)
      by_cases hz : t.val = 0
      · rw [PhiS0_castSucc V c t, PhiS0_zero V c _ _ hz, PhiA0_eq]
        iintro ⟨⟨⟨⟨HS0, HS1⟩, Hb⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t)).2.2.2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _)
              · unfold owns; iexists _; isplitr
                swap; · iexact HS1
                ipureintro; exact View.read_writes_of_cover _ _ _ _ _ (scover0_A_1 c _ _ _ _ _ _ _ _ _ _ _ _ _ _ _ _ _ _ _ _)
            · iexact Hb
          · iexact Hg
        isplitl [Ho]; · iexact Ho
        isplitl [H0]; · iexact H0
        isplitl [H1]; · iexact H1
        isplitl [H2]; · iexact H2
        isplitl [H3]; · iexists _; iexact H3
        iexists _; iexact H4
      · rw [PhiS0_castSucc V c t, PhiS0_pos V c _ _ hz]
        iintro ⟨⟨⟨⟨HS0, HS1⟩, Hb⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t)).2.2.2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _)
              · unfold owns; iexists _; isplitr
                swap; · iexact HS1
                ipureintro; exact View.read_writes_of_cover _ _ _ _ _ (scover0_A_1 c _ _ _ _ _ _ _ _ _ _ _ _ _ _ _ _ _ _ _ _)
            · iexact Hb
          · iexact Hg
        isplitl [Ho]; · iexact Ho
        isplitl [H0]; · iexact H0
        isplitl [H1]; · iexact H1
        isplitl [H2]; · iexact H2
        isplitl [H3]; · iexists _; iexact H3
        iexists _; iexact H4
  · by_cases h1 : t.val % 4 = 3
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [outsAt0_C V c t h0 h1]
      unfold out0_C_3 out0_C_4 sout0_C_0 sout0_C_1; (try dsimp only)
      by_cases hz : t.val = 0
      · exfalso; omega
      · rw [PhiS0_castSucc V c t, PhiS0_pos V c _ _ hz]
        iintro ⟨⟨⟨⟨HS0, HS1⟩, Hb⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) _ _).2.2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        isplitl [HS1]; · iexact HS1
        iintro ⟨H0, H1, H2, ⟨%e3, H3⟩, ⟨%e4, H4⟩, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _)
              · unfold owns; iexists _; isplitr
                swap; · iexact HS1
                ipureintro; exact View.read_writes_of_cover _ _ _ _ _ (scover0_C_1 c _ _ _ _ _ _ _ _ _ _ _ _ _ _ _ _ _ _ _ _ _ _)
            · iexact Hb
          · iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B V c t h0 h1]
      unfold sout0_B_0 sout0_B_1; (try dsimp only)
      by_cases hz : t.val = 0
      · exfalso; omega
      · rw [PhiS0_castSucc V c t, PhiS0_pos V c _ _ hz]
        iintro ⟨⟨⟨⟨HS0, HS1⟩, Hb⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) _ _).2.2.2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _)
              · unfold owns; iexists _; isplitr
                swap; · iexact HS1
                ipureintro; exact View.read_writes_of_cover _ _ _ _ _ (scover0_B_1 c _ _ _ _ _ _ _ _ _ _ _ _ _ _ _ _ _ _ _ _ _ _)
            · iexact Hb
          · iexact Hg
        isplitl [Ho]; · iexact Ho
        isplitl [H0]; · iexact H0
        isplitl [H1]; · iexact H1
        isplitl [H2]; · iexact H2
        isplitl [H3]; · iexists _; iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hb⟩, Hg⟩
  isplitl [HS0 HS1 Hb]
  · isplitl [HS0 HS1]
    · isplitl [HS0]
      · iexists _; iexact HS0
      · iexists _; iexact HS1
    · iexact Hb
  · iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.Kernel.Hand

end
-- ==== Proof.K.R1Runs.lean ====
/-
  Column-pass kernel 1 (one of the two kernels that form W_rᵀ·A ∓ W_iᵀ·B block by block): what its three control
  cases share. The grid is 4 × 4 × 4, the last axis the contracted one; a point's position t has t mod 4 = that axis.
  At the axis' first step the accumulator is zeroed, at every step the block's two partial products are added to it,
  and at the last step it is copied into the output block, which the pipeline then writes back; at the other steps
  the output's staging buffer is left alone and not written back.
-/
import proofs.«175415_j18622978196102_2_alg».proof.Proof.Gen.Kernel.Launch
import proofs.«175415_j18622978196102_2_alg».proof.Proof.Gen.Kernel.Skeleton
import proofs.«175415_j18622978196102_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the unscoped buffers hold when the region is entered, core by core
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, over the grid -/

/-- "This is the contracted axis' first step". -/
abbrev cond1_0 (i : grid1.Coords) : Prop := (Scalar.cmpi .ne (Scalar.extui (Scalar.cmpi .eq (BitVec.ofNat 32 (i 2).val) 0#32)) 0#32) = 1#1
/-- It holds at the positions ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)
/-- "This is the contracted axis' last step". -/
abbrev cond1_1 (i : grid1.Coords) : Prop := k1_cond2 i = 1#1
/-- It holds at the positions ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- At a first step the output window is idle and not written back. -/
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
/-- At a middle step likewise. -/
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
/-- At a last step the output window is live: the body stores into it. -/
theorem liveAt1_4_C : ∀ t : Fin cfg1.N, ¬cond1_0 (grid1.coords t) → cond1_1 (grid1.coords t) → cfg1.idle 4 (grid1.coords t) = false := by decide +kernel

/-! ## The memrefs the body is called with -/

/-- One staging buffer of the output window, through which its contents are stated. -/
abbrev VO1_4 : View sig .tc .vmem S1024x1024 .f32 := (Memref.whole cc1_stg4_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1_0 : Memref sig .tc .vmem S1024x1024 .f32 := Memref.whole cc1_scratch0
abbrev VS1_0 : View sig .tc .vmem S1024x1024 .f32 := scM1_0.view

/-- The scoped buffers no window of this kernel stages, split at the accumulator. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The other scoped buffers and the generator register: what rides beside the accumulator through every point. -/
def Rest1 (c : Dev nD) : sProp 𝕄 :=
  iprop(Pipeline.scopedRestBut (Ix := Unit) (Name := ℕ) (U := UR sig nD τ) (Lvl := ℕ) (Val := Elt F) spec1 c [cc1_scratch0] ∗ (∃ r, prngReg c r))

/-- The launch's invariant with the accumulator as a memref owned at some contents. -/
theorem PhiA1_eq (c : Dev nD) :
    (Pipeline.ΦA spec1 c : sProp 𝕄)
      = iprop(iprop((∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.Kernel.Hand

end
-- ==== Proof.K.R1RunA.lean ====
/-
  Column-pass kernel 1, a first step of the contracted axis: the body run on whole staging memrefs, the stores it leaves in the accumulator
  (and, at a last step, in the output block) found as the run's witness.
-/
import proofs.«175415_j18622978196102_2_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the unscoped buffers hold when the region is entered, core by core
variable (V : (c : Dev nD) → (b : Ref sig .tc) → Buf (Elt F) ((c : Thread nD τ).loc b))

set_option maxHeartbeats 1000000 in
/-- At a first step: the four input blocks at their contents, the output's buffer at contents handed back untouched,
    the accumulator at anything; the body runs and leaves the accumulator with its pieces written. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 x1 x2 x3 : Vec F S1024x1024 .bf16) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1_col_kernel i arg3 harg3 arg4 harg4 arg5 harg5 arg6 harg6 arg7 harg7 arg8 harg8) K } := by
  refine ⟨[], ?_, fun xi4 E K => ?run⟩
  case run =>
    simp only [cc1_col_kernel_eq_skeleton]; unfold cc1_col_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Hand

end
-- ==== Proof.K.R1RunB.lean ====
/-
  Column-pass kernel 1, a middle step of the contracted axis: the body run on whole staging memrefs, the stores it leaves in the accumulator
  (and, at a last step, in the output block) found as the run's witness.
-/
import proofs.«175415_j18622978196102_2_alg».proof.Proof.K.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the unscoped buffers hold when the region is entered, core by core
variable (V : (c : Dev nD) → (b : Ref sig .tc) → Buf (Elt F) ((c : Thread nD τ).loc b))

set_option maxHeartbeats 1000000 in
/-- At a middle step: as at a first step, but the accumulator enters at the contents the step before left. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 x1 x2 x3 : Vec F S1024x1024 .bf16) (xs0 : Vec F S1024x1024 .f32) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1_col_kernel i arg3 harg3 arg4 harg4 arg5 harg5 arg6 harg6 arg7 harg7 arg8 harg8) K } := by
  refine ⟨[], ?_, fun xi4 E K => ?run⟩
  case run =>
    simp only [cc1_col_kernel_eq_skeleton]; unfold cc1_col_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Hand

end
-- ==== Proof.K.R1RunC.lean ====
/-
  Column-pass kernel 1, a last step of the contracted axis: the body run on whole staging memrefs, the stores it leaves in the accumulator
  (and, at a last step, in the output block) found as the run's witness.
-/
import proofs.«175415_j18622978196102_2_alg».proof.Proof.K.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the unscoped buffers hold when the region is entered, core by core
variable (V : (c : Dev nD) → (b : Ref sig .tc) → Buf (Elt F) ((c : Thread nD τ).loc b))

set_option maxHeartbeats 1000000 in
/-- At a last step: the accumulator enters at the contents the step before left, the output's buffer at anything;
    the body leaves both with their pieces written. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 x1 x2 x3 : Vec F S1024x1024 .bf16) (xs0 : Vec F S1024x1024 .f32) :
    Σ' (L4 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1_col_kernel i arg3 harg3 arg4 harg4 arg5 harg5 arg6 harg6 arg7 harg7 arg8 harg8) K } := by
  refine ⟨?_, ?_, fun E K => ?run⟩
  case run =>
    simp only [cc1_col_kernel_eq_skeleton]; unfold cc1_col_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Hand

end
-- ==== Proof.K.R1.lean ====
/-
  Column-pass kernel 1: what its accumulator and its output block hold after each grid point, the region's proof
  data over them, and the body obligation. The accumulator is carried from point to point inside the region's
  invariant: before the first point the kernel's scoped buffers are at anything; after point n the accumulator holds
  what the case of point n left in it, and that is what the body at point n + 1 finds.
-/
import proofs.«175415_j18622978196102_2_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the unscoped buffers hold when the region is entered, core by core
variable (V : (c : Dev nD) → (b : Ref sig .tc) → Buf (Elt F) ((c : Thread nD τ).loc b))

/-! ## What each case leaves -/

/-- A first step stores nothing into the output block (idle there, not written back): a placeholder nothing consults. -/
def out1_A_4 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i) (x0 x1 x2 x3 : Vec F S1024x1024 .bf16) : Vec F S1024x1024 .f32 :=
  VO1_4.read (Elt F) (VO1_4.writes (Elt F) VO1_4.junk (kernelRun1_A c i arg3 harg3 arg4 harg4 arg5 harg5 arg6 harg6 arg7 harg7 arg8 harg8 hc0 hc1 x0 x1 x2 x3).1)
/-- A first step's stores cover the accumulator. -/
theorem scover1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i) (x0 x1 x2 x3 : Vec F S1024x1024 .bf16) (y : S1024x1024.Idx) :
    ∃ pc ∈ (kernelRun1_A c i arg3 harg3 arg4 harg4 arg5 harg5 arg6 harg6 arg7 harg7 arg8 harg8 hc0 hc1 x0 x1 x2 x3).2.1, y ∈ pc.1.set :=
  View.cover_of_tiledL (kernelRun1_A c i arg3 harg3 arg4 harg4 arg5 harg5 arg6 harg6 arg7 harg7 arg8 harg8 hc0 hc1 x0 x1 x2 x3).2.1 S1024x1024.size (by sl_kernel_rfl) y
/-- What a first step leaves in the accumulator. -/
def sout1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i) (x0 x1 x2 x3 : Vec F S1024x1024 .bf16) : Vec F S1024x1024 .f32 :=
  VS1_0.read (Elt F) (VS1_0.writes (Elt F) VS1_0.junk (kernelRun1_A c i arg3 harg3 arg4 harg4 arg5 harg5 arg6 harg6 arg7 harg7 arg8 harg8 hc0 hc1 x0 x1 x2 x3).2.1)

/-- A middle step stores nothing into the output block either. -/
def out1_B_4 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i) (x0 x1 x2 x3 : Vec F S1024x1024 .bf16) (xs0 : Vec F S1024x1024 .f32) : Vec F S1024x1024 .f32 :=
  VO1_4.read (Elt F) (VO1_4.writes (Elt F) VO1_4.junk (kernelRun1_B c i arg3 harg3 arg4 harg4 arg5 harg5 arg6 harg6 arg7 harg7 arg8 harg8 hc0 hc1 x0 x1 x2 x3 xs0).1)
theorem scover1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i) (x0 x1 x2 x3 : Vec F S1024x1024 .bf16) (xs0 : Vec F S1024x1024 .f32) (y : S1024x1024.Idx) :
    ∃ pc ∈ (kernelRun1_B c i arg3 harg3 arg4 harg4 arg5 harg5 arg6 harg6 arg7 harg7 arg8 harg8 hc0 hc1 x0 x1 x2 x3 xs0).2.1, y ∈ pc.1.set :=
  View.cover_of_tiledL (kernelRun1_B c i arg3 harg3 arg4 harg4 arg5 harg5 arg6 harg6 arg7 harg7 arg8 harg8 hc0 hc1 x0 x1 x2 x3 xs0).2.1 S1024x1024.size (by sl_kernel_rfl) y
/-- What a middle step leaves in the accumulator. -/
def sout1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i) (x0 x1 x2 x3 : Vec F S1024x1024 .bf16) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 arg8 harg8 hc0 hc1 x0 x1 x2 x3 xs0).2.1)

/-- A last step's store covers the output block. -/
theorem cover1_C_4 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i) (x0 x1 x2 x3 : Vec F S1024x1024 .bf16) (xs0 : Vec F S1024x1024 .f32) (y : S1024x1024.Idx) :
    ∃ pc ∈ (kernelRun1_C c i arg3 harg3 arg4 harg4 arg5 harg5 arg6 harg6 arg7 harg7 arg8 harg8 hc0 hc1 x0 x1 x2 x3 xs0).1, y ∈ pc.1.set :=
  View.cover_of_tiledL (kernelRun1_C c i arg3 harg3 arg4 harg4 arg5 harg5 arg6 harg6 arg7 harg7 arg8 harg8 hc0 hc1 x0 x1 x2 x3 xs0).1 S1024x1024.size (by sl_kernel_rfl) y
/-- What a last step leaves in the output block. -/
def out1_C_4 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i) (x0 x1 x2 x3 : Vec F S1024x1024 .bf16) (xs0 : Vec F S1024x1024 .f32) : Vec F S1024x1024 .f32 :=
  VO1_4.read (Elt F) (VO1_4.writes (Elt F) VO1_4.junk (kernelRun1_C c i arg3 harg3 arg4 harg4 arg5 harg5 arg6 harg6 arg7 harg7 arg8 harg8 hc0 hc1 x0 x1 x2 x3 xs0).1)
theorem scover1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i) (x0 x1 x2 x3 : Vec F S1024x1024 .bf16) (xs0 : Vec F S1024x1024 .f32) (y : S1024x1024.Idx) :
    ∃ pc ∈ (kernelRun1_C c i arg3 harg3 arg4 harg4 arg5 harg5 arg6 harg6 arg7 harg7 arg8 harg8 hc0 hc1 x0 x1 x2 x3 xs0).2.1, y ∈ pc.1.set :=
  View.cover_of_tiledL (kernelRun1_C c i arg3 harg3 arg4 harg4 arg5 harg5 arg6 harg6 arg7 harg7 arg8 harg8 hc0 hc1 x0 x1 x2 x3 xs0).2.1 S1024x1024.size (by sl_kernel_rfl) y
/-- What a last step leaves in the accumulator. -/
def sout1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i) (x0 x1 x2 x3 : Vec F S1024x1024 .bf16) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 arg8 harg8 hc0 hc1 x0 x1 x2 x3 xs0).2.1)

/-! ## Point by point -/

/-- What the output block's staging buffer and the accumulator hold after the body at position `n`: the case of
    position `n` run on the point's input blocks, the accumulator entering at what position `n - 1` left. -/
def outsAt1 (c : Dev nD) : (n : ℕ) → n < cfg1.N → Vec F S1024x1024 .f32 × Vec F S1024x1024 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      if h1 : (n + 1) % 4 = 3 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩),
          sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
          sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
          sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t),
      sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the first point what the launch hands over (every scoped buffer at anything); afterwards the
    accumulator at what the point before left, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The region's proof data on core `c`: the arrays as the region finds them; after the body at point `t` each
    input's buffer at its block, the output's at `outsAt1`'s first component; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))
/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 4800000 in
/-- The body at any point: the inputs' buffers hold their blocks; the position decides the case; the invariant hands the
    body the accumulator at what the point before left (at anything at the first point) and takes it back at this point's
    contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_C_0 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_B_0 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.Kernel.Hand

end
-- ==== Proof.K.R2Runs.lean ====
/-
  Column-pass kernel 2 (one of the two kernels that form W_rᵀ·A ∓ W_iᵀ·B block by block): what its three control
  cases share. The grid is 4 × 4 × 4, the last axis the contracted one; a point's position t has t mod 4 = that axis.
  At the axis' first step the accumulator is zeroed, at every step the block's two partial products are added to it,
  and at the last step it is copied into the output block, which the pipeline then writes back; at the other steps
  the output's staging buffer is left alone and not written back.
-/
import proofs.«175415_j18622978196102_2_alg».proof.Proof.Gen.Kernel.Launch
import proofs.«175415_j18622978196102_2_alg».proof.Proof.Gen.Kernel.Skeleton
import proofs.«175415_j18622978196102_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the unscoped buffers hold when the region is entered, core by core
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, over the grid -/

/-- "This is the contracted axis' first step". -/
abbrev cond2_0 (i : grid2.Coords) : Prop := (Scalar.cmpi .ne (Scalar.extui (Scalar.cmpi .eq (BitVec.ofNat 32 (i 2).val) 0#32)) 0#32) = 1#1
/-- It holds at the positions ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)
/-- "This is the contracted axis' last step". -/
abbrev cond2_1 (i : grid2.Coords) : Prop := k2_cond2 i = 1#1
/-- It holds at the positions ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- At a first step the output window is idle and not written back. -/
theorem idleAt2_4_A : ∀ t : Fin cfg2.N, cond2_0 (grid2.coords t) → ¬cond2_1 (grid2.coords t) → cfg2.idle 4 (grid2.coords t) = true := by decide +kernel
theorem noFlush2_4_A : ∀ t : Fin cfg2.N, cond2_0 (grid2.coords t) → ¬cond2_1 (grid2.coords t) → (cfg2.win 4).flush t = false := by decide +kernel
/-- At a middle step likewise. -/
theorem idleAt2_4_B : ∀ t : Fin cfg2.N, ¬cond2_0 (grid2.coords t) → ¬cond2_1 (grid2.coords t) → cfg2.idle 4 (grid2.coords t) = true := by decide +kernel
theorem noFlush2_4_B : ∀ t : Fin cfg2.N, ¬cond2_0 (grid2.coords t) → ¬cond2_1 (grid2.coords t) → (cfg2.win 4).flush t = false := by decide +kernel
/-- At a last step the output window is live: the body stores into it. -/
theorem liveAt2_4_C : ∀ t : Fin cfg2.N, ¬cond2_0 (grid2.coords t) → cond2_1 (grid2.coords t) → cfg2.idle 4 (grid2.coords t) = false := by decide +kernel

/-! ## The memrefs the body is called with -/

/-- One staging buffer of the output window, through which its contents are stated. -/
abbrev VO2_4 : View sig .tc .vmem S1024x1024 .f32 := (Memref.whole cc2_stg4_0 : Memref sig .tc .vmem S1024x1024 .f32).view
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1024 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1024 .f32 := win2_4.stage (cfg2.slots t 4)
abbrev hs2_4 (t : Fin cfg2.N) : (ms2_4 t).IsWhole := hstage2_4 ((cfg2.slots t 4).cast nbuf2_4)
/-- The accumulator: a whole scoped buffer of the kernel's own. -/
abbrev scM2_0 : Memref sig .tc .vmem S1024x1024 .f32 := Memref.whole cc2_scratch0
abbrev VS2_0 : View sig .tc .vmem S1024x1024 .f32 := scM2_0.view

/-- The scoped buffers no window of this kernel stages, split at the accumulator. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The other scoped buffers and the generator register: what rides beside the accumulator through every point. -/
def Rest2 (c : Dev nD) : sProp 𝕄 :=
  iprop(Pipeline.scopedRestBut (Ix := Unit) (Name := ℕ) (U := UR sig nD τ) (Lvl := ℕ) (Val := Elt F) spec2 c [cc2_scratch0] ∗ (∃ r, prngReg c r))

/-- The launch's invariant with the accumulator as a memref owned at some contents. -/
theorem PhiA2_eq (c : Dev nD) :
    (Pipeline.ΦA spec2 c : sProp 𝕄)
      = iprop(iprop((∃ d, owns (c : Thread nD τ) scM2_0 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

end Cert.Kernel.Hand

end
-- ==== Proof.K.R2RunA.lean ====
/-
  Column-pass kernel 2, a first step of the contracted axis: the body run on whole staging memrefs, the stores it leaves in the accumulator
  (and, at a last step, in the output block) found as the run's witness.
-/
import proofs.«175415_j18622978196102_2_alg».proof.Proof.K.R2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the unscoped buffers hold when the region is entered, core by core
variable (V : (c : Dev nD) → (b : Ref sig .tc) → Buf (Elt F) ((c : Thread nD τ).loc b))

set_option maxHeartbeats 1000000 in
/-- At a first step: the four input blocks at their contents, the output's buffer at contents handed back untouched,
    the accumulator at anything; the body runs and leaves the accumulator with its pieces written. -/
noncomputable def kernelRun2_A (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i)
    (x0 x1 x2 x3 : Vec F S1024x1024 .bf16) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc2_col_kernel i arg3 harg3 arg4 harg4 arg5 harg5 arg6 harg6 arg7 harg7 arg8 harg8) K } := by
  refine ⟨[], ?_, fun xi4 E K => ?run⟩
  case run =>
    simp only [cc2_col_kernel_eq_skeleton]; unfold cc2_col_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Hand

end
-- ==== Proof.K.R2RunB.lean ====
/-
  Column-pass kernel 2, a middle step of the contracted axis: the body run on whole staging memrefs, the stores it leaves in the accumulator
  (and, at a last step, in the output block) found as the run's witness.
-/
import proofs.«175415_j18622978196102_2_alg».proof.Proof.K.R2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the unscoped buffers hold when the region is entered, core by core
variable (V : (c : Dev nD) → (b : Ref sig .tc) → Buf (Elt F) ((c : Thread nD τ).loc b))

set_option maxHeartbeats 1000000 in
/-- At a middle step: as at a first step, but the accumulator enters at the contents the step before left. -/
noncomputable def kernelRun2_B (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : ¬cond2_1 i)
    (x0 x1 x2 x3 : Vec F S1024x1024 .bf16) (xs0 : Vec F S1024x1024 .f32) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc2_col_kernel i arg3 harg3 arg4 harg4 arg5 harg5 arg6 harg6 arg7 harg7 arg8 harg8) K } := by
  refine ⟨[], ?_, fun xi4 E K => ?run⟩
  case run =>
    simp only [cc2_col_kernel_eq_skeleton]; unfold cc2_col_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Hand

end
-- ==== Proof.K.R2RunC.lean ====
/-
  Column-pass kernel 2, a last step of the contracted axis: the body run on whole staging memrefs, the stores it leaves in the accumulator
  (and, at a last step, in the output block) found as the run's witness.
-/
import proofs.«175415_j18622978196102_2_alg».proof.Proof.K.R2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the unscoped buffers hold when the region is entered, core by core
variable (V : (c : Dev nD) → (b : Ref sig .tc) → Buf (Elt F) ((c : Thread nD τ).loc b))

set_option maxHeartbeats 1000000 in
/-- At a last step: the accumulator enters at the contents the step before left, the output's buffer at anything;
    the body leaves both with their pieces written. -/
noncomputable def kernelRun2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i)
    (x0 x1 x2 x3 : Vec F S1024x1024 .bf16) (xs0 : Vec F S1024x1024 .f32) :
    Σ' (L4 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc2_col_kernel i arg3 harg3 arg4 harg4 arg5 harg5 arg6 harg6 arg7 harg7 arg8 harg8) K } := by
  refine ⟨?_, ?_, fun E K => ?run⟩
  case run =>
    simp only [cc2_col_kernel_eq_skeleton]; unfold cc2_col_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Hand

end
-- ==== Proof.K.R2.lean ====
/-
  Column-pass kernel 2: what its accumulator and its output block hold after each grid point, the region's proof
  data over them, and the body obligation. The accumulator is carried from point to point inside the region's
  invariant: before the first point the kernel's scoped buffers are at anything; after point n the accumulator holds
  what the case of point n left in it, and that is what the body at point n + 1 finds.
-/
import proofs.«175415_j18622978196102_2_alg».proof.Proof.K.R2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the unscoped buffers hold when the region is entered, core by core
variable (V : (c : Dev nD) → (b : Ref sig .tc) → Buf (Elt F) ((c : Thread nD τ).loc b))

/-! ## What each case leaves -/

/-- A first step stores nothing into the output block (idle there, not written back): a placeholder nothing consults. -/
def out2_A_4 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i) (x0 x1 x2 x3 : Vec F S1024x1024 .bf16) : Vec F S1024x1024 .f32 :=
  VO2_4.read (Elt F) (VO2_4.writes (Elt F) VO2_4.junk (kernelRun2_A c i arg3 harg3 arg4 harg4 arg5 harg5 arg6 harg6 arg7 harg7 arg8 harg8 hc0 hc1 x0 x1 x2 x3).1)
/-- A first step's stores cover the accumulator. -/
theorem scover2_A_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i) (x0 x1 x2 x3 : Vec F S1024x1024 .bf16) (y : S1024x1024.Idx) :
    ∃ pc ∈ (kernelRun2_A c i arg3 harg3 arg4 harg4 arg5 harg5 arg6 harg6 arg7 harg7 arg8 harg8 hc0 hc1 x0 x1 x2 x3).2.1, y ∈ pc.1.set :=
  View.cover_of_tiledL (kernelRun2_A c i arg3 harg3 arg4 harg4 arg5 harg5 arg6 harg6 arg7 harg7 arg8 harg8 hc0 hc1 x0 x1 x2 x3).2.1 S1024x1024.size (by sl_kernel_rfl) y
/-- What a first step leaves in the accumulator. -/
def sout2_A_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i) (x0 x1 x2 x3 : Vec F S1024x1024 .bf16) : Vec F S1024x1024 .f32 :=
  VS2_0.read (Elt F) (VS2_0.writes (Elt F) VS2_0.junk (kernelRun2_A c i arg3 harg3 arg4 harg4 arg5 harg5 arg6 harg6 arg7 harg7 arg8 harg8 hc0 hc1 x0 x1 x2 x3).2.1)

/-- A middle step stores nothing into the output block either. -/
def out2_B_4 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : ¬cond2_1 i) (x0 x1 x2 x3 : Vec F S1024x1024 .bf16) (xs0 : Vec F S1024x1024 .f32) : Vec F S1024x1024 .f32 :=
  VO2_4.read (Elt F) (VO2_4.writes (Elt F) VO2_4.junk (kernelRun2_B c i arg3 harg3 arg4 harg4 arg5 harg5 arg6 harg6 arg7 harg7 arg8 harg8 hc0 hc1 x0 x1 x2 x3 xs0).1)
theorem scover2_B_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : ¬cond2_1 i) (x0 x1 x2 x3 : Vec F S1024x1024 .bf16) (xs0 : Vec F S1024x1024 .f32) (y : S1024x1024.Idx) :
    ∃ pc ∈ (kernelRun2_B c i arg3 harg3 arg4 harg4 arg5 harg5 arg6 harg6 arg7 harg7 arg8 harg8 hc0 hc1 x0 x1 x2 x3 xs0).2.1, y ∈ pc.1.set :=
  View.cover_of_tiledL (kernelRun2_B c i arg3 harg3 arg4 harg4 arg5 harg5 arg6 harg6 arg7 harg7 arg8 harg8 hc0 hc1 x0 x1 x2 x3 xs0).2.1 S1024x1024.size (by sl_kernel_rfl) y
/-- What a middle step leaves in the accumulator. -/
def sout2_B_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : ¬cond2_1 i) (x0 x1 x2 x3 : Vec F S1024x1024 .bf16) (xs0 : Vec F S1024x1024 .f32) : Vec F S1024x1024 .f32 :=
  VS2_0.read (Elt F) (VS2_0.writes (Elt F) VS2_0.junk (kernelRun2_B c i arg3 harg3 arg4 harg4 arg5 harg5 arg6 harg6 arg7 harg7 arg8 harg8 hc0 hc1 x0 x1 x2 x3 xs0).2.1)

/-- A last step's store covers the output block. -/
theorem cover2_C_4 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i) (x0 x1 x2 x3 : Vec F S1024x1024 .bf16) (xs0 : Vec F S1024x1024 .f32) (y : S1024x1024.Idx) :
    ∃ pc ∈ (kernelRun2_C c i arg3 harg3 arg4 harg4 arg5 harg5 arg6 harg6 arg7 harg7 arg8 harg8 hc0 hc1 x0 x1 x2 x3 xs0).1, y ∈ pc.1.set :=
  View.cover_of_tiledL (kernelRun2_C c i arg3 harg3 arg4 harg4 arg5 harg5 arg6 harg6 arg7 harg7 arg8 harg8 hc0 hc1 x0 x1 x2 x3 xs0).1 S1024x1024.size (by sl_kernel_rfl) y
/-- What a last step leaves in the output block. -/
def out2_C_4 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i) (x0 x1 x2 x3 : Vec F S1024x1024 .bf16) (xs0 : Vec F S1024x1024 .f32) : Vec F S1024x1024 .f32 :=
  VO2_4.read (Elt F) (VO2_4.writes (Elt F) VO2_4.junk (kernelRun2_C c i arg3 harg3 arg4 harg4 arg5 harg5 arg6 harg6 arg7 harg7 arg8 harg8 hc0 hc1 x0 x1 x2 x3 xs0).1)
theorem scover2_C_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i) (x0 x1 x2 x3 : Vec F S1024x1024 .bf16) (xs0 : Vec F S1024x1024 .f32) (y : S1024x1024.Idx) :
    ∃ pc ∈ (kernelRun2_C c i arg3 harg3 arg4 harg4 arg5 harg5 arg6 harg6 arg7 harg7 arg8 harg8 hc0 hc1 x0 x1 x2 x3 xs0).2.1, y ∈ pc.1.set :=
  View.cover_of_tiledL (kernelRun2_C c i arg3 harg3 arg4 harg4 arg5 harg5 arg6 harg6 arg7 harg7 arg8 harg8 hc0 hc1 x0 x1 x2 x3 xs0).2.1 S1024x1024.size (by sl_kernel_rfl) y
/-- What a last step leaves in the accumulator. -/
def sout2_C_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i) (x0 x1 x2 x3 : Vec F S1024x1024 .bf16) (xs0 : Vec F S1024x1024 .f32) : Vec F S1024x1024 .f32 :=
  VS2_0.read (Elt F) (VS2_0.writes (Elt F) VS2_0.junk (kernelRun2_C c i arg3 harg3 arg4 harg4 arg5 harg5 arg6 harg6 arg7 harg7 arg8 harg8 hc0 hc1 x0 x1 x2 x3 xs0).2.1)

/-! ## Point by point -/

/-- What the output block's staging buffer and the accumulator hold after the body at position `n`: the case of
    position `n` run on the point's input blocks, the accumulator entering at what position `n - 1` left. -/
def outsAt2 (c : Dev nD) : (n : ℕ) → n < cfg2.N → Vec F S1024x1024 .f32 × Vec F S1024x1024 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 4 = 0 then
      if h1 : (n + 1) % 4 = 3 then
        False.elim (by omega)
      else
        (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩),
          sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 4 = 3 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2,
          sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
      else
        (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2,
          sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t),
      sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2,
      sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2,
      sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the first point what the launch hands over (every scoped buffer at anything); afterwards the
    accumulator at what the point before left, the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The region's proof data on core `c`: the arrays as the region finds them; after the body at point `t` each
    input's buffer at its block, the output's at `outsAt2`'s first component; the invariant `PhiS2`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))
/-- and what it returns. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t)

set_option maxHeartbeats 4800000 in
/-- The body at any point: the inputs' buffers hold their blocks; the position decides the case; the invariant hands the
    body the accumulator at what the point before left (at anything at the first point) and takes it back at this point's
    contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  by_cases h0 : t.val % 4 = 0
  · by_cases h1 : t.val % 4 = 3
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_A t ((hcond2_0 t).mpr h0) (fun h => h1 ((hcond2_1 t).mp h))) (noFlush2_4_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, Hrest⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
      · rw [PhiS2_castSucc V c t, PhiS2_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4_C t (fun h => h0 ((hcond2_0 t).mp h)) ((hcond2_1 t).mpr h1)], after2_4]
      rw [outsAt2_C V c t h0 h1]
      unfold out2_C_4 sout2_C_0; (try dsimp only)
      by_cases hz : t.val = 0
      · exfalso; omega
      · rw [PhiS2_castSucc V c t, PhiS2_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_C_0 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover2_C_4 c _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_B t (fun h => h0 ((hcond2_0 t).mp h)) (fun h => h1 ((hcond2_1 t).mp h))) (noFlush2_4_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_B_0 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

theorem hout2 (c : Dev nD) : (dat2 V c).Φ (Fin.last cfg2.N) ⊢ Pipeline.ΦA spec2 c :=
  Phi_out2 V c _ (by rw [Fin.val_last]; have : cfg2.N = 64 := N_2; omega)

end Cert.Kernel.Hand

end
-- ==== Proof.K.Main.lean ====
/-
  The three regions assembled into one run of @main.

  The buffers' contents at each boundary of @main are a fold from the launch memory: the three arguments' format
  changes; then, per region, the region's arrays at what its write-backs leave and every other buffer as entered;
  then the closing concatenate. Over that fold each region is a segment entered from every unscoped buffer at the
  boundary's contents and left at the next boundary's; the regions' own invariants carry their accumulators from
  point to point, take the scoped rest and the generator register in at the first point and give them back at the
  last. The launch over the five segments gives the run; reading the last boundary at the arguments, which no
  segment writes, gives the frame; reading it at the result, and each region's entry contents at its input arrays,
  gives what a value proof needs to express the result through the three regions' arrays and the arguments.
-/
import proofs.«175415_j18622978196102_2_alg».proof.Proof.K.R0
import proofs.«175415_j18622978196102_2_alg».proof.Proof.K.R1
import proofs.«175415_j18622978196102_2_alg».proof.Proof.K.R2
import Idealize.ShloMosaic.Lib.Pipeline.RegionsLoop
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The run: @main's segments from the launch to the return

## The buffer contents at each segment boundary: a fold through @main -/

/-- What core `c`'s buffers hold when @main starts. -/
abbrev W0 (c : Dev nD) : Valuation τ sig (Elt F) := fun b => m (c, b)
/-- The same after the three arguments have been converted to the narrower float format: what region 0 is entered with. -/
abbrev W1 (c : Dev nD) : Valuation τ sig (Elt F) := StableHlo.after hostOps0 (W0 m c)
/-- `W1` restricted to the TensorCore's own references: the contents region 0's proof data are stated over. -/
abbrev V1 : (c : Dev nD) → (b : Ref sig .tc) → Buf (Elt F) ((c : Thread nD τ).loc b) := fun c b => W1 m c b

/-- When region 0 returns: each of its five arrays holds the write-backs of all grid points folded, in order, into
    what the region found there (an input array is never written back, so it is unchanged); any other buffer is unchanged. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- `W2` restricted to the TensorCore's own references: what region 1's proof data are stated over. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- When region 1 returns: each of its five arrays holds the write-backs of all grid points folded, in order, into
    what the region found there (an input array is never written back, so it is unchanged); any other buffer is unchanged. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- `W3` restricted to the TensorCore's own references: what region 2's proof data are stated over. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- When region 2 returns: each of its five arrays holds the write-backs of all grid points folded, in order, into
    what the region found there (an input array is never written back, so it is unchanged); any other buffer is unchanged. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- `W4` restricted to the TensorCore's own references. -/
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- At the return: the two halves joined into the result array. -/
abbrev W5 (c : Dev nD) : Valuation τ sig (Elt F) := StableHlo.after hostOps3 (W4 m c)

/-! ### The three arguments are never written: every boundary's contents at an argument are the launch memory's -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_forall_not_mem (b := Proc.devRef .tc main_arg0) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg0) := W4_of_ne m c main_arg0 (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_forall_not_mem (b := Proc.devRef .tc main_arg1) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_forall_not_mem (b := Proc.devRef .tc main_arg2) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## The proof data family and the thread state -/

/-- No region prefetches a table, so the tables' contents are the trivial ones. -/
abbrev adm : (p : Fin 3) → (pcfgs (F := F) p).Adm := fun p => (cfgs p).toPCfg_adm
/-- The three regions' proof data, region K's taken at the contents the fold gives when region K is entered; written
    as a `match` on the literal index. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
/-- There are no dues between cores, hence no levels. -/
abbrev L : GSem nD τ sig → Finset Unit := fun _ => ∅
abbrev lv : GSem nD τ sig → Unit → ℕ := fun _ _ => 0
/-- Carried unchanged through every segment: the generator register, at an unspecified state, and the core's record
    of dues, which is empty. -/
abbrev R (c : Dev nD) : sProp 𝕄 := iprop((∃ r, prngReg c r) ∗ ∃ W, owes (c : Thread nD τ) (0 : CellTallies nD τ sig Unit) W)
/-- A run of host operations as one segment: it takes every unscoped buffer from the contents `W c` to the operations'
    fold over `W c`, with `R` carried along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the opening stretch allocates a buffer. -/
theorem hostOps0_noalloc : (hostOps0 : List (HloOp τ sig (Elt F))).Forall fun op => op.fresh = ∅ := by
  simp only [List.Forall]; repeat' constructor
/-- Nor does the closing one. -/
theorem hostOps3_noalloc : (hostOps3 : List (HloOp τ sig (Elt F))).Forall fun op => op.fresh = ∅ := by
  simp only [List.Forall]; repeat' constructor
/-- Every TensorCore reference that is not scoped belongs to the set of buffers the boundary states speak of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state at the return, dues aside: all unscoped buffers at `W5`, the generator register at an unspecified state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 as a segment from `W1` to `W2`. On entry its five arrays are taken out of the set of unscoped buffers
    and the remainder bypasses the region; the generator register and the scoped buffers no window stages enter the
    region's invariant, which carries the two accumulators from grid point to grid point and returns both at the end; on exit the
    arrays, at their final contents, rejoin the remainder. The core has no dues and the kernel no semaphores of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m 0 c).Φ 0 from hin0 (V1 m) c)
    unfold Pipeline.ΦA
    iintro ⟨Hp, -, Hr⟩
    isplitl [Hr]; · iexact Hr
    iexact Hp
  hout c := by
    rw [Pipeline.ownSems0_none]
    refine BIBase.Entails.trans (show (pdats m 0 c).Φ (Fin.last _) ⊢ Pipeline.ΦA spec0 c from hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment from `W2` to `W3`. On entry its five arrays are taken out of the set of unscoped buffers
    and the remainder bypasses the region; the generator register and the scoped buffers no window stages enter the
    region's invariant, which carries the accumulator from grid point to grid point and returns both at the end; on exit the
    arrays, at their final contents, rejoin the remainder. The core has no dues and the kernel no semaphores of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (V2 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (V2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment from `W3` to `W4`. On entry its five arrays are taken out of the set of unscoped buffers
    and the remainder bypasses the region; the generator register and the scoped buffers no window stages enter the
    region's invariant, which carries the accumulator from grid point to grid point and returns both at the end; on exit the
    arrays, at their final contents, rejoin the remainder. The core has no dues and the kernel no semaphores of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec2 c ⊢ (pdats m 2 c).Φ 0 from hin2 (V3 m) c)
    unfold Pipeline.ΦA
    iintro ⟨Hp, -, Hr⟩
    isplitl [Hr]; · iexact Hr
    iexact Hp
  hout c := by
    rw [Pipeline.ownSems0_none]
    refine BIBase.Entails.trans (show (pdats m 2 c).Φ (Fin.last _) ⊢ Pipeline.ΦA spec2 c from hout2 (V3 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order: the opening host stretch, the three regions, the closing host stretch. -/
abbrev segs : List (Pipeline.Seg (pcfgs (F := F)) adm (pdats m) () defs₀ 𝒱₀ L lv) :=
  [ .host (hseg hostOps0 hostOps0_sub hostOps0_noalloc (W0 m)),
    .region (reg0 m),
    .region (reg1 m),
    .region (reg2 m),
    .host (hseg hostOps3 hostOps3_sub hostOps3_noalloc (W4 m)) ]
/-- Unfolding @main operation by operation gives exactly the segments' programs in sequence. -/
theorem main_run (c : Dev nD) : main (F := F) c = Pipeline.Seg.run (segs m) := (main_chain c).trans (by chain_rfl)

set_option backward.isDefEq.respectTransparency.types false in
/-- The run: from any memory with zero counters every weakly fair execution of @main terminates, and in every final
    state each unscoped buffer of each core holds what the fold `W5` says. -/
theorem run_main (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (W5 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- The frame: @main runs, terminates, and every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c)⟩) (run_main m ρ)

/-! ## What the boundaries hold, for the value proof -/

/-- The result is the two column-pass outputs joined along the second axis. -/
theorem W5_main_v6 (c : Dev nD) :
    (W5 m c (Proc.devRef .tc main_v6) : (⟨S4096x8192, .f32⟩ : BufTy).Contents (Elt F))
      = concatenate S4096x8192 1 [⟨S4096x4096, (W4 m c (Proc.devRef .tc main_v4) : (⟨S4096x4096, .f32⟩ : BufTy).Contents (Elt F))⟩,
          ⟨S4096x4096, (W4 m c (Proc.devRef .tc main_v5) : (⟨S4096x4096, .f32⟩ : BufTy).Contents (Elt F))⟩] concatenates_S4096x4096_S4096x4096_S4096x8192_d1 := by
  show StableHlo.after hostOps3 (W4 m c) (Proc.devRef .tc main_v6) = _
  generalize W4 m c = Vv
  after_results

/-- The imaginary half is what region 2 leaves in its output array. -/
theorem W4_main_v5 (c : Dev nD) : W4 m c (Proc.devRef .tc main_v5) = (dat2 (V3 m) c).arrAt 4 cfg2.N := W4_arr m c 4
/-- The real half is what region 1 leaves in its output array; region 2 does not touch it. -/
theorem W3_main_v4 (c : Dev nD) : W3 m c (Proc.devRef .tc main_v4) = (dat1 (V2 m) c).arrAt 4 cfg1.N := W3_arr m c 4
theorem W4_main_v4 (c : Dev nD) : W4 m c (Proc.devRef .tc main_v4) = (dat1 (V2 m) c).arrAt 4 cfg1.N :=
  (W4_of_ne m c main_v4 (by decide)).trans (W3_main_v4 m c)
/-- The row pass's two outputs are what region 0 leaves in its output arrays. -/
theorem W2_main_v3_0 (c : Dev nD) : W2 m c (Proc.devRef .tc main_v3_0) = (dat0 (V1 m) c).arrAt 3 cfg0.N := W2_arr m c 3
theorem W2_main_v3_1 (c : Dev nD) : W2 m c (Proc.devRef .tc main_v3_1) = (dat0 (V1 m) c).arrAt 4 cfg0.N := W2_arr m c 4

/-- An input array of a region is left as entered. -/
theorem W2_main_v1 (c : Dev nD) : W2 m c (Proc.devRef .tc main_v1) = W1 m c (Proc.devRef .tc main_v1) :=
  (W2_arr m c 1).trans (((dat0 (V1 m) c).arrAt_in 1 rfl _).trans (A_eq0 (V1 m) c 1))
theorem W2_main_v2 (c : Dev nD) : W2 m c (Proc.devRef .tc main_v2) = W1 m c (Proc.devRef .tc main_v2) :=
  (W2_arr m c 2).trans (((dat0 (V1 m) c).arrAt_in 2 rfl _).trans (A_eq0 (V1 m) c 2))
theorem W3_main_v1 (c : Dev nD) : W3 m c (Proc.devRef .tc main_v1) = W2 m c (Proc.devRef .tc main_v1) :=
  (W3_arr m c 0).trans (((dat1 (V2 m) c).arrAt_in 0 rfl _).trans (A_eq1 (V2 m) c 0))
theorem W3_main_v2 (c : Dev nD) : W3 m c (Proc.devRef .tc main_v2) = W2 m c (Proc.devRef .tc main_v2) :=
  (W3_arr m c 1).trans (((dat1 (V2 m) c).arrAt_in 1 rfl _).trans (A_eq1 (V2 m) c 1))
theorem W3_main_v3_0 (c : Dev nD) : W3 m c (Proc.devRef .tc main_v3_0) = W2 m c (Proc.devRef .tc main_v3_0) :=
  (W3_arr m c 2).trans (((dat1 (V2 m) c).arrAt_in 2 rfl _).trans (A_eq1 (V2 m) c 2))
theorem W3_main_v3_1 (c : Dev nD) : W3 m c (Proc.devRef .tc main_v3_1) = W2 m c (Proc.devRef .tc main_v3_1) :=
  (W3_arr m c 3).trans (((dat1 (V2 m) c).arrAt_in 3 rfl _).trans (A_eq1 (V2 m) c 3))

/-! ### Each region's entry contents at its input arrays -/

/-- The three operands of the row pass are the arguments after their format change. -/
theorem W1_main_v0 (c : Dev nD) :
    (W1 m c (Proc.devRef .tc main_v0) : (⟨S4096x4096, .bf16⟩ : BufTy).Contents (Elt F))
      = truncf .bf16 (m ((c : Thread nD τ).loc main_arg0) : (⟨S4096x4096, .f32⟩ : BufTy).Contents (Elt F)) bitsLt_bf16_f32 := by
  show StableHlo.after hostOps0 (W0 m c) (Proc.devRef .tc main_v0) = _
  after_results
theorem W1_main_v1 (c : Dev nD) :
    (W1 m c (Proc.devRef .tc main_v1) : (⟨S4096x4096, .bf16⟩ : BufTy).Contents (Elt F))
      = truncf .bf16 (m ((c : Thread nD τ).loc main_arg1) : (⟨S4096x4096, .f32⟩ : BufTy).Contents (Elt F)) bitsLt_bf16_f32 := by
  show StableHlo.after hostOps0 (W0 m c) (Proc.devRef .tc main_v1) = _
  after_results
theorem W1_main_v2 (c : Dev nD) :
    (W1 m c (Proc.devRef .tc main_v2) : (⟨S4096x4096, .bf16⟩ : BufTy).Contents (Elt F))
      = truncf .bf16 (m ((c : Thread nD τ).loc main_arg2) : (⟨S4096x4096, .f32⟩ : BufTy).Contents (Elt F)) bitsLt_bf16_f32 := by
  show StableHlo.after hostOps0 (W0 m c) (Proc.devRef .tc main_v2) = _
  after_results

/-- Region 1 (the real half) is entered with the two weight matrices as region 0 found them and the row pass's outputs. -/
theorem V2_main_v1 (c : Dev nD) : V2 m c main_v1 = W1 m c (Proc.devRef .tc main_v1) := W2_main_v1 m c
theorem V2_main_v2 (c : Dev nD) : V2 m c main_v2 = W1 m c (Proc.devRef .tc main_v2) := W2_main_v2 m c
theorem V2_main_v3_0 (c : Dev nD) : V2 m c main_v3_0 = (dat0 (V1 m) c).arrAt 3 cfg0.N := W2_main_v3_0 m c
theorem V2_main_v3_1 (c : Dev nD) : V2 m c main_v3_1 = (dat0 (V1 m) c).arrAt 4 cfg0.N := W2_main_v3_1 m c
/-- Region 2 (the imaginary half) is entered with the same four arrays. -/
theorem V3_main_v1 (c : Dev nD) : V3 m c main_v1 = W1 m c (Proc.devRef .tc main_v1) := (W3_main_v1 m c).trans (W2_main_v1 m c)
theorem V3_main_v2 (c : Dev nD) : V3 m c main_v2 = W1 m c (Proc.devRef .tc main_v2) := (W3_main_v2 m c).trans (W2_main_v2 m c)
theorem V3_main_v3_0 (c : Dev nD) : V3 m c main_v3_0 = (dat0 (V1 m) c).arrAt 3 cfg0.N := (W3_main_v3_0 m c).trans (W2_main_v3_0 m c)
theorem V3_main_v3_1 (c : Dev nD) : V3 m c main_v3_1 = (dat0 (V1 m) c).arrAt 4 cfg0.N := (W3_main_v3_1 m c).trans (W2_main_v3_1 m c)

end Cert.Kernel.Hand

end
-- ==== Proof.KI.R0Runs.lean ====
/-
  The fused row-pass kernel (R_r = x · W_rᵀ and R_i = x · W_iᵀ, block by block): what its three control cases share.
  The grid is 4 × 4 × 4, the last axis the contracted one; a point's position t has t mod 4 = that axis. At the
  axis' first step both accumulators are zeroed, at every step each adds its block's partial product, and at the
  last step each is rounded into its output block, which the pipeline then writes back; at the other steps the
  two outputs' staging buffers are left alone and not written back.
-/
import proofs.«175415_j18622978196102_2_alg».proof.Proof.Gen.KernelIdeal.Launch
import proofs.«175415_j18622978196102_2_alg».proof.Proof.Gen.KernelIdeal.Skeleton
import proofs.«175415_j18622978196102_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the unscoped buffers hold when the region is entered, core by core
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, over the grid -/

/-- "This is the contracted axis' first step". -/
abbrev cond0_0 (i : grid0.Coords) : Prop := (Scalar.cmpi .ne (Scalar.extui (Scalar.cmpi .eq (BitVec.ofNat 32 (i 2).val) 0#32)) 0#32) = 1#1
/-- It holds at the positions ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)
/-- "This is the contracted axis' last step". -/
abbrev cond0_1 (i : grid0.Coords) : Prop := k0_cond2 i = 1#1
/-- It holds at the positions ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At a first step both output windows are idle and not written back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
/-- At a middle step likewise. -/
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
/-- At a last step both output windows are live: the body stores into them. -/
theorem liveAt0_3_C : ∀ t : Fin cfg0.N, ¬cond0_0 (grid0.coords t) → cond0_1 (grid0.coords t) → cfg0.idle 3 (grid0.coords t) = false := by decide +kernel
theorem liveAt0_4_C : ∀ t : Fin cfg0.N, ¬cond0_0 (grid0.coords t) → cond0_1 (grid0.coords t) → cfg0.idle 4 (grid0.coords t) = false := by decide +kernel

/-! ## The memrefs the body is called with -/

/-- One staging buffer of each output window, through which its contents are stated. -/
abbrev VO0_3 : View sig .tc .vmem S1024x1024 .bf16 := (Memref.whole cc0_stg3_0 : Memref sig .tc .vmem S1024x1024 .bf16).view
abbrev VO0_4 : View sig .tc .vmem S1024x1024 .bf16 := (Memref.whole cc0_stg4_0 : Memref sig .tc .vmem S1024x1024 .bf16).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
/-- The two accumulators: whole scoped buffers of the kernel's own. -/
abbrev scM0_0 : Memref sig .tc .vmem S1024x1024 .f32 := Memref.whole cc0_scratch0
abbrev VS0_0 : View sig .tc .vmem S1024x1024 .f32 := scM0_0.view
abbrev scM0_1 : Memref sig .tc .vmem S1024x1024 .f32 := Memref.whole cc0_scratch1
abbrev VS0_1 : View sig .tc .vmem S1024x1024 .f32 := scM0_1.view

/-- The scoped buffers no window of this kernel stages, split at the two accumulators. -/
theorem scopedRest0_split (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
          ∗ Pipeline.scopedRestBut (Ix := Unit) (Name := ℕ) (U := UR sig nD τ) (Lvl := ℕ) (Val := Elt F) spec0 c [cc0_scratch0, cc0_scratch1]) :=
  Pipeline.scopedRest_split_of_list spec0 c [cc0_scratch0, cc0_scratch1] (by decide) (by decide)

/-- The other scoped buffers and the generator register: what rides beside the accumulators through every point. -/
def Rest0 (c : Dev nD) : sProp 𝕄 :=
  iprop(Pipeline.scopedRestBut (Ix := Unit) (Name := ℕ) (U := UR sig nD τ) (Lvl := ℕ) (Val := Elt F) spec0 c [cc0_scratch0, cc0_scratch1] ∗ (∃ r, prngReg c r))

/-- The launch's invariant with the two accumulators as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.KernelIdeal.Hand

end
-- ==== Proof.KI.R0RunA.lean ====
/-
  The fused row-pass kernel, a first step of the contracted axis: the body run on whole staging memrefs, the stores it leaves in
  the two accumulators (and, at a last step, in the two output blocks) found as the run's witness.
-/
import proofs.«175415_j18622978196102_2_alg».proof.Proof.KI.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the unscoped buffers hold when the region is entered, core by core
variable (V : (c : Dev nD) → (b : Ref sig .tc) → Buf (Elt F) ((c : Thread nD τ).loc b))

set_option maxHeartbeats 1000000 in
/-- At a first step: the three input blocks at their contents, the two outputs' buffers at contents handed back
    untouched, the two accumulators at anything; the body runs and leaves each accumulator with its pieces written
    (the zeroing, then the block's partial product added). -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i)
    (x0 x1 x2 : Vec F S1024x1024 .bf16) :
    Σ' (L3 : List (View.Piece (Elt F) S1024x1024 .bf16)) (L4 : List (View.Piece (Elt F) S1024x1024 .bf16)) (LS0 : List (View.Piece (Elt F) S1024x1024 .f32)), { LS1 : List (View.Piece (Elt F) S1024x1024 .f32) //
      ∀ (xi3 xi4 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4 ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0_row_fused_kernel i arg3 harg3 arg4 harg4 arg5 harg5 arg6 harg6 arg7 harg7 arg8 harg8 arg9 harg9) K } := by
  refine ⟨[], [], ?_, ?_, fun xi3 xi4 E K => ?run⟩
  case run =>
    simp only [cc0_row_fused_kernel_eq_skeleton]; unfold cc0_row_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    iexists _; iexact HS1

end Cert.KernelIdeal.Hand

end
-- ==== Proof.KI.R0RunB.lean ====
/-
  The fused row-pass kernel, a middle step of the contracted axis: the body run on whole staging memrefs, the stores it leaves in
  the two accumulators (and, at a last step, in the two output blocks) found as the run's witness.
-/
import proofs.«175415_j18622978196102_2_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the unscoped buffers hold when the region is entered, core by core
variable (V : (c : Dev nD) → (b : Ref sig .tc) → Buf (Elt F) ((c : Thread nD τ).loc b))

set_option maxHeartbeats 1000000 in
/-- At a middle step: as at a first step, but the accumulators enter at the contents the step before left. -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i)
    (x0 x1 x2 : Vec F S1024x1024 .bf16) (xs0 xs1 : Vec F S1024x1024 .f32) :
    Σ' (L3 : List (View.Piece (Elt F) S1024x1024 .bf16)) (L4 : List (View.Piece (Elt F) S1024x1024 .bf16)) (LS0 : List (View.Piece (Elt F) S1024x1024 .f32)), { LS1 : List (View.Piece (Elt F) S1024x1024 .f32) //
      ∀ (xi3 xi4 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4 ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0_row_fused_kernel i arg3 harg3 arg4 harg4 arg5 harg5 arg6 harg6 arg7 harg7 arg8 harg8 arg9 harg9) K } := by
  refine ⟨[], [], ?_, ?_, fun xi3 xi4 E K => ?run⟩
  case run =>
    simp only [cc0_row_fused_kernel_eq_skeleton]; unfold cc0_row_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    iexists _; iexact HS1

end Cert.KernelIdeal.Hand

end
-- ==== Proof.KI.R0RunC.lean ====
/-
  The fused row-pass kernel, a last step of the contracted axis: the body run on whole staging memrefs, the stores it leaves in
  the two accumulators (and, at a last step, in the two output blocks) found as the run's witness.
-/
import proofs.«175415_j18622978196102_2_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the unscoped buffers hold when the region is entered, core by core
variable (V : (c : Dev nD) → (b : Ref sig .tc) → Buf (Elt F) ((c : Thread nD τ).loc b))

set_option maxHeartbeats 1000000 in
/-- At a last step: the accumulators enter at the contents the step before left, the two outputs' buffers at
    anything; the body leaves all four with their pieces written. -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 x1 x2 : Vec F S1024x1024 .bf16) (xs0 xs1 : Vec F S1024x1024 .f32) :
    Σ' (L3 : List (View.Piece (Elt F) S1024x1024 .bf16)) (L4 : List (View.Piece (Elt F) S1024x1024 .bf16)) (LS0 : List (View.Piece (Elt F) S1024x1024 .f32)), { LS1 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0_row_fused_kernel i arg3 harg3 arg4 harg4 arg5 harg5 arg6 harg6 arg7 harg7 arg8 harg8 arg9 harg9) K } := by
  refine ⟨?_, ?_, ?_, ?_, fun E K => ?run⟩
  case run =>
    simp only [cc0_row_fused_kernel_eq_skeleton]; unfold cc0_row_fused_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    isplitl [HS0]; · iexists _; iexact HS0
    iexists _; iexact HS1

end Cert.KernelIdeal.Hand

end
-- ==== Proof.KI.R0.lean ====
/-
  The fused row-pass kernel's frame data: what the two output blocks and the two accumulators hold after every
  point of the grid (the accumulators zeroed at a contracted-axis first step, each block's partial product added at
  every step, both rounded into the outputs at the last step), the pipeline's proof data built from that, and the
  body obligation: at every point the body, run from the invariant and the windows' current buffers, returns them
  at the next point's.
-/
import proofs.«175415_j18622978196102_2_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the unscoped buffers hold when the region is entered, core by core
variable (V : (c : Dev nD) → (b : Ref sig .tc) → Buf (Elt F) ((c : Thread nD τ).loc b))

/-! ## What each case leaves -/

/-- At a first step nothing is stored into the first output's block (the window is idle there and not written
    back): no pieces — a placeholder that nothing consults. -/
def out0_A_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i)
    (x0 x1 x2 : Vec F S1024x1024 .bf16) : Vec F S1024x1024 .bf16 :=
  VO0_3.read (Elt F) (VO0_3.writes (Elt F) VO0_3.junk (kernelRun0_A c i arg3 harg3 arg4 harg4 arg5 harg5 arg6 harg6 arg7 harg7 arg8 harg8 arg9 harg9 hc0 hc1 x0 x1 x2).1)

/-- At a first step nothing is stored into the second output's block (the window is idle there and not written
    back): no pieces — a placeholder that nothing consults. -/
def out0_A_4 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i)
    (x0 x1 x2 : Vec F S1024x1024 .bf16) : Vec F S1024x1024 .bf16 :=
  VO0_4.read (Elt F) (VO0_4.writes (Elt F) VO0_4.junk (kernelRun0_A c i arg3 harg3 arg4 harg4 arg5 harg5 arg6 harg6 arg7 harg7 arg8 harg8 arg9 harg9 hc0 hc1 x0 x1 x2).2.1)

/-- At a first step the stores into the first accumulator tile it, so they cover it. -/
theorem scover0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i)
    (x0 x1 x2 : Vec F S1024x1024 .bf16) (y : S1024x1024.Idx) :
    ∃ pc ∈ (kernelRun0_A c i arg3 harg3 arg4 harg4 arg5 harg5 arg6 harg6 arg7 harg7 arg8 harg8 arg9 harg9 hc0 hc1 x0 x1 x2).2.2.1, y ∈ pc.1.set :=
  View.cover_of_tiledL (kernelRun0_A c i arg3 harg3 arg4 harg4 arg5 harg5 arg6 harg6 arg7 harg7 arg8 harg8 arg9 harg9 hc0 hc1 x0 x1 x2).2.2.1 S1024x1024.size (by sl_kernel_rfl) y

/-- What a first step leaves in the first accumulator: its pieces read back. -/
def sout0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i)
    (x0 x1 x2 : Vec F S1024x1024 .bf16) : Vec F S1024x1024 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1 x2).2.2.1)

/-- At a first step the stores into the second accumulator tile it, so they cover it. -/
theorem scover0_A_1 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i)
    (x0 x1 x2 : Vec F S1024x1024 .bf16) (y : S1024x1024.Idx) :
    ∃ pc ∈ (kernelRun0_A c i arg3 harg3 arg4 harg4 arg5 harg5 arg6 harg6 arg7 harg7 arg8 harg8 arg9 harg9 hc0 hc1 x0 x1 x2).2.2.2.1, y ∈ pc.1.set :=
  View.cover_of_tiledL (kernelRun0_A c i arg3 harg3 arg4 harg4 arg5 harg5 arg6 harg6 arg7 harg7 arg8 harg8 arg9 harg9 hc0 hc1 x0 x1 x2).2.2.2.1 S1024x1024.size (by sl_kernel_rfl) y

/-- What a first step leaves in the second accumulator: its pieces read back. -/
def sout0_A_1 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i)
    (x0 x1 x2 : Vec F S1024x1024 .bf16) : Vec F S1024x1024 .f32 :=
  VS0_1.read (Elt F) (VS0_1.writes (Elt F) VS0_1.junk (kernelRun0_A c i arg3 harg3 arg4 harg4 arg5 harg5 arg6 harg6 arg7 harg7 arg8 harg8 arg9 harg9 hc0 hc1 x0 x1 x2).2.2.2.1)

/-- At a middle step nothing is stored into the first output's block (the window is idle there and not written
    back): no pieces — a placeholder that nothing consults. -/
def out0_B_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i)
    (x0 x1 x2 : Vec F S1024x1024 .bf16) (xs0 xs1 : Vec F S1024x1024 .f32) : Vec F S1024x1024 .bf16 :=
  VO0_3.read (Elt F) (VO0_3.writes (Elt F) VO0_3.junk (kernelRun0_B c i arg3 harg3 arg4 harg4 arg5 harg5 arg6 harg6 arg7 harg7 arg8 harg8 arg9 harg9 hc0 hc1 x0 x1 x2 xs0 xs1).1)

/-- At a middle step nothing is stored into the second output's block (the window is idle there and not written
    back): no pieces — a placeholder that nothing consults. -/
def out0_B_4 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i)
    (x0 x1 x2 : Vec F S1024x1024 .bf16) (xs0 xs1 : Vec F S1024x1024 .f32) : Vec F S1024x1024 .bf16 :=
  VO0_4.read (Elt F) (VO0_4.writes (Elt F) VO0_4.junk (kernelRun0_B c i arg3 harg3 arg4 harg4 arg5 harg5 arg6 harg6 arg7 harg7 arg8 harg8 arg9 harg9 hc0 hc1 x0 x1 x2 xs0 xs1).2.1)

/-- At a middle step the stores into the first accumulator tile it, so they cover it. -/
theorem scover0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i)
    (x0 x1 x2 : Vec F S1024x1024 .bf16) (xs0 xs1 : Vec F S1024x1024 .f32) (y : S1024x1024.Idx) :
    ∃ pc ∈ (kernelRun0_B c i arg3 harg3 arg4 harg4 arg5 harg5 arg6 harg6 arg7 harg7 arg8 harg8 arg9 harg9 hc0 hc1 x0 x1 x2 xs0 xs1).2.2.1, y ∈ pc.1.set :=
  View.cover_of_tiledL (kernelRun0_B c i arg3 harg3 arg4 harg4 arg5 harg5 arg6 harg6 arg7 harg7 arg8 harg8 arg9 harg9 hc0 hc1 x0 x1 x2 xs0 xs1).2.2.1 S1024x1024.size (by sl_kernel_rfl) y

/-- What a middle step leaves in the first accumulator: its pieces read back. -/
def sout0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i)
    (x0 x1 x2 : Vec F S1024x1024 .bf16) (xs0 xs1 : Vec F S1024x1024 .f32) : Vec F S1024x1024 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 xs0 xs1).2.2.1)

/-- At a middle step the stores into the second accumulator tile it, so they cover it. -/
theorem scover0_B_1 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i)
    (x0 x1 x2 : Vec F S1024x1024 .bf16) (xs0 xs1 : Vec F S1024x1024 .f32) (y : S1024x1024.Idx) :
    ∃ pc ∈ (kernelRun0_B c i arg3 harg3 arg4 harg4 arg5 harg5 arg6 harg6 arg7 harg7 arg8 harg8 arg9 harg9 hc0 hc1 x0 x1 x2 xs0 xs1).2.2.2.1, y ∈ pc.1.set :=
  View.cover_of_tiledL (kernelRun0_B c i arg3 harg3 arg4 harg4 arg5 harg5 arg6 harg6 arg7 harg7 arg8 harg8 arg9 harg9 hc0 hc1 x0 x1 x2 xs0 xs1).2.2.2.1 S1024x1024.size (by sl_kernel_rfl) y

/-- What a middle step leaves in the second accumulator: its pieces read back. -/
def sout0_B_1 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i)
    (x0 x1 x2 : Vec F S1024x1024 .bf16) (xs0 xs1 : Vec F S1024x1024 .f32) : Vec F S1024x1024 .f32 :=
  VS0_1.read (Elt F) (VS0_1.writes (Elt F) VS0_1.junk (kernelRun0_B c i arg3 harg3 arg4 harg4 arg5 harg5 arg6 harg6 arg7 harg7 arg8 harg8 arg9 harg9 hc0 hc1 x0 x1 x2 xs0 xs1).2.2.2.1)

/-- At a last step the stores into the first output's block tile it, so they cover it. -/
theorem cover0_C_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 x1 x2 : Vec F S1024x1024 .bf16) (xs0 xs1 : Vec F S1024x1024 .f32) (y : S1024x1024.Idx) :
    ∃ pc ∈ (kernelRun0_C c i arg3 harg3 arg4 harg4 arg5 harg5 arg6 harg6 arg7 harg7 arg8 harg8 arg9 harg9 hc0 hc1 x0 x1 x2 xs0 xs1).1, y ∈ pc.1.set :=
  View.cover_of_tiledL (kernelRun0_C c i arg3 harg3 arg4 harg4 arg5 harg5 arg6 harg6 arg7 harg7 arg8 harg8 arg9 harg9 hc0 hc1 x0 x1 x2 xs0 xs1).1 S1024x1024.size (by sl_kernel_rfl) y

/-- What a last step leaves in the first output's staging buffer: its pieces read back. -/
def out0_C_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 x1 x2 : Vec F S1024x1024 .bf16) (xs0 xs1 : Vec F S1024x1024 .f32) : Vec F S1024x1024 .bf16 :=
  VO0_3.read (Elt F) (VO0_3.writes (Elt F) VO0_3.junk (kernelRun0_C c i arg3 harg3 arg4 harg4 arg5 harg5 arg6 harg6 arg7 harg7 arg8 harg8 arg9 harg9 hc0 hc1 x0 x1 x2 xs0 xs1).1)

/-- At a last step the stores into the second output's block tile it, so they cover it. -/
theorem cover0_C_4 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 x1 x2 : Vec F S1024x1024 .bf16) (xs0 xs1 : Vec F S1024x1024 .f32) (y : S1024x1024.Idx) :
    ∃ pc ∈ (kernelRun0_C c i arg3 harg3 arg4 harg4 arg5 harg5 arg6 harg6 arg7 harg7 arg8 harg8 arg9 harg9 hc0 hc1 x0 x1 x2 xs0 xs1).2.1, y ∈ pc.1.set :=
  View.cover_of_tiledL (kernelRun0_C c i arg3 harg3 arg4 harg4 arg5 harg5 arg6 harg6 arg7 harg7 arg8 harg8 arg9 harg9 hc0 hc1 x0 x1 x2 xs0 xs1).2.1 S1024x1024.size (by sl_kernel_rfl) y

/-- What a last step leaves in the second output's staging buffer: its pieces read back. -/
def out0_C_4 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 x1 x2 : Vec F S1024x1024 .bf16) (xs0 xs1 : Vec F S1024x1024 .f32) : Vec F S1024x1024 .bf16 :=
  VO0_4.read (Elt F) (VO0_4.writes (Elt F) VO0_4.junk (kernelRun0_C c i arg3 harg3 arg4 harg4 arg5 harg5 arg6 harg6 arg7 harg7 arg8 harg8 arg9 harg9 hc0 hc1 x0 x1 x2 xs0 xs1).2.1)

/-- At a last step the stores into the first accumulator tile it, so they cover it. -/
theorem scover0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 x1 x2 : Vec F S1024x1024 .bf16) (xs0 xs1 : Vec F S1024x1024 .f32) (y : S1024x1024.Idx) :
    ∃ pc ∈ (kernelRun0_C c i arg3 harg3 arg4 harg4 arg5 harg5 arg6 harg6 arg7 harg7 arg8 harg8 arg9 harg9 hc0 hc1 x0 x1 x2 xs0 xs1).2.2.1, y ∈ pc.1.set :=
  View.cover_of_tiledL (kernelRun0_C c i arg3 harg3 arg4 harg4 arg5 harg5 arg6 harg6 arg7 harg7 arg8 harg8 arg9 harg9 hc0 hc1 x0 x1 x2 xs0 xs1).2.2.1 S1024x1024.size (by sl_kernel_rfl) y

/-- What a last step leaves in the first accumulator: its pieces read back. -/
def sout0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 x1 x2 : Vec F S1024x1024 .bf16) (xs0 xs1 : Vec F S1024x1024 .f32) : Vec F S1024x1024 .f32 :=
  VS0_0.read (Elt F) (VS0_0.writes (Elt F) VS0_0.junk (kernelRun0_C c i arg3 harg3 arg4 harg4 arg5 harg5 arg6 harg6 arg7 harg7 arg8 harg8 arg9 harg9 hc0 hc1 x0 x1 x2 xs0 xs1).2.2.1)

/-- At a last step the stores into the second accumulator tile it, so they cover it. -/
theorem scover0_C_1 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 x1 x2 : Vec F S1024x1024 .bf16) (xs0 xs1 : Vec F S1024x1024 .f32) (y : S1024x1024.Idx) :
    ∃ pc ∈ (kernelRun0_C c i arg3 harg3 arg4 harg4 arg5 harg5 arg6 harg6 arg7 harg7 arg8 harg8 arg9 harg9 hc0 hc1 x0 x1 x2 xs0 xs1).2.2.2.1, y ∈ pc.1.set :=
  View.cover_of_tiledL (kernelRun0_C c i arg3 harg3 arg4 harg4 arg5 harg5 arg6 harg6 arg7 harg7 arg8 harg8 arg9 harg9 hc0 hc1 x0 x1 x2 xs0 xs1).2.2.2.1 S1024x1024.size (by sl_kernel_rfl) y

/-- What a last step leaves in the second accumulator: its pieces read back. -/
def sout0_C_1 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 x1 x2 : Vec F S1024x1024 .bf16) (xs0 xs1 : Vec F S1024x1024 .f32) : Vec F S1024x1024 .f32 :=
  VS0_1.read (Elt F) (VS0_1.writes (Elt F) VS0_1.junk (kernelRun0_C c i arg3 harg3 arg4 harg4 arg5 harg5 arg6 harg6 arg7 harg7 arg8 harg8 arg9 harg9 hc0 hc1 x0 x1 x2 xs0 xs1).2.2.2.1)

/-! ## What the outputs and the accumulators hold after each point -/

/-- THE ACCUMULATION. What the two outputs' staging buffers and the two accumulators hold after the body at position
    `n` (a tuple: first output, second output, first accumulator, second accumulator): the case the position's
    residue mod 4 selects, run at the point's memrefs and input blocks, the accumulators entering a middle or last
    step at what this leaves at `n - 1`. Residues 0 and 3 at once are no case. -/
def outsAt0 (c : Dev nD) : (n : ℕ) → n < cfg0.N → Vec F S1024x1024 .bf16 × Vec F S1024x1024 .bf16 × Vec F S1024x1024 .f32 × Vec F S1024x1024 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 4 = 0 then
      if h1 : (n + 1) % 4 = 3 then
        False.elim (by have hN : n + 1 < 64 := lt_of_lt_of_eq hn (show cfg0.N = 64 from N_0); omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2)

/-- `outsAt0` at a first step: that case's contents. -/
theorem outsAt0_A (c : Dev nD) (t : Fin cfg0.N) (h0 : t.val % 4 = 0) (h1 : ¬t.val % 4 = 3) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at a middle step: that case's contents, over what the step before left in the accumulators. -/
theorem outsAt0_B (c : Dev nD) (t : Fin cfg0.N) (h0 : ¬t.val % 4 = 0) (h1 : ¬t.val % 4 = 3) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last step: that case's contents, over what the step before left in the accumulators. -/
theorem outsAt0_C (c : Dev nD) (t : Fin cfg0.N) (h0 : ¬t.val % 4 = 0) (h1 : t.val % 4 = 3) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (both accumulators at anything);
    afterwards both accumulators at what the point before left in them (`outsAt0`'s last two components), the other
    scoped buffers unopened, and the generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.1) ∗ owns (c : Thread nD τ) scM0_1 fullShare ((outsAt0 V c n hn).2.2.2)) ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulators at that point's contents. -/
theorem PhiS0_succ (c : Dev nD) (n : ℕ) (hn : n < cfg0.N) :
    PhiS0 V c (n + 1) hn = iprop(iprop(iprop(owns (c : Thread nD τ) scM0_0 fullShare ((outsAt0 V c n hn).2.2.1) ∗ owns (c : Thread nD τ) scM0_1 fullShare ((outsAt0 V c n hn).2.2.2)) ∗ Pipeline.scopedRestBut (Ix := Unit) (Name := ℕ) (U := UR sig nD τ) (Lvl := ℕ) (Val := Elt F) spec0 c [cc0_scratch0, cc0_scratch1]) ∗ (∃ r, prngReg c r)) := rfl

/-- Before a point that is not the first: the accumulators at what the point before left. -/
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.1) ∗ owns (c : Thread nD τ) scM0_1 fullShare ((outsAt0 V c (n - 1) (by omega)).2.2.2)) ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The pipeline's proof data -/

/-- The proof data of this kernel's pipeline on core `c`: the arrays as the region finds them; after the body at
    point `t` each input's buffer at its block and the two outputs' at `outsAt0`'s first two components; the invariant
    `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' memrefs hold their blocks; the position's residue mod 4 says which case the
    point is in, so that case's run applies; the invariant hands the body both accumulators at what the point before
    left (at anything at the first point), the other scoped buffers and the generator register ride along untouched,
    and the accumulators come back at this point's contents (their stores cover them); at a last step the two
    outputs' buffers come back at theirs, elsewhere untouched; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 4 = 0
  · by_cases h1 : t.val % 4 = 3
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold sout0_A_0 sout0_A_1; (try dsimp only)
      by_cases hz : t.val = 0
      · rw [PhiS0_castSucc V c t, PhiS0_zero V c _ _ hz, PhiA0_eq]
        iintro ⟨⟨⟨⟨HS0, HS1⟩, Hb⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t)).2.2.2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _)
              · unfold owns; iexists _; isplitr
                swap; · iexact HS1
                ipureintro; exact View.read_writes_of_cover _ _ _ _ _ (scover0_A_1 c _ _ _ _ _ _ _ _ _ _ _ _ _ _ _ _ _ _ _ _)
            · iexact Hb
          · iexact Hg
        isplitl [Ho]; · iexact Ho
        isplitl [H0]; · iexact H0
        isplitl [H1]; · iexact H1
        isplitl [H2]; · iexact H2
        isplitl [H3]; · iexists _; iexact H3
        iexists _; iexact H4
      · rw [PhiS0_castSucc V c t, PhiS0_pos V c _ _ hz]
        iintro ⟨⟨⟨⟨HS0, HS1⟩, Hb⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t)).2.2.2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _)
              · unfold owns; iexists _; isplitr
                swap; · iexact HS1
                ipureintro; exact View.read_writes_of_cover _ _ _ _ _ (scover0_A_1 c _ _ _ _ _ _ _ _ _ _ _ _ _ _ _ _ _ _ _ _)
            · iexact Hb
          · iexact Hg
        isplitl [Ho]; · iexact Ho
        isplitl [H0]; · iexact H0
        isplitl [H1]; · iexact H1
        isplitl [H2]; · iexact H2
        isplitl [H3]; · iexists _; iexact H3
        iexists _; iexact H4
  · by_cases h1 : t.val % 4 = 3
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [outsAt0_C V c t h0 h1]
      unfold out0_C_3 out0_C_4 sout0_C_0 sout0_C_1; (try dsimp only)
      by_cases hz : t.val = 0
      · exfalso; omega
      · rw [PhiS0_castSucc V c t, PhiS0_pos V c _ _ hz]
        iintro ⟨⟨⟨⟨HS0, HS1⟩, Hb⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) _ _).2.2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        isplitl [HS1]; · iexact HS1
        iintro ⟨H0, H1, H2, ⟨%e3, H3⟩, ⟨%e4, H4⟩, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _)
              · unfold owns; iexists _; isplitr
                swap; · iexact HS1
                ipureintro; exact View.read_writes_of_cover _ _ _ _ _ (scover0_C_1 c _ _ _ _ _ _ _ _ _ _ _ _ _ _ _ _ _ _ _ _ _ _)
            · iexact Hb
          · iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B V c t h0 h1]
      unfold sout0_B_0 sout0_B_1; (try dsimp only)
      by_cases hz : t.val = 0
      · exfalso; omega
      · rw [PhiS0_castSucc V c t, PhiS0_pos V c _ _ hz]
        iintro ⟨⟨⟨⟨HS0, HS1⟩, Hb⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) _ _).2.2.2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hb Hg]
        · isplitl [HS0 HS1 Hb]
          · isplitl [HS0 HS1]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _)
              · unfold owns; iexists _; isplitr
                swap; · iexact HS1
                ipureintro; exact View.read_writes_of_cover _ _ _ _ _ (scover0_B_1 c _ _ _ _ _ _ _ _ _ _ _ _ _ _ _ _ _ _ _ _ _ _)
            · iexact Hb
          · iexact Hg
        isplitl [Ho]; · iexact Ho
        isplitl [H0]; · iexact H0
        isplitl [H1]; · iexact H1
        isplitl [H2]; · iexact H2
        isplitl [H3]; · iexists _; iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hb⟩, Hg⟩
  isplitl [HS0 HS1 Hb]
  · isplitl [HS0 HS1]
    · isplitl [HS0]
      · iexists _; iexact HS0
      · iexists _; iexact HS1
    · iexact Hb
  · iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Hand

end
-- ==== Proof.KI.R1Runs.lean ====
/-
  Column-pass kernel 1 (one of the two kernels that form W_rᵀ·A ∓ W_iᵀ·B block by block): what its three control
  cases share. The grid is 4 × 4 × 4, the last axis the contracted one; a point's position t has t mod 4 = that axis.
  At the axis' first step the accumulator is zeroed, at every step the block's two partial products are added to it,
  and at the last step it is copied into the output block, which the pipeline then writes back; at the other steps
  the output's staging buffer is left alone and not written back.
-/
import proofs.«175415_j18622978196102_2_alg».proof.Proof.Gen.KernelIdeal.Launch
import proofs.«175415_j18622978196102_2_alg».proof.Proof.Gen.KernelIdeal.Skeleton
import proofs.«175415_j18622978196102_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the unscoped buffers hold when the region is entered, core by core
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, over the grid -/

/-- "This is the contracted axis' first step". -/
abbrev cond1_0 (i : grid1.Coords) : Prop := (Scalar.cmpi .ne (Scalar.extui (Scalar.cmpi .eq (BitVec.ofNat 32 (i 2).val) 0#32)) 0#32) = 1#1
/-- It holds at the positions ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)
/-- "This is the contracted axis' last step". -/
abbrev cond1_1 (i : grid1.Coords) : Prop := k1_cond2 i = 1#1
/-- It holds at the positions ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- At a first step the output window is idle and not written back. -/
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
/-- At a middle step likewise. -/
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
/-- At a last step the output window is live: the body stores into it. -/
theorem liveAt1_4_C : ∀ t : Fin cfg1.N, ¬cond1_0 (grid1.coords t) → cond1_1 (grid1.coords t) → cfg1.idle 4 (grid1.coords t) = false := by decide +kernel

/-! ## The memrefs the body is called with -/

/-- One staging buffer of the output window, through which its contents are stated. -/
abbrev VO1_4 : View sig .tc .vmem S1024x1024 .f32 := (Memref.whole cc1_stg4_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1_0 : Memref sig .tc .vmem S1024x1024 .f32 := Memref.whole cc1_scratch0
abbrev VS1_0 : View sig .tc .vmem S1024x1024 .f32 := scM1_0.view

/-- The scoped buffers no window of this kernel stages, split at the accumulator. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The other scoped buffers and the generator register: what rides beside the accumulator through every point. -/
def Rest1 (c : Dev nD) : sProp 𝕄 :=
  iprop(Pipeline.scopedRestBut (Ix := Unit) (Name := ℕ) (U := UR sig nD τ) (Lvl := ℕ) (Val := Elt F) spec1 c [cc1_scratch0] ∗ (∃ r, prngReg c r))

/-- The launch's invariant with the accumulator as a memref owned at some contents. -/
theorem PhiA1_eq (c : Dev nD) :
    (Pipeline.ΦA spec1 c : sProp 𝕄)
      = iprop(iprop((∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.KernelIdeal.Hand

end
-- ==== Proof.KI.R1RunA.lean ====
/-
  Column-pass kernel 1, a first step of the contracted axis: the body run on whole staging memrefs, the stores it leaves in the accumulator
  (and, at a last step, in the output block) found as the run's witness.
-/
import proofs.«175415_j18622978196102_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the unscoped buffers hold when the region is entered, core by core
variable (V : (c : Dev nD) → (b : Ref sig .tc) → Buf (Elt F) ((c : Thread nD τ).loc b))

set_option maxHeartbeats 1000000 in
/-- At a first step: the four input blocks at their contents, the output's buffer at contents handed back untouched,
    the accumulator at anything; the body runs and leaves the accumulator with its pieces written. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 x1 x2 x3 : Vec F S1024x1024 .bf16) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1_col_kernel i arg3 harg3 arg4 harg4 arg5 harg5 arg6 harg6 arg7 harg7 arg8 harg8) K } := by
  refine ⟨[], ?_, fun xi4 E K => ?run⟩
  case run =>
    simp only [cc1_col_kernel_eq_skeleton]; unfold cc1_col_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Hand

end
-- ==== Proof.KI.R1RunB.lean ====
/-
  Column-pass kernel 1, a middle step of the contracted axis: the body run on whole staging memrefs, the stores it leaves in the accumulator
  (and, at a last step, in the output block) found as the run's witness.
-/
import proofs.«175415_j18622978196102_2_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the unscoped buffers hold when the region is entered, core by core
variable (V : (c : Dev nD) → (b : Ref sig .tc) → Buf (Elt F) ((c : Thread nD τ).loc b))

set_option maxHeartbeats 1000000 in
/-- At a middle step: as at a first step, but the accumulator enters at the contents the step before left. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 x1 x2 x3 : Vec F S1024x1024 .bf16) (xs0 : Vec F S1024x1024 .f32) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1_col_kernel i arg3 harg3 arg4 harg4 arg5 harg5 arg6 harg6 arg7 harg7 arg8 harg8) K } := by
  refine ⟨[], ?_, fun xi4 E K => ?run⟩
  case run =>
    simp only [cc1_col_kernel_eq_skeleton]; unfold cc1_col_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Hand

end
-- ==== Proof.KI.R1RunC.lean ====
/-
  Column-pass kernel 1, a last step of the contracted axis: the body run on whole staging memrefs, the stores it leaves in the accumulator
  (and, at a last step, in the output block) found as the run's witness.
-/
import proofs.«175415_j18622978196102_2_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the unscoped buffers hold when the region is entered, core by core
variable (V : (c : Dev nD) → (b : Ref sig .tc) → Buf (Elt F) ((c : Thread nD τ).loc b))

set_option maxHeartbeats 1000000 in
/-- At a last step: the accumulator enters at the contents the step before left, the output's buffer at anything;
    the body leaves both with their pieces written. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 x1 x2 x3 : Vec F S1024x1024 .bf16) (xs0 : Vec F S1024x1024 .f32) :
    Σ' (L4 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1_col_kernel i arg3 harg3 arg4 harg4 arg5 harg5 arg6 harg6 arg7 harg7 arg8 harg8) K } := by
  refine ⟨?_, ?_, fun E K => ?run⟩
  case run =>
    simp only [cc1_col_kernel_eq_skeleton]; unfold cc1_col_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Hand

end
-- ==== Proof.KI.R1.lean ====
/-
  Column-pass kernel 1: what its accumulator and its output block hold after each grid point, the region's proof
  data over them, and the body obligation. The accumulator is carried from point to point inside the region's
  invariant: before the first point the kernel's scoped buffers are at anything; after point n the accumulator holds
  what the case of point n left in it, and that is what the body at point n + 1 finds.
-/
import proofs.«175415_j18622978196102_2_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the unscoped buffers hold when the region is entered, core by core
variable (V : (c : Dev nD) → (b : Ref sig .tc) → Buf (Elt F) ((c : Thread nD τ).loc b))

/-! ## What each case leaves -/

/-- A first step stores nothing into the output block (idle there, not written back): a placeholder nothing consults. -/
def out1_A_4 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i) (x0 x1 x2 x3 : Vec F S1024x1024 .bf16) : Vec F S1024x1024 .f32 :=
  VO1_4.read (Elt F) (VO1_4.writes (Elt F) VO1_4.junk (kernelRun1_A c i arg3 harg3 arg4 harg4 arg5 harg5 arg6 harg6 arg7 harg7 arg8 harg8 hc0 hc1 x0 x1 x2 x3).1)
/-- A first step's stores cover the accumulator. -/
theorem scover1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i) (x0 x1 x2 x3 : Vec F S1024x1024 .bf16) (y : S1024x1024.Idx) :
    ∃ pc ∈ (kernelRun1_A c i arg3 harg3 arg4 harg4 arg5 harg5 arg6 harg6 arg7 harg7 arg8 harg8 hc0 hc1 x0 x1 x2 x3).2.1, y ∈ pc.1.set :=
  View.cover_of_tiledL (kernelRun1_A c i arg3 harg3 arg4 harg4 arg5 harg5 arg6 harg6 arg7 harg7 arg8 harg8 hc0 hc1 x0 x1 x2 x3).2.1 S1024x1024.size (by sl_kernel_rfl) y
/-- What a first step leaves in the accumulator. -/
def sout1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i) (x0 x1 x2 x3 : Vec F S1024x1024 .bf16) : Vec F S1024x1024 .f32 :=
  VS1_0.read (Elt F) (VS1_0.writes (Elt F) VS1_0.junk (kernelRun1_A c i arg3 harg3 arg4 harg4 arg5 harg5 arg6 harg6 arg7 harg7 arg8 harg8 hc0 hc1 x0 x1 x2 x3).2.1)

/-- A middle step stores nothing into the output block either. -/
def out1_B_4 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i) (x0 x1 x2 x3 : Vec F S1024x1024 .bf16) (xs0 : Vec F S1024x1024 .f32) : Vec F S1024x1024 .f32 :=
  VO1_4.read (Elt F) (VO1_4.writes (Elt F) VO1_4.junk (kernelRun1_B c i arg3 harg3 arg4 harg4 arg5 harg5 arg6 harg6 arg7 harg7 arg8 harg8 hc0 hc1 x0 x1 x2 x3 xs0).1)
theorem scover1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i) (x0 x1 x2 x3 : Vec F S1024x1024 .bf16) (xs0 : Vec F S1024x1024 .f32) (y : S1024x1024.Idx) :
    ∃ pc ∈ (kernelRun1_B c i arg3 harg3 arg4 harg4 arg5 harg5 arg6 harg6 arg7 harg7 arg8 harg8 hc0 hc1 x0 x1 x2 x3 xs0).2.1, y ∈ pc.1.set :=
  View.cover_of_tiledL (kernelRun1_B c i arg3 harg3 arg4 harg4 arg5 harg5 arg6 harg6 arg7 harg7 arg8 harg8 hc0 hc1 x0 x1 x2 x3 xs0).2.1 S1024x1024.size (by sl_kernel_rfl) y
/-- What a middle step leaves in the accumulator. -/
def sout1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i) (x0 x1 x2 x3 : Vec F S1024x1024 .bf16) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 arg8 harg8 hc0 hc1 x0 x1 x2 x3 xs0).2.1)

/-- A last step's store covers the output block. -/
theorem cover1_C_4 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i) (x0 x1 x2 x3 : Vec F S1024x1024 .bf16) (xs0 : Vec F S1024x1024 .f32) (y : S1024x1024.Idx) :
    ∃ pc ∈ (kernelRun1_C c i arg3 harg3 arg4 harg4 arg5 harg5 arg6 harg6 arg7 harg7 arg8 harg8 hc0 hc1 x0 x1 x2 x3 xs0).1, y ∈ pc.1.set :=
  View.cover_of_tiledL (kernelRun1_C c i arg3 harg3 arg4 harg4 arg5 harg5 arg6 harg6 arg7 harg7 arg8 harg8 hc0 hc1 x0 x1 x2 x3 xs0).1 S1024x1024.size (by sl_kernel_rfl) y
/-- What a last step leaves in the output block. -/
def out1_C_4 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i) (x0 x1 x2 x3 : Vec F S1024x1024 .bf16) (xs0 : Vec F S1024x1024 .f32) : Vec F S1024x1024 .f32 :=
  VO1_4.read (Elt F) (VO1_4.writes (Elt F) VO1_4.junk (kernelRun1_C c i arg3 harg3 arg4 harg4 arg5 harg5 arg6 harg6 arg7 harg7 arg8 harg8 hc0 hc1 x0 x1 x2 x3 xs0).1)
theorem scover1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i) (x0 x1 x2 x3 : Vec F S1024x1024 .bf16) (xs0 : Vec F S1024x1024 .f32) (y : S1024x1024.Idx) :
    ∃ pc ∈ (kernelRun1_C c i arg3 harg3 arg4 harg4 arg5 harg5 arg6 harg6 arg7 harg7 arg8 harg8 hc0 hc1 x0 x1 x2 x3 xs0).2.1, y ∈ pc.1.set :=
  View.cover_of_tiledL (kernelRun1_C c i arg3 harg3 arg4 harg4 arg5 harg5 arg6 harg6 arg7 harg7 arg8 harg8 hc0 hc1 x0 x1 x2 x3 xs0).2.1 S1024x1024.size (by sl_kernel_rfl) y
/-- What a last step leaves in the accumulator. -/
def sout1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i) (x0 x1 x2 x3 : Vec F S1024x1024 .bf16) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 arg8 harg8 hc0 hc1 x0 x1 x2 x3 xs0).2.1)

/-! ## Point by point -/

/-- What the output block's staging buffer and the accumulator hold after the body at position `n`: the case of
    position `n` run on the point's input blocks, the accumulator entering at what position `n - 1` left. -/
def outsAt1 (c : Dev nD) : (n : ℕ) → n < cfg1.N → Vec F S1024x1024 .f32 × Vec F S1024x1024 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      if h1 : (n + 1) % 4 = 3 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩),
          sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
          sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
          sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t),
      sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the first point what the launch hands over (every scoped buffer at anything); afterwards the
    accumulator at what the point before left, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The region's proof data on core `c`: the arrays as the region finds them; after the body at point `t` each
    input's buffer at its block, the output's at `outsAt1`'s first component; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))
/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 4800000 in
/-- The body at any point: the inputs' buffers hold their blocks; the position decides the case; the invariant hands the
    body the accumulator at what the point before left (at anything at the first point) and takes it back at this point's
    contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_C_0 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_B_0 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.KI.R2Runs.lean ====
/-
  Column-pass kernel 2 (one of the two kernels that form W_rᵀ·A ∓ W_iᵀ·B block by block): what its three control
  cases share. The grid is 4 × 4 × 4, the last axis the contracted one; a point's position t has t mod 4 = that axis.
  At the axis' first step the accumulator is zeroed, at every step the block's two partial products are added to it,
  and at the last step it is copied into the output block, which the pipeline then writes back; at the other steps
  the output's staging buffer is left alone and not written back.
-/
import proofs.«175415_j18622978196102_2_alg».proof.Proof.Gen.KernelIdeal.Launch
import proofs.«175415_j18622978196102_2_alg».proof.Proof.Gen.KernelIdeal.Skeleton
import proofs.«175415_j18622978196102_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the unscoped buffers hold when the region is entered, core by core
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, over the grid -/

/-- "This is the contracted axis' first step". -/
abbrev cond2_0 (i : grid2.Coords) : Prop := (Scalar.cmpi .ne (Scalar.extui (Scalar.cmpi .eq (BitVec.ofNat 32 (i 2).val) 0#32)) 0#32) = 1#1
/-- It holds at the positions ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)
/-- "This is the contracted axis' last step". -/
abbrev cond2_1 (i : grid2.Coords) : Prop := k2_cond2 i = 1#1
/-- It holds at the positions ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- At a first step the output window is idle and not written back. -/
theorem idleAt2_4_A : ∀ t : Fin cfg2.N, cond2_0 (grid2.coords t) → ¬cond2_1 (grid2.coords t) → cfg2.idle 4 (grid2.coords t) = true := by decide +kernel
theorem noFlush2_4_A : ∀ t : Fin cfg2.N, cond2_0 (grid2.coords t) → ¬cond2_1 (grid2.coords t) → (cfg2.win 4).flush t = false := by decide +kernel
/-- At a middle step likewise. -/
theorem idleAt2_4_B : ∀ t : Fin cfg2.N, ¬cond2_0 (grid2.coords t) → ¬cond2_1 (grid2.coords t) → cfg2.idle 4 (grid2.coords t) = true := by decide +kernel
theorem noFlush2_4_B : ∀ t : Fin cfg2.N, ¬cond2_0 (grid2.coords t) → ¬cond2_1 (grid2.coords t) → (cfg2.win 4).flush t = false := by decide +kernel
/-- At a last step the output window is live: the body stores into it. -/
theorem liveAt2_4_C : ∀ t : Fin cfg2.N, ¬cond2_0 (grid2.coords t) → cond2_1 (grid2.coords t) → cfg2.idle 4 (grid2.coords t) = false := by decide +kernel

/-! ## The memrefs the body is called with -/

/-- One staging buffer of the output window, through which its contents are stated. -/
abbrev VO2_4 : View sig .tc .vmem S1024x1024 .f32 := (Memref.whole cc2_stg4_0 : Memref sig .tc .vmem S1024x1024 .f32).view
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1024 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1024 .f32 := win2_4.stage (cfg2.slots t 4)
abbrev hs2_4 (t : Fin cfg2.N) : (ms2_4 t).IsWhole := hstage2_4 ((cfg2.slots t 4).cast nbuf2_4)
/-- The accumulator: a whole scoped buffer of the kernel's own. -/
abbrev scM2_0 : Memref sig .tc .vmem S1024x1024 .f32 := Memref.whole cc2_scratch0
abbrev VS2_0 : View sig .tc .vmem S1024x1024 .f32 := scM2_0.view

/-- The scoped buffers no window of this kernel stages, split at the accumulator. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The other scoped buffers and the generator register: what rides beside the accumulator through every point. -/
def Rest2 (c : Dev nD) : sProp 𝕄 :=
  iprop(Pipeline.scopedRestBut (Ix := Unit) (Name := ℕ) (U := UR sig nD τ) (Lvl := ℕ) (Val := Elt F) spec2 c [cc2_scratch0] ∗ (∃ r, prngReg c r))

/-- The launch's invariant with the accumulator as a memref owned at some contents. -/
theorem PhiA2_eq (c : Dev nD) :
    (Pipeline.ΦA spec2 c : sProp 𝕄)
      = iprop(iprop((∃ d, owns (c : Thread nD τ) scM2_0 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

end Cert.KernelIdeal.Hand

end
-- ==== Proof.KI.R2RunA.lean ====
/-
  Column-pass kernel 2, a first step of the contracted axis: the body run on whole staging memrefs, the stores it leaves in the accumulator
  (and, at a last step, in the output block) found as the run's witness.
-/
import proofs.«175415_j18622978196102_2_alg».proof.Proof.KI.R2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the unscoped buffers hold when the region is entered, core by core
variable (V : (c : Dev nD) → (b : Ref sig .tc) → Buf (Elt F) ((c : Thread nD τ).loc b))

set_option maxHeartbeats 1000000 in
/-- At a first step: the four input blocks at their contents, the output's buffer at contents handed back untouched,
    the accumulator at anything; the body runs and leaves the accumulator with its pieces written. -/
noncomputable def kernelRun2_A (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i)
    (x0 x1 x2 x3 : Vec F S1024x1024 .bf16) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc2_col_kernel i arg3 harg3 arg4 harg4 arg5 harg5 arg6 harg6 arg7 harg7 arg8 harg8) K } := by
  refine ⟨[], ?_, fun xi4 E K => ?run⟩
  case run =>
    simp only [cc2_col_kernel_eq_skeleton]; unfold cc2_col_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Hand

end
-- ==== Proof.KI.R2RunB.lean ====
/-
  Column-pass kernel 2, a middle step of the contracted axis: the body run on whole staging memrefs, the stores it leaves in the accumulator
  (and, at a last step, in the output block) found as the run's witness.
-/
import proofs.«175415_j18622978196102_2_alg».proof.Proof.KI.R2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the unscoped buffers hold when the region is entered, core by core
variable (V : (c : Dev nD) → (b : Ref sig .tc) → Buf (Elt F) ((c : Thread nD τ).loc b))

set_option maxHeartbeats 1000000 in
/-- At a middle step: as at a first step, but the accumulator enters at the contents the step before left. -/
noncomputable def kernelRun2_B (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : ¬cond2_1 i)
    (x0 x1 x2 x3 : Vec F S1024x1024 .bf16) (xs0 : Vec F S1024x1024 .f32) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc2_col_kernel i arg3 harg3 arg4 harg4 arg5 harg5 arg6 harg6 arg7 harg7 arg8 harg8) K } := by
  refine ⟨[], ?_, fun xi4 E K => ?run⟩
  case run =>
    simp only [cc2_col_kernel_eq_skeleton]; unfold cc2_col_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Hand

end
-- ==== Proof.KI.R2RunC.lean ====
/-
  Column-pass kernel 2, a last step of the contracted axis: the body run on whole staging memrefs, the stores it leaves in the accumulator
  (and, at a last step, in the output block) found as the run's witness.
-/
import proofs.«175415_j18622978196102_2_alg».proof.Proof.KI.R2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the unscoped buffers hold when the region is entered, core by core
variable (V : (c : Dev nD) → (b : Ref sig .tc) → Buf (Elt F) ((c : Thread nD τ).loc b))

set_option maxHeartbeats 1000000 in
/-- At a last step: the accumulator enters at the contents the step before left, the output's buffer at anything;
    the body leaves both with their pieces written. -/
noncomputable def kernelRun2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i)
    (x0 x1 x2 x3 : Vec F S1024x1024 .bf16) (xs0 : Vec F S1024x1024 .f32) :
    Σ' (L4 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc2_col_kernel i arg3 harg3 arg4 harg4 arg5 harg5 arg6 harg6 arg7 harg7 arg8 harg8) K } := by
  refine ⟨?_, ?_, fun E K => ?run⟩
  case run =>
    simp only [cc2_col_kernel_eq_skeleton]; unfold cc2_col_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Hand

end
-- ==== Proof.KI.R2.lean ====
/-
  Column-pass kernel 2: what its accumulator and its output block hold after each grid point, the region's proof
  data over them, and the body obligation. The accumulator is carried from point to point inside the region's
  invariant: before the first point the kernel's scoped buffers are at anything; after point n the accumulator holds
  what the case of point n left in it, and that is what the body at point n + 1 finds.
-/
import proofs.«175415_j18622978196102_2_alg».proof.Proof.KI.R2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the unscoped buffers hold when the region is entered, core by core
variable (V : (c : Dev nD) → (b : Ref sig .tc) → Buf (Elt F) ((c : Thread nD τ).loc b))

/-! ## What each case leaves -/

/-- A first step stores nothing into the output block (idle there, not written back): a placeholder nothing consults. -/
def out2_A_4 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i) (x0 x1 x2 x3 : Vec F S1024x1024 .bf16) : Vec F S1024x1024 .f32 :=
  VO2_4.read (Elt F) (VO2_4.writes (Elt F) VO2_4.junk (kernelRun2_A c i arg3 harg3 arg4 harg4 arg5 harg5 arg6 harg6 arg7 harg7 arg8 harg8 hc0 hc1 x0 x1 x2 x3).1)
/-- A first step's stores cover the accumulator. -/
theorem scover2_A_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i) (x0 x1 x2 x3 : Vec F S1024x1024 .bf16) (y : S1024x1024.Idx) :
    ∃ pc ∈ (kernelRun2_A c i arg3 harg3 arg4 harg4 arg5 harg5 arg6 harg6 arg7 harg7 arg8 harg8 hc0 hc1 x0 x1 x2 x3).2.1, y ∈ pc.1.set :=
  View.cover_of_tiledL (kernelRun2_A c i arg3 harg3 arg4 harg4 arg5 harg5 arg6 harg6 arg7 harg7 arg8 harg8 hc0 hc1 x0 x1 x2 x3).2.1 S1024x1024.size (by sl_kernel_rfl) y
/-- What a first step leaves in the accumulator. -/
def sout2_A_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i) (x0 x1 x2 x3 : Vec F S1024x1024 .bf16) : Vec F S1024x1024 .f32 :=
  VS2_0.read (Elt F) (VS2_0.writes (Elt F) VS2_0.junk (kernelRun2_A c i arg3 harg3 arg4 harg4 arg5 harg5 arg6 harg6 arg7 harg7 arg8 harg8 hc0 hc1 x0 x1 x2 x3).2.1)

/-- A middle step stores nothing into the output block either. -/
def out2_B_4 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : ¬cond2_1 i) (x0 x1 x2 x3 : Vec F S1024x1024 .bf16) (xs0 : Vec F S1024x1024 .f32) : Vec F S1024x1024 .f32 :=
  VO2_4.read (Elt F) (VO2_4.writes (Elt F) VO2_4.junk (kernelRun2_B c i arg3 harg3 arg4 harg4 arg5 harg5 arg6 harg6 arg7 harg7 arg8 harg8 hc0 hc1 x0 x1 x2 x3 xs0).1)
theorem scover2_B_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : ¬cond2_1 i) (x0 x1 x2 x3 : Vec F S1024x1024 .bf16) (xs0 : Vec F S1024x1024 .f32) (y : S1024x1024.Idx) :
    ∃ pc ∈ (kernelRun2_B c i arg3 harg3 arg4 harg4 arg5 harg5 arg6 harg6 arg7 harg7 arg8 harg8 hc0 hc1 x0 x1 x2 x3 xs0).2.1, y ∈ pc.1.set :=
  View.cover_of_tiledL (kernelRun2_B c i arg3 harg3 arg4 harg4 arg5 harg5 arg6 harg6 arg7 harg7 arg8 harg8 hc0 hc1 x0 x1 x2 x3 xs0).2.1 S1024x1024.size (by sl_kernel_rfl) y
/-- What a middle step leaves in the accumulator. -/
def sout2_B_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : ¬cond2_1 i) (x0 x1 x2 x3 : Vec F S1024x1024 .bf16) (xs0 : Vec F S1024x1024 .f32) : Vec F S1024x1024 .f32 :=
  VS2_0.read (Elt F) (VS2_0.writes (Elt F) VS2_0.junk (kernelRun2_B c i arg3 harg3 arg4 harg4 arg5 harg5 arg6 harg6 arg7 harg7 arg8 harg8 hc0 hc1 x0 x1 x2 x3 xs0).2.1)

/-- A last step's store covers the output block. -/
theorem cover2_C_4 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i) (x0 x1 x2 x3 : Vec F S1024x1024 .bf16) (xs0 : Vec F S1024x1024 .f32) (y : S1024x1024.Idx) :
    ∃ pc ∈ (kernelRun2_C c i arg3 harg3 arg4 harg4 arg5 harg5 arg6 harg6 arg7 harg7 arg8 harg8 hc0 hc1 x0 x1 x2 x3 xs0).1, y ∈ pc.1.set :=
  View.cover_of_tiledL (kernelRun2_C c i arg3 harg3 arg4 harg4 arg5 harg5 arg6 harg6 arg7 harg7 arg8 harg8 hc0 hc1 x0 x1 x2 x3 xs0).1 S1024x1024.size (by sl_kernel_rfl) y
/-- What a last step leaves in the output block. -/
def out2_C_4 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i) (x0 x1 x2 x3 : Vec F S1024x1024 .bf16) (xs0 : Vec F S1024x1024 .f32) : Vec F S1024x1024 .f32 :=
  VO2_4.read (Elt F) (VO2_4.writes (Elt F) VO2_4.junk (kernelRun2_C c i arg3 harg3 arg4 harg4 arg5 harg5 arg6 harg6 arg7 harg7 arg8 harg8 hc0 hc1 x0 x1 x2 x3 xs0).1)
theorem scover2_C_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i) (x0 x1 x2 x3 : Vec F S1024x1024 .bf16) (xs0 : Vec F S1024x1024 .f32) (y : S1024x1024.Idx) :
    ∃ pc ∈ (kernelRun2_C c i arg3 harg3 arg4 harg4 arg5 harg5 arg6 harg6 arg7 harg7 arg8 harg8 hc0 hc1 x0 x1 x2 x3 xs0).2.1, y ∈ pc.1.set :=
  View.cover_of_tiledL (kernelRun2_C c i arg3 harg3 arg4 harg4 arg5 harg5 arg6 harg6 arg7 harg7 arg8 harg8 hc0 hc1 x0 x1 x2 x3 xs0).2.1 S1024x1024.size (by sl_kernel_rfl) y
/-- What a last step leaves in the accumulator. -/
def sout2_C_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i) (x0 x1 x2 x3 : Vec F S1024x1024 .bf16) (xs0 : Vec F S1024x1024 .f32) : Vec F S1024x1024 .f32 :=
  VS2_0.read (Elt F) (VS2_0.writes (Elt F) VS2_0.junk (kernelRun2_C c i arg3 harg3 arg4 harg4 arg5 harg5 arg6 harg6 arg7 harg7 arg8 harg8 hc0 hc1 x0 x1 x2 x3 xs0).2.1)

/-! ## Point by point -/

/-- What the output block's staging buffer and the accumulator hold after the body at position `n`: the case of
    position `n` run on the point's input blocks, the accumulator entering at what position `n - 1` left. -/
def outsAt2 (c : Dev nD) : (n : ℕ) → n < cfg2.N → Vec F S1024x1024 .f32 × Vec F S1024x1024 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 4 = 0 then
      if h1 : (n + 1) % 4 = 3 then
        False.elim (by omega)
      else
        (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩),
          sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 4 = 3 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2,
          sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
      else
        (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2,
          sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t),
      sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2,
      sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2,
      sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the first point what the launch hands over (every scoped buffer at anything); afterwards the
    accumulator at what the point before left, the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The region's proof data on core `c`: the arrays as the region finds them; after the body at point `t` each
    input's buffer at its block, the output's at `outsAt2`'s first component; the invariant `PhiS2`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))
/-- and what it returns. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t)

set_option maxHeartbeats 4800000 in
/-- The body at any point: the inputs' buffers hold their blocks; the position decides the case; the invariant hands the
    body the accumulator at what the point before left (at anything at the first point) and takes it back at this point's
    contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  by_cases h0 : t.val % 4 = 0
  · by_cases h1 : t.val % 4 = 3
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_A t ((hcond2_0 t).mpr h0) (fun h => h1 ((hcond2_1 t).mp h))) (noFlush2_4_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, Hrest⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
      · rw [PhiS2_castSucc V c t, PhiS2_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4_C t (fun h => h0 ((hcond2_0 t).mp h)) ((hcond2_1 t).mpr h1)], after2_4]
      rw [outsAt2_C V c t h0 h1]
      unfold out2_C_4 sout2_C_0; (try dsimp only)
      by_cases hz : t.val = 0
      · exfalso; omega
      · rw [PhiS2_castSucc V c t, PhiS2_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_C_0 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover2_C_4 c _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_B t (fun h => h0 ((hcond2_0 t).mp h)) (fun h => h1 ((hcond2_1 t).mp h))) (noFlush2_4_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_B_0 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

theorem hout2 (c : Dev nD) : (dat2 V c).Φ (Fin.last cfg2.N) ⊢ Pipeline.ΦA spec2 c :=
  Phi_out2 V c _ (by rw [Fin.val_last]; have : cfg2.N = 64 := N_2; omega)

end Cert.KernelIdeal.Hand

end
-- ==== Proof.KI.Main.lean ====
/-
  The three regions assembled into one run of @main.

  The buffers' contents at each boundary of @main are a fold from the launch memory: the three arguments' format
  changes; then, per region, the region's arrays at what its write-backs leave and every other buffer as entered;
  then the closing concatenate. Over that fold each region is a segment entered from every unscoped buffer at the
  boundary's contents and left at the next boundary's; the regions' own invariants carry their accumulators from
  point to point, take the scoped rest and the generator register in at the first point and give them back at the
  last. The launch over the five segments gives the run; reading the last boundary at the arguments, which no
  segment writes, gives the frame; reading it at the result, and each region's entry contents at its input arrays,
  gives what a value proof needs to express the result through the three regions' arrays and the arguments.
-/
import proofs.«175415_j18622978196102_2_alg».proof.Proof.KI.R0
import proofs.«175415_j18622978196102_2_alg».proof.Proof.KI.R1
import proofs.«175415_j18622978196102_2_alg».proof.Proof.KI.R2
import Idealize.ShloMosaic.Lib.Pipeline.RegionsLoop
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The run: @main's segments from the launch to the return

## The buffer contents at each segment boundary: a fold through @main -/

/-- What core `c`'s buffers hold when @main starts. -/
abbrev W0 (c : Dev nD) : Valuation τ sig (Elt F) := fun b => m (c, b)
/-- The same after the three arguments have been converted to the narrower float format: what region 0 is entered with. -/
abbrev W1 (c : Dev nD) : Valuation τ sig (Elt F) := StableHlo.after hostOps0 (W0 m c)
/-- `W1` restricted to the TensorCore's own references: the contents region 0's proof data are stated over. -/
abbrev V1 : (c : Dev nD) → (b : Ref sig .tc) → Buf (Elt F) ((c : Thread nD τ).loc b) := fun c b => W1 m c b

/-- When region 0 returns: each of its five arrays holds the write-backs of all grid points folded, in order, into
    what the region found there (an input array is never written back, so it is unchanged); any other buffer is unchanged. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- `W2` restricted to the TensorCore's own references: what region 1's proof data are stated over. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- When region 1 returns: each of its five arrays holds the write-backs of all grid points folded, in order, into
    what the region found there (an input array is never written back, so it is unchanged); any other buffer is unchanged. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- `W3` restricted to the TensorCore's own references: what region 2's proof data are stated over. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- When region 2 returns: each of its five arrays holds the write-backs of all grid points folded, in order, into
    what the region found there (an input array is never written back, so it is unchanged); any other buffer is unchanged. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- `W4` restricted to the TensorCore's own references. -/
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- At the return: the two halves joined into the result array. -/
abbrev W5 (c : Dev nD) : Valuation τ sig (Elt F) := StableHlo.after hostOps3 (W4 m c)

/-! ### The three arguments are never written: every boundary's contents at an argument are the launch memory's -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_forall_not_mem (b := Proc.devRef .tc main_arg0) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg0) := W4_of_ne m c main_arg0 (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_forall_not_mem (b := Proc.devRef .tc main_arg1) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_forall_not_mem (b := Proc.devRef .tc main_arg2) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## The proof data family and the thread state -/

/-- No region prefetches a table, so the tables' contents are the trivial ones. -/
abbrev adm : (p : Fin 3) → (pcfgs (F := F) p).Adm := fun p => (cfgs p).toPCfg_adm
/-- The three regions' proof data, region K's taken at the contents the fold gives when region K is entered; written
    as a `match` on the literal index. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
/-- There are no dues between cores, hence no levels. -/
abbrev L : GSem nD τ sig → Finset Unit := fun _ => ∅
abbrev lv : GSem nD τ sig → Unit → ℕ := fun _ _ => 0
/-- Carried unchanged through every segment: the generator register, at an unspecified state, and the core's record
    of dues, which is empty. -/
abbrev R (c : Dev nD) : sProp 𝕄 := iprop((∃ r, prngReg c r) ∗ ∃ W, owes (c : Thread nD τ) (0 : CellTallies nD τ sig Unit) W)
/-- A run of host operations as one segment: it takes every unscoped buffer from the contents `W c` to the operations'
    fold over `W c`, with `R` carried along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the opening stretch allocates a buffer. -/
theorem hostOps0_noalloc : (hostOps0 : List (HloOp τ sig (Elt F))).Forall fun op => op.fresh = ∅ := by
  simp only [List.Forall]; repeat' constructor
/-- Nor does the closing one. -/
theorem hostOps3_noalloc : (hostOps3 : List (HloOp τ sig (Elt F))).Forall fun op => op.fresh = ∅ := by
  simp only [List.Forall]; repeat' constructor
/-- Every TensorCore reference that is not scoped belongs to the set of buffers the boundary states speak of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state at the return, dues aside: all unscoped buffers at `W5`, the generator register at an unspecified state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 as a segment from `W1` to `W2`. On entry its five arrays are taken out of the set of unscoped buffers
    and the remainder bypasses the region; the generator register and the scoped buffers no window stages enter the
    region's invariant, which carries the two accumulators from grid point to grid point and returns both at the end; on exit the
    arrays, at their final contents, rejoin the remainder. The core has no dues and the kernel no semaphores of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m 0 c).Φ 0 from hin0 (V1 m) c)
    unfold Pipeline.ΦA
    iintro ⟨Hp, -, Hr⟩
    isplitl [Hr]; · iexact Hr
    iexact Hp
  hout c := by
    rw [Pipeline.ownSems0_none]
    refine BIBase.Entails.trans (show (pdats m 0 c).Φ (Fin.last _) ⊢ Pipeline.ΦA spec0 c from hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment from `W2` to `W3`. On entry its five arrays are taken out of the set of unscoped buffers
    and the remainder bypasses the region; the generator register and the scoped buffers no window stages enter the
    region's invariant, which carries the accumulator from grid point to grid point and returns both at the end; on exit the
    arrays, at their final contents, rejoin the remainder. The core has no dues and the kernel no semaphores of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (V2 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (V2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment from `W3` to `W4`. On entry its five arrays are taken out of the set of unscoped buffers
    and the remainder bypasses the region; the generator register and the scoped buffers no window stages enter the
    region's invariant, which carries the accumulator from grid point to grid point and returns both at the end; on exit the
    arrays, at their final contents, rejoin the remainder. The core has no dues and the kernel no semaphores of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec2 c ⊢ (pdats m 2 c).Φ 0 from hin2 (V3 m) c)
    unfold Pipeline.ΦA
    iintro ⟨Hp, -, Hr⟩
    isplitl [Hr]; · iexact Hr
    iexact Hp
  hout c := by
    rw [Pipeline.ownSems0_none]
    refine BIBase.Entails.trans (show (pdats m 2 c).Φ (Fin.last _) ⊢ Pipeline.ΦA spec2 c from hout2 (V3 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order: the opening host stretch, the three regions, the closing host stretch. -/
abbrev segs : List (Pipeline.Seg (pcfgs (F := F)) adm (pdats m) () defs₀ 𝒱₀ L lv) :=
  [ .host (hseg hostOps0 hostOps0_sub hostOps0_noalloc (W0 m)),
    .region (reg0 m),
    .region (reg1 m),
    .region (reg2 m),
    .host (hseg hostOps3 hostOps3_sub hostOps3_noalloc (W4 m)) ]
/-- Unfolding @main operation by operation gives exactly the segments' programs in sequence. -/
theorem main_run (c : Dev nD) : main (F := F) c = Pipeline.Seg.run (segs m) := (main_chain c).trans (by chain_rfl)

set_option backward.isDefEq.respectTransparency.types false in
/-- The run: from any memory with zero counters every weakly fair execution of @main terminates, and in every final
    state each unscoped buffer of each core holds what the fold `W5` says. -/
theorem run_main (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (W5 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- The frame: @main runs, terminates, and every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c)⟩) (run_main m ρ)

/-! ## What the boundaries hold, for the value proof -/

/-- The result is the two column-pass outputs joined along the second axis. -/
theorem W5_main_v6 (c : Dev nD) :
    (W5 m c (Proc.devRef .tc main_v6) : (⟨S4096x8192, .f32⟩ : BufTy).Contents (Elt F))
      = concatenate S4096x8192 1 [⟨S4096x4096, (W4 m c (Proc.devRef .tc main_v4) : (⟨S4096x4096, .f32⟩ : BufTy).Contents (Elt F))⟩,
          ⟨S4096x4096, (W4 m c (Proc.devRef .tc main_v5) : (⟨S4096x4096, .f32⟩ : BufTy).Contents (Elt F))⟩] concatenates_S4096x4096_S4096x4096_S4096x8192_d1 := by
  show StableHlo.after hostOps3 (W4 m c) (Proc.devRef .tc main_v6) = _
  generalize W4 m c = Vv
  after_results

/-- The imaginary half is what region 2 leaves in its output array. -/
theorem W4_main_v5 (c : Dev nD) : W4 m c (Proc.devRef .tc main_v5) = (dat2 (V3 m) c).arrAt 4 cfg2.N := W4_arr m c 4
/-- The real half is what region 1 leaves in its output array; region 2 does not touch it. -/
theorem W3_main_v4 (c : Dev nD) : W3 m c (Proc.devRef .tc main_v4) = (dat1 (V2 m) c).arrAt 4 cfg1.N := W3_arr m c 4
theorem W4_main_v4 (c : Dev nD) : W4 m c (Proc.devRef .tc main_v4) = (dat1 (V2 m) c).arrAt 4 cfg1.N :=
  (W4_of_ne m c main_v4 (by decide)).trans (W3_main_v4 m c)
/-- The row pass's two outputs are what region 0 leaves in its output arrays. -/
theorem W2_main_v3_0 (c : Dev nD) : W2 m c (Proc.devRef .tc main_v3_0) = (dat0 (V1 m) c).arrAt 3 cfg0.N := W2_arr m c 3
theorem W2_main_v3_1 (c : Dev nD) : W2 m c (Proc.devRef .tc main_v3_1) = (dat0 (V1 m) c).arrAt 4 cfg0.N := W2_arr m c 4

/-- An input array of a region is left as entered. -/
theorem W2_main_v1 (c : Dev nD) : W2 m c (Proc.devRef .tc main_v1) = W1 m c (Proc.devRef .tc main_v1) :=
  (W2_arr m c 1).trans (((dat0 (V1 m) c).arrAt_in 1 rfl _).trans (A_eq0 (V1 m) c 1))
theorem W2_main_v2 (c : Dev nD) : W2 m c (Proc.devRef .tc main_v2) = W1 m c (Proc.devRef .tc main_v2) :=
  (W2_arr m c 2).trans (((dat0 (V1 m) c).arrAt_in 2 rfl _).trans (A_eq0 (V1 m) c 2))
theorem W3_main_v1 (c : Dev nD) : W3 m c (Proc.devRef .tc main_v1) = W2 m c (Proc.devRef .tc main_v1) :=
  (W3_arr m c 0).trans (((dat1 (V2 m) c).arrAt_in 0 rfl _).trans (A_eq1 (V2 m) c 0))
theorem W3_main_v2 (c : Dev nD) : W3 m c (Proc.devRef .tc main_v2) = W2 m c (Proc.devRef .tc main_v2) :=
  (W3_arr m c 1).trans (((dat1 (V2 m) c).arrAt_in 1 rfl _).trans (A_eq1 (V2 m) c 1))
theorem W3_main_v3_0 (c : Dev nD) : W3 m c (Proc.devRef .tc main_v3_0) = W2 m c (Proc.devRef .tc main_v3_0) :=
  (W3_arr m c 2).trans (((dat1 (V2 m) c).arrAt_in 2 rfl _).trans (A_eq1 (V2 m) c 2))
theorem W3_main_v3_1 (c : Dev nD) : W3 m c (Proc.devRef .tc main_v3_1) = W2 m c (Proc.devRef .tc main_v3_1) :=
  (W3_arr m c 3).trans (((dat1 (V2 m) c).arrAt_in 3 rfl _).trans (A_eq1 (V2 m) c 3))

/-! ### Each region's entry contents at its input arrays -/

/-- The three operands of the row pass are the arguments after their format change. -/
theorem W1_main_v0 (c : Dev nD) :
    (W1 m c (Proc.devRef .tc main_v0) : (⟨S4096x4096, .bf16⟩ : BufTy).Contents (Elt F))
      = truncf .bf16 (m ((c : Thread nD τ).loc main_arg0) : (⟨S4096x4096, .f32⟩ : BufTy).Contents (Elt F)) bitsLt_bf16_f32 := by
  show StableHlo.after hostOps0 (W0 m c) (Proc.devRef .tc main_v0) = _
  after_results
theorem W1_main_v1 (c : Dev nD) :
    (W1 m c (Proc.devRef .tc main_v1) : (⟨S4096x4096, .bf16⟩ : BufTy).Contents (Elt F))
      = truncf .bf16 (m ((c : Thread nD τ).loc main_arg1) : (⟨S4096x4096, .f32⟩ : BufTy).Contents (Elt F)) bitsLt_bf16_f32 := by
  show StableHlo.after hostOps0 (W0 m c) (Proc.devRef .tc main_v1) = _
  after_results
theorem W1_main_v2 (c : Dev nD) :
    (W1 m c (Proc.devRef .tc main_v2) : (⟨S4096x4096, .bf16⟩ : BufTy).Contents (Elt F))
      = truncf .bf16 (m ((c : Thread nD τ).loc main_arg2) : (⟨S4096x4096, .f32⟩ : BufTy).Contents (Elt F)) bitsLt_bf16_f32 := by
  show StableHlo.after hostOps0 (W0 m c) (Proc.devRef .tc main_v2) = _
  after_results

/-- Region 1 (the real half) is entered with the two weight matrices as region 0 found them and the row pass's outputs. -/
theorem V2_main_v1 (c : Dev nD) : V2 m c main_v1 = W1 m c (Proc.devRef .tc main_v1) := W2_main_v1 m c
theorem V2_main_v2 (c : Dev nD) : V2 m c main_v2 = W1 m c (Proc.devRef .tc main_v2) := W2_main_v2 m c
theorem V2_main_v3_0 (c : Dev nD) : V2 m c main_v3_0 = (dat0 (V1 m) c).arrAt 3 cfg0.N := W2_main_v3_0 m c
theorem V2_main_v3_1 (c : Dev nD) : V2 m c main_v3_1 = (dat0 (V1 m) c).arrAt 4 cfg0.N := W2_main_v3_1 m c
/-- Region 2 (the imaginary half) is entered with the same four arrays. -/
theorem V3_main_v1 (c : Dev nD) : V3 m c main_v1 = W1 m c (Proc.devRef .tc main_v1) := (W3_main_v1 m c).trans (W2_main_v1 m c)
theorem V3_main_v2 (c : Dev nD) : V3 m c main_v2 = W1 m c (Proc.devRef .tc main_v2) := (W3_main_v2 m c).trans (W2_main_v2 m c)
theorem V3_main_v3_0 (c : Dev nD) : V3 m c main_v3_0 = (dat0 (V1 m) c).arrAt 3 cfg0.N := (W3_main_v3_0 m c).trans (W2_main_v3_0 m c)
theorem V3_main_v3_1 (c : Dev nD) : V3 m c main_v3_1 = (dat0 (V1 m) c).arrAt 4 cfg0.N := (W3_main_v3_1 m c).trans (W2_main_v3_1 m c)

end Cert.KernelIdeal.Hand

end
-- ==== Proof.Payloads.lean ====
/-
  The kernels' arithmetic read at one index, at the ideal values (extended reals; a format change is the
  identity, and a matmul into the zero accumulator is the plain sum over the contracted axis).

  Row pass (both operands contracted over axis 1):     (x · wᵀ)(p, q) = Σ_k x(p, k) · w(q, k).
  Column pass (both operands contracted over axis 0):  (wᵀ · a)(p, q) = Σ_k w(k, p) · a(k, q).
  Each stored value is then: zero (the accumulator's first write), the accumulator plus one block's product
  (row pass), the accumulator plus the difference or the sum of two blocks' products (column pass), or the
  accumulator itself (the last write, a format change only).
-/
import proofs.«175415_j18622978196102_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-! ## The operand indices of the two contractions -/

/-- Row pass, left operand: its row is the output's row. -/
theorem row_lhs0 (j : S1024x1024.Idx) (k : Cert.KernelIdeal.dot_S1024x1024_S1024x1024_S1024x1024_1_1_0_0_n_n.contr.Idx) :
    (Cert.KernelIdeal.dot_S1024x1024_S1024x1024_S1024x1024_1_1_0_0_n_n.lhsIdx j k 0).val = (j 0).val := by
  unfold DotDims.lhsIdx
  rw [dif_neg (show ¬(0 : Fin S1024x1024.rank) ∈ Cert.KernelIdeal.dot_S1024x1024_S1024x1024_S1024x1024_1_1_0_0_n_n.lhsBatch by decide), dif_pos (show (0 : Fin S1024x1024.rank) ∈ Cert.KernelIdeal.dot_S1024x1024_S1024x1024_S1024x1024_1_1_0_0_n_n.lhsNonContracting by decide)]
  rfl
/-- Row pass, left operand: its column is the contracted position. -/
theorem row_lhs1 (j : S1024x1024.Idx) (k : Cert.KernelIdeal.dot_S1024x1024_S1024x1024_S1024x1024_1_1_0_0_n_n.contr.Idx) :
    (Cert.KernelIdeal.dot_S1024x1024_S1024x1024_S1024x1024_1_1_0_0_n_n.lhsIdx j k 1).val = (k ⟨0, by decide⟩).val :=
  Cert.KernelIdeal.dot_S1024x1024_S1024x1024_S1024x1024_1_1_0_0_n_n.lhsIdx_val_of_single rfl j k
/-- Row pass, right operand: its row is the output's column. -/
theorem row_rhs0 (j : S1024x1024.Idx) (k : Cert.KernelIdeal.dot_S1024x1024_S1024x1024_S1024x1024_1_1_0_0_n_n.contr.Idx) :
    (Cert.KernelIdeal.dot_S1024x1024_S1024x1024_S1024x1024_1_1_0_0_n_n.rhsIdx j k 0).val = (j 1).val := by
  unfold DotDims.rhsIdx
  rw [dif_neg (show ¬(0 : Fin S1024x1024.rank) ∈ Cert.KernelIdeal.dot_S1024x1024_S1024x1024_S1024x1024_1_1_0_0_n_n.rhsBatch by decide), dif_pos (show (0 : Fin S1024x1024.rank) ∈ Cert.KernelIdeal.dot_S1024x1024_S1024x1024_S1024x1024_1_1_0_0_n_n.rhsNonContracting by decide)]
  rfl
/-- Row pass, right operand: its column is the contracted position. -/
theorem row_rhs1 (j : S1024x1024.Idx) (k : Cert.KernelIdeal.dot_S1024x1024_S1024x1024_S1024x1024_1_1_0_0_n_n.contr.Idx) :
    (Cert.KernelIdeal.dot_S1024x1024_S1024x1024_S1024x1024_1_1_0_0_n_n.rhsIdx j k 1).val = (k ⟨0, by decide⟩).val :=
  Cert.KernelIdeal.dot_S1024x1024_S1024x1024_S1024x1024_1_1_0_0_n_n.rhsIdx_val_of_single rfl j k

/-- Column pass, left operand: its row is the contracted position. -/
theorem col_lhs0 (j : S1024x1024.Idx) (k : Cert.KernelIdeal.dot_S1024x1024_S1024x1024_S1024x1024_0_0_1_1_n_n.contr.Idx) :
    (Cert.KernelIdeal.dot_S1024x1024_S1024x1024_S1024x1024_0_0_1_1_n_n.lhsIdx j k 0).val = (k ⟨0, by decide⟩).val :=
  Cert.KernelIdeal.dot_S1024x1024_S1024x1024_S1024x1024_0_0_1_1_n_n.lhsIdx_val_of_single rfl j k
/-- Column pass, left operand: its column is the output's row. -/
theorem col_lhs1 (j : S1024x1024.Idx) (k : Cert.KernelIdeal.dot_S1024x1024_S1024x1024_S1024x1024_0_0_1_1_n_n.contr.Idx) :
    (Cert.KernelIdeal.dot_S1024x1024_S1024x1024_S1024x1024_0_0_1_1_n_n.lhsIdx j k 1).val = (j 0).val := by
  unfold DotDims.lhsIdx
  rw [dif_neg (show ¬(1 : Fin S1024x1024.rank) ∈ Cert.KernelIdeal.dot_S1024x1024_S1024x1024_S1024x1024_0_0_1_1_n_n.lhsBatch by decide), dif_pos (show (1 : Fin S1024x1024.rank) ∈ Cert.KernelIdeal.dot_S1024x1024_S1024x1024_S1024x1024_0_0_1_1_n_n.lhsNonContracting by decide)]
  rfl
/-- Column pass, right operand: its row is the contracted position. -/
theorem col_rhs0 (j : S1024x1024.Idx) (k : Cert.KernelIdeal.dot_S1024x1024_S1024x1024_S1024x1024_0_0_1_1_n_n.contr.Idx) :
    (Cert.KernelIdeal.dot_S1024x1024_S1024x1024_S1024x1024_0_0_1_1_n_n.rhsIdx j k 0).val = (k ⟨0, by decide⟩).val :=
  Cert.KernelIdeal.dot_S1024x1024_S1024x1024_S1024x1024_0_0_1_1_n_n.rhsIdx_val_of_single rfl j k
/-- Column pass, right operand: its column is the output's column. -/
theorem col_rhs1 (j : S1024x1024.Idx) (k : Cert.KernelIdeal.dot_S1024x1024_S1024x1024_S1024x1024_0_0_1_1_n_n.contr.Idx) :
    (Cert.KernelIdeal.dot_S1024x1024_S1024x1024_S1024x1024_0_0_1_1_n_n.rhsIdx j k 1).val = (j 1).val := by
  unfold DotDims.rhsIdx
  rw [dif_neg (show ¬(1 : Fin S1024x1024.rank) ∈ Cert.KernelIdeal.dot_S1024x1024_S1024x1024_S1024x1024_0_0_1_1_n_n.rhsBatch by decide), dif_pos (show (1 : Fin S1024x1024.rank) ∈ Cert.KernelIdeal.dot_S1024x1024_S1024x1024_S1024x1024_0_0_1_1_n_n.rhsNonContracting by decide)]
  rfl

/-! ## The two matmuls into the zero accumulator -/

/-- Row pass: (x · wᵀ)(p, q) = Σ_k x(p, k) · w(q, k). -/
theorem matmul_row (x w : FVec Ideal S1024x1024 .bf16) (p q : Fin 1024) :
    matmul (F := Ideal) Cert.KernelIdeal.dot_S1024x1024_S1024x1024_S1024x1024_1_1_0_0_n_n none x w (constant S1024x1024 .f32 0x00000000#32) (ix2 p q)
      = ∑ kk : Fin 1024, x (ix2 p kk) * w (ix2 q kk) := by
  simp only [matmul]
  rw [Ideal.matmul_constant_zero_apply, ← Equiv.sum_comp (contrEquiv1 Cert.KernelIdeal.dot_S1024x1024_S1024x1024_S1024x1024_1_1_0_0_n_n 1024 rfl rfl).symm]
  refine Finset.sum_congr rfl fun k _ => ?_
  have hk := contrEquiv1_symm_val Cert.KernelIdeal.dot_S1024x1024_S1024x1024_S1024x1024_1_1_0_0_n_n 1024 rfl rfl k
  have el : Cert.KernelIdeal.dot_S1024x1024_S1024x1024_S1024x1024_1_1_0_0_n_n.lhsIdx (ix2 p q) ((contrEquiv1 Cert.KernelIdeal.dot_S1024x1024_S1024x1024_S1024x1024_1_1_0_0_n_n 1024 rfl rfl).symm k) = ix2 p k := funext fun a => Fin.ext (by
    match a with
    | ⟨0, _⟩ => exact row_lhs0 _ _
    | ⟨1, _⟩ => exact (row_lhs1 _ _).trans hk)
  have er : Cert.KernelIdeal.dot_S1024x1024_S1024x1024_S1024x1024_1_1_0_0_n_n.rhsIdx (ix2 p q) ((contrEquiv1 Cert.KernelIdeal.dot_S1024x1024_S1024x1024_S1024x1024_1_1_0_0_n_n 1024 rfl rfl).symm k) = ix2 q k := funext fun a => Fin.ext (by
    match a with
    | ⟨0, _⟩ => exact row_rhs0 _ _
    | ⟨1, _⟩ => exact (row_rhs1 _ _).trans hk)
  rw [el, er]

/-- Column pass: (wᵀ · a)(p, q) = Σ_k w(k, p) · a(k, q). -/
theorem matmul_col (w a : FVec Ideal S1024x1024 .bf16) (p q : Fin 1024) :
    matmul (F := Ideal) Cert.KernelIdeal.dot_S1024x1024_S1024x1024_S1024x1024_0_0_1_1_n_n none w a (constant S1024x1024 .f32 0x00000000#32) (ix2 p q)
      = ∑ kk : Fin 1024, w (ix2 kk p) * a (ix2 kk q) := by
  simp only [matmul]
  rw [Ideal.matmul_constant_zero_apply, ← Equiv.sum_comp (contrEquiv1 Cert.KernelIdeal.dot_S1024x1024_S1024x1024_S1024x1024_0_0_1_1_n_n 1024 rfl rfl).symm]
  refine Finset.sum_congr rfl fun k _ => ?_
  have hk := contrEquiv1_symm_val Cert.KernelIdeal.dot_S1024x1024_S1024x1024_S1024x1024_0_0_1_1_n_n 1024 rfl rfl k
  have el : Cert.KernelIdeal.dot_S1024x1024_S1024x1024_S1024x1024_0_0_1_1_n_n.lhsIdx (ix2 p q) ((contrEquiv1 Cert.KernelIdeal.dot_S1024x1024_S1024x1024_S1024x1024_0_0_1_1_n_n 1024 rfl rfl).symm k) = ix2 k p := funext fun a => Fin.ext (by
    match a with
    | ⟨0, _⟩ => exact (col_lhs0 _ _).trans hk
    | ⟨1, _⟩ => exact col_lhs1 _ _)
  have er : Cert.KernelIdeal.dot_S1024x1024_S1024x1024_S1024x1024_0_0_1_1_n_n.rhsIdx (ix2 p q) ((contrEquiv1 Cert.KernelIdeal.dot_S1024x1024_S1024x1024_S1024x1024_0_0_1_1_n_n 1024 rfl rfl).symm k) = ix2 k q := funext fun a => Fin.ext (by
    match a with
    | ⟨0, _⟩ => exact (col_rhs0 _ _).trans hk
    | ⟨1, _⟩ => exact col_rhs1 _ _)
  rw [el, er]

/-! ## The stored values at an index -/

/-- The splat of the f32 zero word reads 0 everywhere. -/
theorem zero_splat (j : S1024x1024.Idx) :
    shapeCast S1024x1024 (broadcast S1024x1024 (Scalar.ofBits (F := Ideal) .f32 0x00000000#32)) shapeCasts_S1024x1024_S1024x1024 j = 0 := by
  rw [shapeCast_self, broadcast_apply]
  exact Ideal.ofBits_zero_f32

/-- Row pass, first write of the real accumulator: zero. -/
theorem pay0_1 (p q : Fin 1024) : k0_pay1 (F := Ideal) (ix2 p q) = 0 := zero_splat _
/-- Row pass, first write of the imaginary accumulator: zero. -/
theorem pay0_2 (p q : Fin 1024) : k0_pay2 (F := Ideal) (ix2 p q) = 0 := zero_splat _
/-- Column pass (real half), first write of the accumulator: zero. -/
theorem pay1_1 (p q : Fin 1024) : k1_pay1 (F := Ideal) (ix2 p q) = 0 := zero_splat _
/-- Column pass (imaginary half), first write of the accumulator: zero. -/
theorem pay2_1 (p q : Fin 1024) : k2_pay1 (F := Ideal) (ix2 p q) = 0 := zero_splat _

/-- The same four first writes at an index that has not been split into coordinates. -/
theorem pay0_1_at (j : S1024x1024.Idx) : k0_pay1 (F := Ideal) j = 0 := zero_splat j
theorem pay0_2_at (j : S1024x1024.Idx) : k0_pay2 (F := Ideal) j = 0 := zero_splat j
theorem pay1_1_at (j : S1024x1024.Idx) : k1_pay1 (F := Ideal) j = 0 := zero_splat j
theorem pay2_1_at (j : S1024x1024.Idx) : k2_pay1 (F := Ideal) j = 0 := zero_splat j

/-- Row pass, real accumulator: the accumulator plus this block's x · wᵀ. -/
theorem pay0_4 (x w : FVec Ideal S1024x1024 .bf16) (acc : FVec Ideal S1024x1024 .f32) (p q : Fin 1024) :
    k0_pay4 (F := Ideal) x w acc (ix2 p q) = acc (ix2 p q) + ∑ kk : Fin 1024, x (ix2 p kk) * w (ix2 q kk) := by
  unfold k0_pay4 k0_pay3
  simp only [shapeCast_self]
  rw [addf_apply, matmul_row]

/-- Row pass, imaginary accumulator: the accumulator plus this block's x · wᵀ. -/
theorem pay0_5 (x w : FVec Ideal S1024x1024 .bf16) (acc : FVec Ideal S1024x1024 .f32) (p q : Fin 1024) :
    k0_pay5 (F := Ideal) x w acc (ix2 p q) = acc (ix2 p q) + ∑ kk : Fin 1024, x (ix2 p kk) * w (ix2 q kk) := by
  unfold k0_pay5 k0_pay3
  simp only [shapeCast_self]
  rw [addf_apply, matmul_row]

/-- Row pass, last write of the real half: the accumulator itself. -/
theorem pay0_6 (v : FVec Ideal S1024x1024 .f32) (p q : Fin 1024) : k0_pay6 (F := Ideal) v (ix2 p q) = v (ix2 p q) := rfl
/-- Row pass, last write of the imaginary half: the accumulator itself. -/
theorem pay0_7 (v : FVec Ideal S1024x1024 .f32) (p q : Fin 1024) : k0_pay7 (F := Ideal) v (ix2 p q) = v (ix2 p q) := rfl
/-- The same two last writes at an index that has not been split into coordinates. -/
theorem pay0_6_at (v : FVec Ideal S1024x1024 .f32) (j : S1024x1024.Idx) : k0_pay6 (F := Ideal) v j = v j := rfl
theorem pay0_7_at (v : FVec Ideal S1024x1024 .f32) (j : S1024x1024.Idx) : k0_pay7 (F := Ideal) v j = v j := rfl

/-- Column pass, real half: the accumulator plus this block's wrᵀ · a − wiᵀ · b. -/
theorem pay1_2 (wr wi a b : FVec Ideal S1024x1024 .bf16) (acc : FVec Ideal S1024x1024 .f32) (p q : Fin 1024) :
    k1_pay2 (F := Ideal) wr wi a b acc (ix2 p q)
      = acc (ix2 p q) + ((∑ kk : Fin 1024, wr (ix2 kk p) * a (ix2 kk q)) - ∑ kk : Fin 1024, wi (ix2 kk p) * b (ix2 kk q)) := by
  unfold k1_pay2
  simp only [shapeCast_self]
  rw [addf_apply, subf_apply, matmul_col, matmul_col]

/-- Column pass, imaginary half: the accumulator plus this block's wrᵀ · a + wiᵀ · b. -/
theorem pay2_2 (wr wi a b : FVec Ideal S1024x1024 .bf16) (acc : FVec Ideal S1024x1024 .f32) (p q : Fin 1024) :
    k2_pay2 (F := Ideal) wr wi a b acc (ix2 p q)
      = acc (ix2 p q) + ((∑ kk : Fin 1024, wr (ix2 kk p) * a (ix2 kk q)) + ∑ kk : Fin 1024, wi (ix2 kk p) * b (ix2 kk q)) := by
  unfold k2_pay2
  simp only [shapeCast_self]
  rw [addf_apply, addf_apply, matmul_col, matmul_col]

end Cert.KernelIdeal.Pay

end
-- ==== Proof.Spec.lean ====
/-
  The mathematics both programs compute, written over plain 4096 × 4096 matrices of extended reals.

  With x, W_r, W_i the three inputs:
    R_r = x · W_rᵀ,  R_i = x · W_iᵀ                      (the row pass: rows of x against rows of W)
    C_r = W_rᵀ · R_r − W_iᵀ · R_i,  C_i = W_rᵀ · R_i + W_iᵀ · R_r   (the column pass: columns against columns)
  The reference takes every product as one sum over the 4096 contracted indices. The kernels take the contracted
  axis in four consecutive blocks of 1024 and add the blocks' partial sums to an accumulator that starts at zero;
  in the column pass each block contributes the DIFFERENCE (or the sum) of its two partial products, so the
  subtraction is regrouped block by block — equal to the reference's once every entry is a real number.
-/
import Idealize.ShloMosaic.PureOps.Ideal
import Idealize.ShloMosaic.Lib.ValueIdx

noncomputable section

open scoped BigOperators

namespace Cert.Spec

/-- A 4096 × 4096 matrix of extended reals, by row and column. -/
abbrev Mat : Type := Fin 4096 → Fin 4096 → EReal

/-- Rows against rows: (a · bᵀ)(p, q) = Σ_k a(p, k) · b(q, k). -/
def rowDot (a b : Mat) : Mat := fun p q => ∑ k : Fin 4096, a p k * b q k
/-- Columns against columns: (aᵀ · b)(p, q) = Σ_k a(k, p) · b(k, q). -/
def colDot (a b : Mat) : Mat := fun p q => ∑ k : Fin 4096, a k p * b k q

/-- The reference's real half: W_rᵀ · (x · W_rᵀ) − W_iᵀ · (x · W_iᵀ). -/
def refRe (x wr wi : Mat) : Mat := fun p q => colDot wr (rowDot x wr) p q - colDot wi (rowDot x wi) p q
/-- The reference's imaginary half: W_rᵀ · (x · W_iᵀ) + W_iᵀ · (x · W_rᵀ). -/
def refIm (x wr wi : Mat) : Mat := fun p q => colDot wr (rowDot x wi) p q + colDot wi (rowDot x wr) p q

/-- Element `kk` of block `kb` of the contracted axis: index kb · 1024 + kk. -/
def blockAt (kb : Fin 4) (kk : Fin 1024) : Fin 4096 := ⟨kb.val * 1024 + kk.val, by omega⟩

/-- One block's share of a row product. -/
def rowBlk (a b : Mat) (kb : Fin 4) : Mat := fun p q => ∑ kk : Fin 1024, a p (blockAt kb kk) * b q (blockAt kb kk)
/-- One block's share of a column product. -/
def colBlk (a b : Mat) (kb : Fin 4) : Mat := fun p q => ∑ kk : Fin 1024, a (blockAt kb kk) p * b (blockAt kb kk) q

/-- An accumulator started at zero and added to four times, in order. -/
def fold4 (s : Fin 4 → EReal) : EReal := (((0 + s 0) + s 1) + s 2) + s 3

/-- The row pass as the kernel accumulates it. -/
def kerRow (a b : Mat) : Mat := fun p q => fold4 fun kb => rowBlk a b kb p q
/-- The column pass's real half as the kernel accumulates it: each block adds its difference. -/
def kerRe (x wr wi : Mat) : Mat := fun p q =>
  fold4 fun kb => colBlk wr (kerRow x wr) kb p q - colBlk wi (kerRow x wi) kb p q
/-- The column pass's imaginary half as the kernel accumulates it: each block adds its sum. -/
def kerIm (x wr wi : Mat) : Mat := fun p q =>
  fold4 fun kb => colBlk wr (kerRow x wi) kb p q + colBlk wi (kerRow x wr) kb p q

/-- Every entry is a real number. -/
def AllReal (a : Mat) : Prop := ∀ p q, ∃ r : ℝ, a p q = (r : EReal)

/-- An array over the printed shape read as a matrix. -/
abbrev mat (f : (⟨2, ![4096, 4096]⟩ : Idealize.ShloMosaic.Shape).Idx → EReal) : Mat :=
  fun p q => f (Idealize.ShloMosaic.ValueIdx.ix2 p q)

end Cert.Spec

end
-- ==== Proof.KI.R0Value.lean ====
/-
  The fused row-pass kernel: the values it leaves in its two output arrays, x · W_rᵀ and x · W_iᵀ as the kernel
  accumulates them.

  The grid is 4 × 4 × 4; position t = (i · 4 + j) · 4 + k works on output tile (i, j) at step k of the contracted
  axis. At that position x's block is block (i, k), the blocks of W_r and W_i are block (j, k), and the two outputs'
  tile is (i, j). Both accumulators are zeroed at k = 0, every step adds its block's share Σ_kk x(p, ·) · W(q, ·) of
  the row product, and at k = 3 each accumulator is copied (a format change only, the identity on extended reals)
  into its output tile, which is written back there. So after position t each accumulator holds, at in-block entry
  (a, b), the fold (from zero, in order) of the shares of blocks 0 … k of entry (i · 1024 + a, j · 1024 + b): by
  induction on the position, each step read off the stores the body's run left. The tiles of the last steps cover
  the arrays, so entry (p, q) of each array ends as the four blocks' shares folded in order.
-/
import proofs.«175415_j18622978196102_2_alg».proof.Proof.KI.R0
import proofs.«175415_j18622978196102_2_alg».proof.Proof.Payloads
import proofs.«175415_j18622978196102_2_alg».proof.Proof.Spec
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Pieces
variable {F : FTy → Type} [FloatOps F]

theorem hz0 : (![0, 0] : Fin 2 → Nat) = fun _ => 0 := funext fun a => by fin_cases a <;> rfl

/-- A first step leaves in the first accumulator the zero block plus the step's own partial product. -/
theorem accA_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i)
    (x0 x1 x2 : Vec F S1024x1024 .bf16) :
    sout0_A_0 c i arg3 harg3 arg4 harg4 arg5 harg5 arg6 harg6 arg7 harg7 arg8 harg8 arg9 harg9 hc0 hc1 x0 x1 x2 = k0_pay4 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S1024x1024) hz0, View.readCov_unit_zero (S := S1024x1024) _ hz0]
  simp only [View.readAt_eq_ld, harg3.read_unread, harg4.read_unread, harg5.read_unread, View.ld_unit_zero (S := S1024x1024) hz0]

/-- and in the second accumulator likewise. -/
theorem accA_1 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i)
    (x0 x1 x2 : Vec F S1024x1024 .bf16) :
    sout0_A_1 c i arg3 harg3 arg4 harg4 arg5 harg5 arg6 harg6 arg7 harg7 arg8 harg8 arg9 harg9 hc0 hc1 x0 x1 x2 = k0_pay5 x0 x2 (k0_pay2 (F := F)) := by
  unfold sout0_A_1
  rw [View.read_writes_eq_canon _ _ _ (scover0_A_1 c i arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S1024x1024) hz0, View.readCov_unit_zero (S := S1024x1024) _ hz0]
  simp only [View.readAt_eq_ld, harg3.read_unread, harg4.read_unread, harg5.read_unread, View.ld_unit_zero (S := S1024x1024) hz0]

/-- A middle step leaves in the first accumulator what it found plus the step's own partial product. -/
theorem accB_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i)
    (x0 x1 x2 : Vec F S1024x1024 .bf16) (xs0 xs1 : Vec F S1024x1024 .f32) :
    sout0_B_0 c i arg3 harg3 arg4 harg4 arg5 harg5 arg6 harg6 arg7 harg7 arg8 harg8 arg9 harg9 hc0 hc1 x0 x1 x2 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 xs0 xs1)]
  unfold kernelRun0_B
  dsimp only
  sl_unfold_words
  rw [View.canon_unit_zero hz0]
  simp only [View.readAt_eq_ld, harg3.read_unread, harg4.read_unread, harg5.read_unread, harg8.read_unread, harg9.read_unread, View.ld_unit_zero (S := S1024x1024) hz0]

/-- and in the second accumulator likewise. -/
theorem accB_1 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i)
    (x0 x1 x2 : Vec F S1024x1024 .bf16) (xs0 xs1 : Vec F S1024x1024 .f32) :
    sout0_B_1 c i arg3 harg3 arg4 harg4 arg5 harg5 arg6 harg6 arg7 harg7 arg8 harg8 arg9 harg9 hc0 hc1 x0 x1 x2 xs0 xs1 = k0_pay5 x0 x2 xs1 := by
  unfold sout0_B_1
  rw [View.read_writes_eq_canon _ _ _ (scover0_B_1 c i arg3 harg3 arg4 harg4 arg5 harg5 arg6 harg6 arg7 harg7 arg8 harg8 arg9 harg9 hc0 hc1 x0 x1 x2 xs0 xs1)]
  unfold kernelRun0_B
  dsimp only
  sl_unfold_words
  rw [View.canon_unit_zero hz0]
  simp only [View.readAt_eq_ld, harg3.read_unread, harg4.read_unread, harg5.read_unread, harg8.read_unread, harg9.read_unread, View.ld_unit_zero (S := S1024x1024) hz0]

/-- A last step leaves in the first accumulator what it found plus the step's own partial product, -/
theorem accC_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 x1 x2 : Vec F S1024x1024 .bf16) (xs0 xs1 : Vec F S1024x1024 .f32) :
    sout0_C_0 c i arg3 harg3 arg4 harg4 arg5 harg5 arg6 harg6 arg7 harg7 arg8 harg8 arg9 harg9 hc0 hc1 x0 x1 x2 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 xs0 xs1)]
  unfold kernelRun0_C
  dsimp only
  sl_unfold_words
  rw [View.canon_unit_zero hz0]
  simp only [View.readAt_eq_ld, harg3.read_unread, harg4.read_unread, harg5.read_unread, harg8.read_unread, harg9.read_unread, View.ld_unit_zero (S := S1024x1024) hz0]

/-- in the second accumulator likewise, -/
theorem accC_1 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 x1 x2 : Vec F S1024x1024 .bf16) (xs0 xs1 : Vec F S1024x1024 .f32) :
    sout0_C_1 c i arg3 harg3 arg4 harg4 arg5 harg5 arg6 harg6 arg7 harg7 arg8 harg8 arg9 harg9 hc0 hc1 x0 x1 x2 xs0 xs1 = k0_pay5 x0 x2 xs1 := by
  unfold sout0_C_1
  rw [View.read_writes_eq_canon _ _ _ (scover0_C_1 c i arg3 harg3 arg4 harg4 arg5 harg5 arg6 harg6 arg7 harg7 arg8 harg8 arg9 harg9 hc0 hc1 x0 x1 x2 xs0 xs1)]
  unfold kernelRun0_C
  dsimp only
  sl_unfold_words
  rw [View.canon_unit_zero hz0]
  simp only [View.readAt_eq_ld, harg3.read_unread, harg4.read_unread, harg5.read_unread, harg8.read_unread, harg9.read_unread, View.ld_unit_zero (S := S1024x1024) hz0]

/-- and in the first output block the first accumulator's new contents, rounded to the output's format, -/
theorem outC_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 x1 x2 : Vec F S1024x1024 .bf16) (xs0 xs1 : Vec F S1024x1024 .f32) :
    out0_C_3 c i arg3 harg3 arg4 harg4 arg5 harg5 arg6 harg6 arg7 harg7 arg8 harg8 arg9 harg9 hc0 hc1 x0 x1 x2 xs0 xs1 = k0_pay6 (k0_pay4 x0 x1 xs0) := by
  unfold out0_C_3
  rw [View.read_writes_eq_canon _ _ _ (cover0_C_3 c i arg3 harg3 arg4 harg4 arg5 harg5 arg6 harg6 arg7 harg7 arg8 harg8 arg9 harg9 hc0 hc1 x0 x1 x2 xs0 xs1)]
  unfold kernelRun0_C
  dsimp only
  sl_unfold_words
  rw [View.canon_unit_zero hz0, View.readCov_unit_zero (S := S1024x1024) _ hz0]
  simp only [View.readAt_eq_ld, harg3.read_unread, harg4.read_unread, harg5.read_unread, harg8.read_unread, harg9.read_unread, View.ld_unit_zero (S := S1024x1024) hz0]

/-- and in the second output block the second accumulator's. -/
theorem outC_4 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 x1 x2 : Vec F S1024x1024 .bf16) (xs0 xs1 : Vec F S1024x1024 .f32) :
    out0_C_4 c i arg3 harg3 arg4 harg4 arg5 harg5 arg6 harg6 arg7 harg7 arg8 harg8 arg9 harg9 hc0 hc1 x0 x1 x2 xs0 xs1 = k0_pay7 (k0_pay5 x0 x2 xs1) := by
  unfold out0_C_4
  rw [View.read_writes_eq_canon _ _ _ (cover0_C_4 c i arg3 harg3 arg4 harg4 arg5 harg5 arg6 harg6 arg7 harg7 arg8 harg8 arg9 harg9 hc0 hc1 x0 x1 x2 xs0 xs1)]
  unfold kernelRun0_C
  dsimp only
  sl_unfold_words
  rw [View.canon_unit_zero hz0, View.readCov_unit_zero (S := S1024x1024) _ hz0]
  simp only [View.readAt_eq_ld, harg3.read_unread, harg4.read_unread, harg5.read_unread, harg8.read_unread, harg9.read_unread, View.ld_unit_zero (S := S1024x1024) hz0]

end Pieces

section PointByPoint
variable {F : FTy → Type} [FloatOps F]
variable (V : (c : Dev nD) → (b : Ref sig .tc) → Buf (Elt F) ((c : Thread nD τ).loc b))

/-- After a first step the first accumulator holds the zero block plus the step's partial product x · W_rᵀ. -/
theorem acc0_A_0 (c : Dev nD) (t : Fin cfg0.N) (h0 : t.val % 4 = 0) (h1 : ¬t.val % 4 = 3) :
    (outsAt0 V c t.val t.isLt).2.2.1 = k0_pay4 (iblk0 V c 0 t) (iblk0 V c 1 t) (k0_pay1 (F := F)) := by
  rw [outsAt0_A V c t h0 h1]
  dsimp only
  exact accA_0 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t)

/-- After a first step the second accumulator holds the zero block plus the step's partial product x · W_iᵀ. -/
theorem acc0_A_1 (c : Dev nD) (t : Fin cfg0.N) (h0 : t.val % 4 = 0) (h1 : ¬t.val % 4 = 3) :
    (outsAt0 V c t.val t.isLt).2.2.2 = k0_pay5 (iblk0 V c 0 t) (iblk0 V c 2 t) (k0_pay2 (F := F)) := by
  rw [outsAt0_A V c t h0 h1]
  dsimp only
  exact accA_1 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t)

/-- After a middle step the first accumulator holds what the step before left plus the step's partial product. -/
theorem acc0_B_0 (c : Dev nD) (t : Fin cfg0.N) (h0 : ¬t.val % 4 = 0) (h1 : ¬t.val % 4 = 3) :
    (outsAt0 V c t.val t.isLt).2.2.1 = k0_pay4 (iblk0 V c 0 t) (iblk0 V c 1 t) (outsAt0 V c (t.val - 1) (Nat.lt_of_le_of_lt (Nat.sub_le _ _) t.isLt)).2.2.1 := by
  rw [outsAt0_B V c t h0 h1]
  dsimp only
  exact accB_0 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2

/-- After a middle step the second accumulator likewise. -/
theorem acc0_B_1 (c : Dev nD) (t : Fin cfg0.N) (h0 : ¬t.val % 4 = 0) (h1 : ¬t.val % 4 = 3) :
    (outsAt0 V c t.val t.isLt).2.2.2 = k0_pay5 (iblk0 V c 0 t) (iblk0 V c 2 t) (outsAt0 V c (t.val - 1) (Nat.lt_of_le_of_lt (Nat.sub_le _ _) t.isLt)).2.2.2 := by
  rw [outsAt0_B V c t h0 h1]
  dsimp only
  exact accB_1 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2

/-- After a last step the first accumulator likewise, -/
theorem acc0_C_0 (c : Dev nD) (t : Fin cfg0.N) (h0 : ¬t.val % 4 = 0) (h1 : t.val % 4 = 3) :
    (outsAt0 V c t.val t.isLt).2.2.1 = k0_pay4 (iblk0 V c 0 t) (iblk0 V c 1 t) (outsAt0 V c (t.val - 1) (Nat.lt_of_le_of_lt (Nat.sub_le _ _) t.isLt)).2.2.1 := by
  rw [outsAt0_C V c t h0 h1]
  dsimp only
  exact accC_0 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2

/-- the second accumulator likewise, -/
theorem acc0_C_1 (c : Dev nD) (t : Fin cfg0.N) (h0 : ¬t.val % 4 = 0) (h1 : t.val % 4 = 3) :
    (outsAt0 V c t.val t.isLt).2.2.2 = k0_pay5 (iblk0 V c 0 t) (iblk0 V c 2 t) (outsAt0 V c (t.val - 1) (Nat.lt_of_le_of_lt (Nat.sub_le _ _) t.isLt)).2.2.2 := by
  rw [outsAt0_C V c t h0 h1]
  dsimp only
  exact accC_1 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2

/-- the first output block holds the first accumulator's new contents in the output's format, -/
theorem outblk0_C_3 (c : Dev nD) (t : Fin cfg0.N) (h0 : ¬t.val % 4 = 0) (h1 : t.val % 4 = 3) :
    (outsAt0 V c t.val t.isLt).1 = k0_pay6 (k0_pay4 (iblk0 V c 0 t) (iblk0 V c 1 t) (outsAt0 V c (t.val - 1) (Nat.lt_of_le_of_lt (Nat.sub_le _ _) t.isLt)).2.2.1) := by
  rw [outsAt0_C V c t h0 h1]
  dsimp only
  exact outC_3 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2

/-- and the second output block the second accumulator's. -/
theorem outblk0_C_4 (c : Dev nD) (t : Fin cfg0.N) (h0 : ¬t.val % 4 = 0) (h1 : t.val % 4 = 3) :
    (outsAt0 V c t.val t.isLt).2.1 = k0_pay7 (k0_pay5 (iblk0 V c 0 t) (iblk0 V c 2 t) (outsAt0 V c (t.val - 1) (Nat.lt_of_le_of_lt (Nat.sub_le _ _) t.isLt)).2.2.2) := by
  rw [outsAt0_C V c t h0 h1]
  dsimp only
  exact outC_4 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2

end PointByPoint

section AtIdeal
variable (V : (c : Dev nD) → (b : Ref sig .tc) → Buf (Elt Ideal) ((c : Thread nD τ).loc b))

/-- The printed index maps over the grid: at position t = (i · 4 + j) · 4 + k the x window sits at block (i, k), the
    two W windows at block (j, k), the two outputs at block (i, j). -/
theorem idx_facts0 : ∀ t : Fin cfg0.N,
    win0_0.index t (0 : Fin 2) = t.val / 16 % 4 ∧ win0_0.index t (1 : Fin 2) = t.val % 4
    ∧ win0_1.index t (0 : Fin 2) = t.val / 4 % 4 ∧ win0_1.index t (1 : Fin 2) = t.val % 4
    ∧ win0_2.index t (0 : Fin 2) = t.val / 4 % 4 ∧ win0_2.index t (1 : Fin 2) = t.val % 4
    ∧ win0_3.index t (0 : Fin 2) = t.val / 16 % 4 ∧ win0_3.index t (1 : Fin 2) = t.val / 4 % 4
    ∧ win0_4.index t (0 : Fin 2) = t.val / 16 % 4 ∧ win0_4.index t (1 : Fin 2) = t.val / 4 % 4 :=
  (by decide +kernel : ∀ t : Fin grid0.N, _)

/-- The output row of in-block row a at position n. -/
def rowAt0 (n : ℕ) (a : Fin 1024) : Fin 4096 := ⟨n / 16 % 4 * 1024 + a.val, by have := a.isLt; omega⟩
/-- The output column of in-block column b at position n. -/
def colAt0 (n : ℕ) (b : Fin 1024) : Fin 4096 := ⟨n / 4 % 4 * 1024 + b.val, by have := b.isLt; omega⟩
/-- The contracted axis' block at position n. -/
def stepAt0 (n : ℕ) : Fin 4 := ⟨n % 4, Nat.mod_lt _ (by decide)⟩

/-- x's block at position t, read at (a, kk): x at the output's row and column (block k, kk). -/
theorem blk0_at0 (c : Dev nD) (t : Fin cfg0.N) (a kk : Fin 1024) :
    (iblk0 V c 0 t : Vec Ideal S1024x1024 .bf16) (ix2 a kk)
      = Cert.Spec.mat (V c main_v0) (rowAt0 t.val a) (Cert.Spec.blockAt (stepAt0 t.val) kk) := by
  obtain ⟨e00, e01, -⟩ := idx_facts0 t
  unfold iblk0
  rw [View.read_apply]
  show V c main_v0 _ = V c main_v0 _
  congr 1
  funext d
  apply Fin.ext
  match d with
  | ⟨0, _⟩ => show win0_0.index t (0 : Fin 2) * 1024 + 1 * a.val = t.val / 16 % 4 * 1024 + a.val; rw [e00]; omega
  | ⟨1, _⟩ => show win0_0.index t (1 : Fin 2) * 1024 + 1 * kk.val = t.val % 4 * 1024 + kk.val; rw [e01]; omega

/-- The accumulator started at zero after the contracted axis' steps 0 … k. -/
def pfold0 (s : Fin 4 → EReal) : ℕ → EReal
  | 0 => 0 + s 0
  | 1 => (0 + s 0) + s 1
  | 2 => ((0 + s 0) + s 1) + s 2
  | _ => Cert.Spec.fold4 s

theorem pfold0_succ (s : Fin 4 → EReal) (k : ℕ) (hk : k + 1 < 4) : pfold0 s (k + 1) = pfold0 s k + s ⟨k + 1, hk⟩ := by
  have h3 : k < 3 := by omega
  interval_cases k <;> rfl

/-- W_r's block at position t, read at (b, kk): W_r at the output's column and column (block k, kk). -/
theorem blk1_at0 (c : Dev nD) (t : Fin cfg0.N) (b kk : Fin 1024) :
    (iblk0 V c 1 t : Vec Ideal S1024x1024 .bf16) (ix2 b kk)
      = Cert.Spec.mat (V c main_v1) (colAt0 t.val b) (Cert.Spec.blockAt (stepAt0 t.val) kk) := by
  obtain ⟨-, -, e10, e11, -⟩ := idx_facts0 t
  unfold iblk0
  rw [View.read_apply]
  show V c main_v1 _ = V c main_v1 _
  congr 1
  funext d
  apply Fin.ext
  match d with
  | ⟨0, _⟩ => show win0_1.index t (0 : Fin 2) * 1024 + 1 * b.val = t.val / 4 % 4 * 1024 + b.val; rw [e10]; omega
  | ⟨1, _⟩ => show win0_1.index t (1 : Fin 2) * 1024 + 1 * kk.val = t.val % 4 * 1024 + kk.val; rw [e11]; omega

/-- One step's stored value at an entry, over blocks that read two matrices at the block's columns: what the
    accumulator held plus the block's share of the row product. -/
theorem stepR_at0 (x w : Vec Ideal S1024x1024 .bf16) (acc : Vec Ideal S1024x1024 .f32)
    (M1 M2 : Cert.Spec.Mat) (kb : Fin 4) (p q : Fin 4096) (ra rb : Fin 1024)
    (hx : ∀ kk : Fin 1024, x (ix2 ra kk) = M1 p (Cert.Spec.blockAt kb kk))
    (hw : ∀ kk : Fin 1024, w (ix2 rb kk) = M2 q (Cert.Spec.blockAt kb kk)) :
    k0_pay4 (F := Ideal) x w acc (ix2 ra rb) = acc (ix2 ra rb) + Cert.Spec.rowBlk M1 M2 kb p q := by
  refine (Cert.KernelIdeal.Pay.pay0_4 x w acc ra rb).trans ?_
  unfold Cert.Spec.rowBlk
  simp only [hx, hw]

/-- One block's share of entry (p, q) of x · W_rᵀ. -/
def termR0 (c : Dev nD) (p q : Fin 4096) (kb : Fin 4) : EReal :=
  Cert.Spec.rowBlk (Cert.Spec.mat (V c main_v0)) (Cert.Spec.mat (V c main_v1)) kb p q

/-- The step at position t, at in-block entry (a, b). -/
theorem stepR0_at (c : Dev nD) (t : Fin cfg0.N) (acc : Vec Ideal S1024x1024 .f32) (a b : Fin 1024) :
    k0_pay4 (F := Ideal) (iblk0 V c 0 t) (iblk0 V c 1 t) acc (ix2 a b)
      = acc (ix2 a b) + termR0 V c (rowAt0 t.val a) (colAt0 t.val b) (stepAt0 t.val) :=
  stepR_at0 (iblk0 V c 0 t) (iblk0 V c 1 t) acc (Cert.Spec.mat (V c main_v0)) (Cert.Spec.mat (V c main_v1))
    (stepAt0 t.val) (rowAt0 t.val a) (colAt0 t.val b) a b
    (fun kk => blk0_at0 V c t a kk) (fun kk => blk1_at0 V c t b kk)

/-- THE INVARIANT for the first accumulator: after position n it holds, at in-block entry (a, b), the fold so far
    of the blocks' shares of the output entry the point's tile puts there. -/
theorem accR0_eq (c : Dev nD) : ∀ (n : ℕ) (hn : n < cfg0.N) (a b : Fin 1024),
    (outsAt0 V c n hn).2.2.1 (ix2 a b) = pfold0 (termR0 V c (rowAt0 n a) (colAt0 n b)) (n % 4)
  | 0, hn, a, b => by
    refine (congrFun (acc0_A_0 V c ⟨0, hn⟩ rfl (by show ¬(0 : ℕ) % 4 = 3; decide)) (ix2 a b)).trans ?_
    refine (stepR0_at V c ⟨0, hn⟩ (k0_pay1 (F := Ideal)) a b).trans ?_
    rw [Cert.KernelIdeal.Pay.pay0_1]
    rfl
  | n + 1, hn, a, b => by
    have hN : n + 1 < 64 := lt_of_lt_of_eq hn N_0
    by_cases h0 : (n + 1) % 4 = 0
    · have h1 : ¬(n + 1) % 4 = 3 := by omega
      refine (congrFun (acc0_A_0 V c ⟨n + 1, hn⟩ h0 h1) (ix2 a b)).trans ?_
      refine (stepR0_at V c ⟨n + 1, hn⟩ (k0_pay1 (F := Ideal)) a b).trans ?_
      have hk : stepAt0 (n + 1) = 0 := Fin.ext h0
      show k0_pay1 (F := Ideal) (ix2 a b) + termR0 V c (rowAt0 (n + 1) a) (colAt0 (n + 1) b) (stepAt0 (n + 1)) = _
      rw [Cert.KernelIdeal.Pay.pay0_1, hk, h0]
      rfl
    · have e : (outsAt0 V c (n + 1) hn).2.2.1
          = k0_pay4 (F := Ideal) (iblk0 V c 0 ⟨n + 1, hn⟩) (iblk0 V c 1 ⟨n + 1, hn⟩)
              (outsAt0 V c n (Nat.lt_of_succ_lt hn)).2.2.1 := by
        by_cases h1 : (n + 1) % 4 = 3
        · exact acc0_C_0 V c ⟨n + 1, hn⟩ h0 h1
        · exact acc0_B_0 V c ⟨n + 1, hn⟩ h0 h1
      refine (congrFun e (ix2 a b)).trans ?_
      refine (stepR0_at V c ⟨n + 1, hn⟩ _ a b).trans ?_
      have hr : rowAt0 (n + 1) a = rowAt0 n a := Fin.ext (by show (n + 1) / 16 % 4 * 1024 + a.val = n / 16 % 4 * 1024 + a.val; omega)
      have hc : colAt0 (n + 1) b = colAt0 n b := Fin.ext (by show (n + 1) / 4 % 4 * 1024 + b.val = n / 4 % 4 * 1024 + b.val; omega)
      have hm : (n + 1) % 4 = n % 4 + 1 := by omega
      have hs : stepAt0 (n + 1) = ⟨n % 4 + 1, by omega⟩ := Fin.ext hm
      show (outsAt0 V c n (Nat.lt_of_succ_lt hn)).2.2.1 (ix2 a b) + termR0 V c (rowAt0 (n + 1) a) (colAt0 (n + 1) b) (stepAt0 (n + 1)) = _
      rw [accR0_eq c n (Nat.lt_of_succ_lt hn) a b, hr, hc, hs, hm, pfold0_succ _ _ (by omega)]

/-- W_i's block at position t, read at (b, kk): W_i at the output's column and column (block k, kk). -/
theorem blk2_at0 (c : Dev nD) (t : Fin cfg0.N) (b kk : Fin 1024) :
    (iblk0 V c 2 t : Vec Ideal S1024x1024 .bf16) (ix2 b kk)
      = Cert.Spec.mat (V c main_v2) (colAt0 t.val b) (Cert.Spec.blockAt (stepAt0 t.val) kk) := by
  obtain ⟨-, -, -, -, e10, e11, -⟩ := idx_facts0 t
  unfold iblk0
  rw [View.read_apply]
  show V c main_v2 _ = V c main_v2 _
  congr 1
  funext d
  apply Fin.ext
  match d with
  | ⟨0, _⟩ => show win0_2.index t (0 : Fin 2) * 1024 + 1 * b.val = t.val / 4 % 4 * 1024 + b.val; rw [e10]; omega
  | ⟨1, _⟩ => show win0_2.index t (1 : Fin 2) * 1024 + 1 * kk.val = t.val % 4 * 1024 + kk.val; rw [e11]; omega

/-- One step's stored value at an entry, over blocks that read two matrices at the block's columns: what the
    accumulator held plus the block's share of the row product. -/
theorem stepI_at0 (x w : Vec Ideal S1024x1024 .bf16) (acc : Vec Ideal S1024x1024 .f32)
    (M1 M2 : Cert.Spec.Mat) (kb : Fin 4) (p q : Fin 4096) (ra rb : Fin 1024)
    (hx : ∀ kk : Fin 1024, x (ix2 ra kk) = M1 p (Cert.Spec.blockAt kb kk))
    (hw : ∀ kk : Fin 1024, w (ix2 rb kk) = M2 q (Cert.Spec.blockAt kb kk)) :
    k0_pay5 (F := Ideal) x w acc (ix2 ra rb) = acc (ix2 ra rb) + Cert.Spec.rowBlk M1 M2 kb p q := by
  refine (Cert.KernelIdeal.Pay.pay0_5 x w acc ra rb).trans ?_
  unfold Cert.Spec.rowBlk
  simp only [hx, hw]

/-- One block's share of entry (p, q) of x · W_iᵀ. -/
def termI0 (c : Dev nD) (p q : Fin 4096) (kb : Fin 4) : EReal :=
  Cert.Spec.rowBlk (Cert.Spec.mat (V c main_v0)) (Cert.Spec.mat (V c main_v2)) kb p q

/-- The step at position t, at in-block entry (a, b). -/
theorem stepI0_at (c : Dev nD) (t : Fin cfg0.N) (acc : Vec Ideal S1024x1024 .f32) (a b : Fin 1024) :
    k0_pay5 (F := Ideal) (iblk0 V c 0 t) (iblk0 V c 2 t) acc (ix2 a b)
      = acc (ix2 a b) + termI0 V c (rowAt0 t.val a) (colAt0 t.val b) (stepAt0 t.val) :=
  stepI_at0 (iblk0 V c 0 t) (iblk0 V c 2 t) acc (Cert.Spec.mat (V c main_v0)) (Cert.Spec.mat (V c main_v2))
    (stepAt0 t.val) (rowAt0 t.val a) (colAt0 t.val b) a b
    (fun kk => blk0_at0 V c t a kk) (fun kk => blk2_at0 V c t b kk)

/-- THE INVARIANT for the second accumulator: after position n it holds, at in-block entry (a, b), the fold so far
    of the blocks' shares of the output entry the point's tile puts there. -/
theorem accI0_eq (c : Dev nD) : ∀ (n : ℕ) (hn : n < cfg0.N) (a b : Fin 1024),
    (outsAt0 V c n hn).2.2.2 (ix2 a b) = pfold0 (termI0 V c (rowAt0 n a) (colAt0 n b)) (n % 4)
  | 0, hn, a, b => by
    refine (congrFun (acc0_A_1 V c ⟨0, hn⟩ rfl (by show ¬(0 : ℕ) % 4 = 3; decide)) (ix2 a b)).trans ?_
    refine (stepI0_at V c ⟨0, hn⟩ (k0_pay2 (F := Ideal)) a b).trans ?_
    rw [Cert.KernelIdeal.Pay.pay0_2]
    rfl
  | n + 1, hn, a, b => by
    have hN : n + 1 < 64 := lt_of_lt_of_eq hn N_0
    by_cases h0 : (n + 1) % 4 = 0
    · have h1 : ¬(n + 1) % 4 = 3 := by omega
      refine (congrFun (acc0_A_1 V c ⟨n + 1, hn⟩ h0 h1) (ix2 a b)).trans ?_
      refine (stepI0_at V c ⟨n + 1, hn⟩ (k0_pay2 (F := Ideal)) a b).trans ?_
      have hk : stepAt0 (n + 1) = 0 := Fin.ext h0
      show k0_pay2 (F := Ideal) (ix2 a b) + termI0 V c (rowAt0 (n + 1) a) (colAt0 (n + 1) b) (stepAt0 (n + 1)) = _
      rw [Cert.KernelIdeal.Pay.pay0_2, hk, h0]
      rfl
    · have e : (outsAt0 V c (n + 1) hn).2.2.2
          = k0_pay5 (F := Ideal) (iblk0 V c 0 ⟨n + 1, hn⟩) (iblk0 V c 2 ⟨n + 1, hn⟩)
              (outsAt0 V c n (Nat.lt_of_succ_lt hn)).2.2.2 := by
        by_cases h1 : (n + 1) % 4 = 3
        · exact acc0_C_1 V c ⟨n + 1, hn⟩ h0 h1
        · exact acc0_B_1 V c ⟨n + 1, hn⟩ h0 h1
      refine (congrFun e (ix2 a b)).trans ?_
      refine (stepI0_at V c ⟨n + 1, hn⟩ _ a b).trans ?_
      have hr : rowAt0 (n + 1) a = rowAt0 n a := Fin.ext (by show (n + 1) / 16 % 4 * 1024 + a.val = n / 16 % 4 * 1024 + a.val; omega)
      have hc : colAt0 (n + 1) b = colAt0 n b := Fin.ext (by show (n + 1) / 4 % 4 * 1024 + b.val = n / 4 % 4 * 1024 + b.val; omega)
      have hm : (n + 1) % 4 = n % 4 + 1 := by omega
      have hs : stepAt0 (n + 1) = ⟨n % 4 + 1, by omega⟩ := Fin.ext hm
      show (outsAt0 V c n (Nat.lt_of_succ_lt hn)).2.2.2 (ix2 a b) + termI0 V c (rowAt0 (n + 1) a) (colAt0 (n + 1) b) (stepAt0 (n + 1)) = _
      rw [accI0_eq c n (Nat.lt_of_succ_lt hn) a b, hr, hc, hs, hm, pfold0_succ _ _ (by omega)]

end AtIdeal

section Array
variable (V : (c : Dev nD) → (b : Ref sig .tc) → Buf (Elt Ideal) ((c : Thread nD τ).loc b))

/-- The first accumulator's invariant at an in-block index that has not been split into coordinates. -/
theorem accR0_eq_at (c : Dev nD) (n : ℕ) (hn : n < cfg0.N) (y : S1024x1024.Idx) :
    (outsAt0 V c n hn).2.2.1 y = pfold0 (termR0 V c (rowAt0 n (y 0)) (colAt0 n (y 1))) (n % 4) :=
  (congrArg (outsAt0 V c n hn).2.2.1 (eq_ix2 y)).trans (accR0_eq V c n hn (y 0) (y 1))

/-- What the kernel leaves in its first output array: entry (p, q) is the four blocks' shares of x · W_rᵀ there,
    folded in order. -/
def G0_3 (c : Dev nD) : S4096x4096.Idx → EReal := fun i => Cert.Spec.fold4 (termR0 V c (i 0) (i 1))

/-- WHAT A LAST STEP WRITES BACK into the first output is its tile of that array. -/
theorem flushed0_3_eq (c : Dev nD) (t : Fin cfg0.N) (hf : (cfg0.win 3).flush t = true) :
    (dat0 V c).flushed 3 t = ((cfg0.win 3).blk t).view.read (Elt Ideal) (G0_3 V c) := by
  have h3 : t.val % 4 = 3 := (flush0_3 t).mp hf
  have h0 : ¬t.val % 4 = 0 := by omega
  obtain ⟨-, -, -, -, -, -, e30, e31, -⟩ := idx_facts0 t
  show (cfg0.win 3).cut (grid0.coords t) ((dat0 V c).after 3 t) = _
  rw [after0_3, (outblk0_C_3 V c t h0 h3).trans (congrArg (k0_pay6 (F := Ideal)) (acc0_C_0 V c t h0 h3).symm)]
  funext y
  show k0_pay6 (F := Ideal) (outsAt0 V c t.val t.isLt).2.2.1 y = G0_3 V c (((cfg0.win 3).blk t).view.emb y)
  rw [Cert.KernelIdeal.Pay.pay0_6_at, accR0_eq_at V c t.val t.isLt y, h3]
  have r0 : rowAt0 t.val (y 0) = (((cfg0.win 3).blk t).view.emb y) 0 :=
    Fin.ext (by show t.val / 16 % 4 * 1024 + (y 0).val = win0_3.index t (0 : Fin 2) * 1024 + 1 * (y 0).val; rw [e30]; omega)
  have r1 : colAt0 t.val (y 1) = (((cfg0.win 3).blk t).view.emb y) 1 :=
    Fin.ext (by show t.val / 4 % 4 * 1024 + (y 1).val = win0_3.index t (1 : Fin 2) * 1024 + 1 * (y 1).val; rw [e31]; omega)
  rw [r0, r1]
  rfl

/-- An index of the first output array is in position t's tile iff each coordinate is in the tile's range on its axis. -/
theorem mem_blk0_3 (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v3_0).slice (win0_3.rect t)).set ↔ _
  rw [View.set_slice_whole, Rect.mem_set_unit]
  exact Iff.rfl

/-- Every entry is in the tile of a last step: entry (p, q) in that of ((p / 1024) · 4 + q / 1024) · 4 + 3. -/
theorem cover0_3 (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 64 := N_0
  have hlt : ((i 0).val / 1024 * 4 + (i 1).val / 1024) * 4 + 3 < cfg0.N := lt_of_lt_of_eq (by omega) hN.symm
  refine ⟨⟨((i 0).val / 1024 * 4 + (i 1).val / 1024) * 4 + 3, hlt⟩, (flush0_3 _).mpr (by show (((i 0).val / 1024 * 4 + (i 1).val / 1024) * 4 + 3) % 4 = 3; omega), ?_⟩
  obtain ⟨-, -, -, -, -, -, e30, e31, -⟩ := idx_facts0 ⟨((i 0).val / 1024 * 4 + (i 1).val / 1024) * 4 + 3, hlt⟩
  rw [mem_blk0_3]
  intro a
  match a with
  | ⟨0, _⟩ =>
    show win0_3.index _ (0 : Fin 2) * 1024 ≤ (i 0).val ∧ (i 0).val < win0_3.index _ (0 : Fin 2) * 1024 + 1024
    rw [e30]
    show (((i 0).val / 1024 * 4 + (i 1).val / 1024) * 4 + 3) / 16 % 4 * 1024 ≤ (i 0).val ∧ (i 0).val < (((i 0).val / 1024 * 4 + (i 1).val / 1024) * 4 + 3) / 16 % 4 * 1024 + 1024
    omega
  | ⟨1, _⟩ =>
    show win0_3.index _ (1 : Fin 2) * 1024 ≤ (i 1).val ∧ (i 1).val < win0_3.index _ (1 : Fin 2) * 1024 + 1024
    rw [e31]
    show (((i 0).val / 1024 * 4 + (i 1).val / 1024) * 4 + 3) / 4 % 4 * 1024 ≤ (i 1).val ∧ (i 1).val < (((i 0).val / 1024 * 4 + (i 1).val / 1024) * 4 + 3) / 4 % 4 * 1024 + 1024
    omega

/-- THE FIRST OUTPUT ARRAY after the kernel: entry by entry the blocks' shares folded in order. -/
theorem final0_3_arr (c : Dev nD) : (dat0 V c).arrAt 3 cfg0.N = G0_3 V c :=
  (dat0 V c).arrAt_eq_of_cover 3 (G0_3 V c) (flushed0_3_eq V c) cover0_3

/-- The same at one entry, in the specification's words: the row pass x · W_rᵀ as the kernel accumulates it. -/
theorem final0_3 (c : Dev nD) (p q : Fin 4096) :
    (dat0 (F := Ideal) V c).arrAt 3 cfg0.N (ix2 p q)
      = Cert.Spec.kerRow (Cert.Spec.mat (V c main_v0)) (Cert.Spec.mat (V c main_v1)) p q := by
  rw [final0_3_arr]
  rfl

/-- The second accumulator's invariant at an in-block index that has not been split into coordinates. -/
theorem accI0_eq_at (c : Dev nD) (n : ℕ) (hn : n < cfg0.N) (y : S1024x1024.Idx) :
    (outsAt0 V c n hn).2.2.2 y = pfold0 (termI0 V c (rowAt0 n (y 0)) (colAt0 n (y 1))) (n % 4) :=
  (congrArg (outsAt0 V c n hn).2.2.2 (eq_ix2 y)).trans (accI0_eq V c n hn (y 0) (y 1))

/-- What the kernel leaves in its second output array: entry (p, q) is the four blocks' shares of x · W_iᵀ there,
    folded in order. -/
def G0_4 (c : Dev nD) : S4096x4096.Idx → EReal := fun i => Cert.Spec.fold4 (termI0 V c (i 0) (i 1))

/-- WHAT A LAST STEP WRITES BACK into the second output is its tile of that array. -/
theorem flushed0_4_eq (c : Dev nD) (t : Fin cfg0.N) (hf : (cfg0.win 4).flush t = true) :
    (dat0 V c).flushed 4 t = ((cfg0.win 4).blk t).view.read (Elt Ideal) (G0_4 V c) := by
  have h3 : t.val % 4 = 3 := (flush0_4 t).mp hf
  have h0 : ¬t.val % 4 = 0 := by omega
  obtain ⟨-, -, -, -, -, -, -, -, e30, e31⟩ := idx_facts0 t
  show (cfg0.win 4).cut (grid0.coords t) ((dat0 V c).after 4 t) = _
  rw [after0_4, (outblk0_C_4 V c t h0 h3).trans (congrArg (k0_pay7 (F := Ideal)) (acc0_C_1 V c t h0 h3).symm)]
  funext y
  show k0_pay7 (F := Ideal) (outsAt0 V c t.val t.isLt).2.2.2 y = G0_4 V c (((cfg0.win 4).blk t).view.emb y)
  rw [Cert.KernelIdeal.Pay.pay0_7_at, accI0_eq_at V c t.val t.isLt y, h3]
  have r0 : rowAt0 t.val (y 0) = (((cfg0.win 4).blk t).view.emb y) 0 :=
    Fin.ext (by show t.val / 16 % 4 * 1024 + (y 0).val = win0_4.index t (0 : Fin 2) * 1024 + 1 * (y 0).val; rw [e30]; omega)
  have r1 : colAt0 t.val (y 1) = (((cfg0.win 4).blk t).view.emb y) 1 :=
    Fin.ext (by show t.val / 4 % 4 * 1024 + (y 1).val = win0_4.index t (1 : Fin 2) * 1024 + 1 * (y 1).val; rw [e31]; omega)
  rw [r0, r1]
  rfl

/-- An index of the second output array is in position t's tile iff each coordinate is in the tile's range on its axis. -/
theorem mem_blk0_4 (t : Fin cfg0.N) (i : S4096x4096.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v3_1).slice (win0_4.rect t)).set ↔ _
  rw [View.set_slice_whole, Rect.mem_set_unit]
  exact Iff.rfl

/-- Every entry is in the tile of a last step: entry (p, q) in that of ((p / 1024) · 4 + q / 1024) · 4 + 3. -/
theorem cover0_4 (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  have hN : cfg0.N = 64 := N_0
  have hlt : ((i 0).val / 1024 * 4 + (i 1).val / 1024) * 4 + 3 < cfg0.N := lt_of_lt_of_eq (by omega) hN.symm
  refine ⟨⟨((i 0).val / 1024 * 4 + (i 1).val / 1024) * 4 + 3, hlt⟩, (flush0_4 _).mpr (by show (((i 0).val / 1024 * 4 + (i 1).val / 1024) * 4 + 3) % 4 = 3; omega), ?_⟩
  obtain ⟨-, -, -, -, -, -, -, -, e30, e31⟩ := idx_facts0 ⟨((i 0).val / 1024 * 4 + (i 1).val / 1024) * 4 + 3, hlt⟩
  rw [mem_blk0_4]
  intro a
  match a with
  | ⟨0, _⟩ =>
    show win0_4.index _ (0 : Fin 2) * 1024 ≤ (i 0).val ∧ (i 0).val < win0_4.index _ (0 : Fin 2) * 1024 + 1024
    rw [e30]
    show (((i 0).val / 1024 * 4 + (i 1).val / 1024) * 4 + 3) / 16 % 4 * 1024 ≤ (i 0).val ∧ (i 0).val < (((i 0).val / 1024 * 4 + (i 1).val / 1024) * 4 + 3) / 16 % 4 * 1024 + 1024
    omega
  | ⟨1, _⟩ =>
    show win0_4.index _ (1 : Fin 2) * 1024 ≤ (i 1).val ∧ (i 1).val < win0_4.index _ (1 : Fin 2) * 1024 + 1024
    rw [e31]
    show (((i 0).val / 1024 * 4 + (i 1).val / 1024) * 4 + 3) / 4 % 4 * 1024 ≤ (i 1).val ∧ (i 1).val < (((i 0).val / 1024 * 4 + (i 1).val / 1024) * 4 + 3) / 4 % 4 * 1024 + 1024
    omega

/-- THE SECOND OUTPUT ARRAY after the kernel: entry by entry the blocks' shares folded in order. -/
theorem final0_4_arr (c : Dev nD) : (dat0 V c).arrAt 4 cfg0.N = G0_4 V c :=
  (dat0 V c).arrAt_eq_of_cover 4 (G0_4 V c) (flushed0_4_eq V c) cover0_4

/-- The same at one entry, in the specification's words: the row pass x · W_iᵀ as the kernel accumulates it. -/
theorem final0_4 (c : Dev nD) (p q : Fin 4096) :
    (dat0 (F := Ideal) V c).arrAt 4 cfg0.N (ix2 p q)
      = Cert.Spec.kerRow (Cert.Spec.mat (V c main_v0)) (Cert.Spec.mat (V c main_v2)) p q := by
  rw [final0_4_arr]
  rfl

end Array

end Cert.KernelIdeal.Hand

end
-- ==== Proof.KI.R1Value.lean ====
/-
  Column-pass kernel 1 (the real half, W_rᵀ·R_r − W_iᵀ·R_i): the value it leaves in its output array.

  The grid is 4 × 4 × 4; position t = (i · 4 + j) · 4 + k works on output tile (i, j) at step k of the contracted
  axis. At that position the two W blocks are block (k, i) of W_r and W_i, the two row-product blocks are block (k, j)
  of R_r and R_i. The accumulator is zeroed at k = 0, every step adds its block's wrᵀ·a − wiᵀ·b, and at k = 3 the
  accumulator is copied into the output tile, which is written back there. So after position t the accumulator holds,
  at in-block entry (a, b), the fold (from zero, in order) of the shares of blocks 0 … k of the entry
  (i · 1024 + a, j · 1024 + b); by induction on the position, each step read off the pieces the body's run left.
  The tiles of the last steps cover the array, so entry (p, q) of the array ends as the four blocks' shares folded in
  order.
-/
import proofs.«175415_j18622978196102_2_alg».proof.Proof.KI.R1
import proofs.«175415_j18622978196102_2_alg».proof.Proof.Payloads
import proofs.«175415_j18622978196102_2_alg».proof.Proof.Spec
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Pieces
variable {F : FTy → Type} [FloatOps F]

theorem hz1 : (![0, 0] : Fin 2 → Nat) = fun _ => 0 := funext fun a => by fin_cases a <;> rfl

/-- A first step leaves in the accumulator the zero block plus the step's own contribution. -/
theorem sout_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i) (x0 x1 x2 x3 : Vec F S1024x1024 .bf16) :
    sout1_A_0 c i arg3 harg3 arg4 harg4 arg5 harg5 arg6 harg6 arg7 harg7 arg8 harg8 hc0 hc1 x0 x1 x2 x3 = k1_pay2 x0 x1 x2 x3 (k1_pay1 (F := F)) := by
  unfold sout1_A_0
  rw [View.read_writes_eq_canon _ _ _ (scover1_A_0 c i arg3 harg3 arg4 harg4 arg5 harg5 arg6 harg6 arg7 harg7 arg8 harg8 hc0 hc1 x0 x1 x2 x3)]
  unfold kernelRun1_A
  dsimp only
  sl_unfold_words
  rw [View.canon_cons_unit_zero (S := S1024x1024) hz1, View.readCov_unit_zero (S := S1024x1024) _ hz1]
  simp only [View.readAt_eq_ld, harg3.read_unread, harg4.read_unread, harg5.read_unread, harg6.read_unread, View.ld_unit_zero (S := S1024x1024) hz1]

/-- A middle step leaves in the accumulator what it found plus the step's own contribution. -/
theorem sout_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i) (x0 x1 x2 x3 : Vec F S1024x1024 .bf16) (xs0 : Vec F S1024x1024 .f32) :
    sout1_B_0 c i arg3 harg3 arg4 harg4 arg5 harg5 arg6 harg6 arg7 harg7 arg8 harg8 hc0 hc1 x0 x1 x2 x3 xs0 = k1_pay2 x0 x1 x2 x3 xs0 := by
  unfold sout1_B_0
  rw [View.read_writes_eq_canon _ _ _ (scover1_B_0 c i arg3 harg3 arg4 harg4 arg5 harg5 arg6 harg6 arg7 harg7 arg8 harg8 hc0 hc1 x0 x1 x2 x3 xs0)]
  unfold kernelRun1_B
  dsimp only
  rw [View.canon_unit_zero hz1]
  simp only [View.readAt_eq_ld, harg3.read_unread, harg4.read_unread, harg5.read_unread, harg6.read_unread, harg8.read_unread, View.ld_unit_zero (S := S1024x1024) hz1]

/-- A last step leaves in the accumulator what it found plus the step's own contribution, -/
theorem sout_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i) (x0 x1 x2 x3 : Vec F S1024x1024 .bf16) (xs0 : Vec F S1024x1024 .f32) :
    sout1_C_0 c i arg3 harg3 arg4 harg4 arg5 harg5 arg6 harg6 arg7 harg7 arg8 harg8 hc0 hc1 x0 x1 x2 x3 xs0 = k1_pay2 x0 x1 x2 x3 xs0 := by
  unfold sout1_C_0
  rw [View.read_writes_eq_canon _ _ _ (scover1_C_0 c i arg3 harg3 arg4 harg4 arg5 harg5 arg6 harg6 arg7 harg7 arg8 harg8 hc0 hc1 x0 x1 x2 x3 xs0)]
  unfold kernelRun1_C
  dsimp only
  sl_unfold_words
  rw [View.canon_unit_zero hz1]
  simp only [View.readAt_eq_ld, harg3.read_unread, harg4.read_unread, harg5.read_unread, harg6.read_unread, harg8.read_unread, View.ld_unit_zero (S := S1024x1024) hz1]

/-- and the same in the output block. -/
theorem out_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i) (x0 x1 x2 x3 : Vec F S1024x1024 .bf16) (xs0 : Vec F S1024x1024 .f32) :
    out1_C_4 c i arg3 harg3 arg4 harg4 arg5 harg5 arg6 harg6 arg7 harg7 arg8 harg8 hc0 hc1 x0 x1 x2 x3 xs0 = k1_pay2 x0 x1 x2 x3 xs0 := by
  unfold out1_C_4
  rw [View.read_writes_eq_canon _ _ _ (cover1_C_4 c i arg3 harg3 arg4 harg4 arg5 harg5 arg6 harg6 arg7 harg7 arg8 harg8 hc0 hc1 x0 x1 x2 x3 xs0)]
  unfold kernelRun1_C
  dsimp only
  sl_unfold_words
  rw [View.canon_unit_zero hz1, View.readCov_unit_zero (S := S1024x1024) _ hz1]
  simp only [View.readAt_eq_ld, harg3.read_unread, harg4.read_unread, harg5.read_unread, harg6.read_unread, harg8.read_unread, View.ld_unit_zero (S := S1024x1024) hz1]

end Pieces

section PointByPoint
variable {F : FTy → Type} [FloatOps F]
variable (V : (c : Dev nD) → (b : Ref sig .tc) → Buf (Elt F) ((c : Thread nD τ).loc b))

/-- After a first step the accumulator holds the zero block plus the step's contribution. -/
theorem acc1_A (c : Dev nD) (t : Fin cfg1.N) (h0 : t.val % 4 = 0) (h1 : ¬t.val % 4 = 3) :
    (outsAt1 V c t.val t.isLt).2 = k1_pay2 (iblk1 V c 0 t) (iblk1 V c 1 t) (iblk1 V c 2 t) (iblk1 V c 3 t) (k1_pay1 (F := F)) := by
  rw [outsAt1_A V c t h0 h1]
  dsimp only
  exact sout_A (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)

/-- After a middle step it holds what the step before left plus the step's contribution. -/
theorem acc1_B (c : Dev nD) (t : Fin cfg1.N) (h0 : ¬t.val % 4 = 0) (h1 : ¬t.val % 4 = 3) :
    (outsAt1 V c t.val t.isLt).2 = k1_pay2 (iblk1 V c 0 t) (iblk1 V c 1 t) (iblk1 V c 2 t) (iblk1 V c 3 t) (outsAt1 V c (t.val - 1) (Nat.lt_of_le_of_lt (Nat.sub_le _ _) t.isLt)).2 := by
  rw [outsAt1_B V c t h0 h1]
  dsimp only
  exact sout_B (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2

/-- After a last step likewise, -/
theorem acc1_C (c : Dev nD) (t : Fin cfg1.N) (h0 : ¬t.val % 4 = 0) (h1 : t.val % 4 = 3) :
    (outsAt1 V c t.val t.isLt).2 = k1_pay2 (iblk1 V c 0 t) (iblk1 V c 1 t) (iblk1 V c 2 t) (iblk1 V c 3 t) (outsAt1 V c (t.val - 1) (Nat.lt_of_le_of_lt (Nat.sub_le _ _) t.isLt)).2 := by
  rw [outsAt1_C V c t h0 h1]
  dsimp only
  exact sout_C (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2

/-- and the output block holds the same. -/
theorem outblk1_C (c : Dev nD) (t : Fin cfg1.N) (h0 : ¬t.val % 4 = 0) (h1 : t.val % 4 = 3) :
    (outsAt1 V c t.val t.isLt).1 = k1_pay2 (iblk1 V c 0 t) (iblk1 V c 1 t) (iblk1 V c 2 t) (iblk1 V c 3 t) (outsAt1 V c (t.val - 1) (Nat.lt_of_le_of_lt (Nat.sub_le _ _) t.isLt)).2 := by
  rw [outsAt1_C V c t h0 h1]
  dsimp only
  exact out_C (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2

end PointByPoint

section AtIdeal
variable (V : (c : Dev nD) → (b : Ref sig .tc) → Buf (Elt Ideal) ((c : Thread nD τ).loc b))

/-- The printed index maps over the grid: at position t = (i · 4 + j) · 4 + k the two W windows sit at block (k, i),
    the two row-product windows at block (k, j), the output at block (i, j). -/
theorem idx_facts1 : ∀ t : Fin cfg1.N,
    win1_0.index t (0 : Fin 2) = t.val % 4 ∧ win1_0.index t (1 : Fin 2) = t.val / 16 % 4
    ∧ win1_1.index t (0 : Fin 2) = t.val % 4 ∧ win1_1.index t (1 : Fin 2) = t.val / 16 % 4
    ∧ win1_2.index t (0 : Fin 2) = t.val % 4 ∧ win1_2.index t (1 : Fin 2) = t.val / 4 % 4
    ∧ win1_3.index t (0 : Fin 2) = t.val % 4 ∧ win1_3.index t (1 : Fin 2) = t.val / 4 % 4
    ∧ win1_4.index t (0 : Fin 2) = t.val / 16 % 4 ∧ win1_4.index t (1 : Fin 2) = t.val / 4 % 4 :=
  (by decide +kernel : ∀ t : Fin grid1.N, _)

/-- The output row of in-block row a at position n. -/
def rowAt (n : ℕ) (a : Fin 1024) : Fin 4096 := ⟨n / 16 % 4 * 1024 + a.val, by have := a.isLt; omega⟩
/-- The output column of in-block column b at position n. -/
def colAt (n : ℕ) (b : Fin 1024) : Fin 4096 := ⟨n / 4 % 4 * 1024 + b.val, by have := b.isLt; omega⟩
/-- The contracted axis' block at position n. -/
def stepAt (n : ℕ) : Fin 4 := ⟨n % 4, Nat.mod_lt _ (by decide)⟩

/-- W_r's block at position t, read at (kk, a): W_r at row (block k, kk) and the output's row. -/
theorem blk0_at (c : Dev nD) (t : Fin cfg1.N) (kk a : Fin 1024) :
    (iblk1 V c 0 t : Vec Ideal S1024x1024 .bf16) (ix2 kk a)
      = Cert.Spec.mat (V c main_v1) (Cert.Spec.blockAt (stepAt t.val) kk) (rowAt t.val a) := by
  obtain ⟨e00, e01, -⟩ := idx_facts1 t
  unfold iblk1
  rw [View.read_apply]
  show V c main_v1 _ = V c main_v1 _
  congr 1
  funext d
  apply Fin.ext
  match d with
  | ⟨0, _⟩ => show win1_0.index t (0 : Fin 2) * 1024 + 1 * kk.val = t.val % 4 * 1024 + kk.val; rw [e00]; omega
  | ⟨1, _⟩ => show win1_0.index t (1 : Fin 2) * 1024 + 1 * a.val = t.val / 16 % 4 * 1024 + a.val; rw [e01]; omega

/-- W_i's block likewise. -/
theorem blk1_at (c : Dev nD) (t : Fin cfg1.N) (kk a : Fin 1024) :
    (iblk1 V c 1 t : Vec Ideal S1024x1024 .bf16) (ix2 kk a)
      = Cert.Spec.mat (V c main_v2) (Cert.Spec.blockAt (stepAt t.val) kk) (rowAt t.val a) := by
  obtain ⟨-, -, e10, e11, -⟩ := idx_facts1 t
  unfold iblk1
  rw [View.read_apply]
  show V c main_v2 _ = V c main_v2 _
  congr 1
  funext d
  apply Fin.ext
  match d with
  | ⟨0, _⟩ => show win1_1.index t (0 : Fin 2) * 1024 + 1 * kk.val = t.val % 4 * 1024 + kk.val; rw [e10]; omega
  | ⟨1, _⟩ => show win1_1.index t (1 : Fin 2) * 1024 + 1 * a.val = t.val / 16 % 4 * 1024 + a.val; rw [e11]; omega

/-- The real row product's block at position t, read at (kk, b): row (block k, kk) and the output's column. -/
theorem blk2_at (c : Dev nD) (t : Fin cfg1.N) (kk a : Fin 1024) :
    (iblk1 V c 2 t : Vec Ideal S1024x1024 .bf16) (ix2 kk a)
      = Cert.Spec.mat (V c main_v3_0) (Cert.Spec.blockAt (stepAt t.val) kk) (colAt t.val a) := by
  obtain ⟨-, -, -, -, e20, e21, -⟩ := idx_facts1 t
  unfold iblk1
  rw [View.read_apply]
  show V c main_v3_0 _ = V c main_v3_0 _
  congr 1
  funext d
  apply Fin.ext
  match d with
  | ⟨0, _⟩ => show win1_2.index t (0 : Fin 2) * 1024 + 1 * kk.val = t.val % 4 * 1024 + kk.val; rw [e20]; omega
  | ⟨1, _⟩ => show win1_2.index t (1 : Fin 2) * 1024 + 1 * a.val = t.val / 4 % 4 * 1024 + a.val; rw [e21]; omega

/-- The imaginary row product's block likewise. -/
theorem blk3_at (c : Dev nD) (t : Fin cfg1.N) (kk a : Fin 1024) :
    (iblk1 V c 3 t : Vec Ideal S1024x1024 .bf16) (ix2 kk a)
      = Cert.Spec.mat (V c main_v3_1) (Cert.Spec.blockAt (stepAt t.val) kk) (colAt t.val a) := by
  obtain ⟨-, -, -, -, -, -, e30, e31, -⟩ := idx_facts1 t
  unfold iblk1
  rw [View.read_apply]
  show V c main_v3_1 _ = V c main_v3_1 _
  congr 1
  funext d
  apply Fin.ext
  match d with
  | ⟨0, _⟩ => show win1_3.index t (0 : Fin 2) * 1024 + 1 * kk.val = t.val % 4 * 1024 + kk.val; rw [e30]; omega
  | ⟨1, _⟩ => show win1_3.index t (1 : Fin 2) * 1024 + 1 * a.val = t.val / 4 % 4 * 1024 + a.val; rw [e31]; omega

/-- One step's stored value at an entry, over blocks that read four matrices at the block's rows: what the accumulator
    held plus the block's share of the two column products' difference. -/
theorem step_at (wr wi a b : Vec Ideal S1024x1024 .bf16) (acc : Vec Ideal S1024x1024 .f32)
    (M1 M2 M3 M4 : Cert.Spec.Mat) (kb : Fin 4) (p q : Fin 4096) (ra rb : Fin 1024)
    (hwr : ∀ kk : Fin 1024, wr (ix2 kk ra) = M1 (Cert.Spec.blockAt kb kk) p)
    (hwi : ∀ kk : Fin 1024, wi (ix2 kk ra) = M2 (Cert.Spec.blockAt kb kk) p)
    (ha : ∀ kk : Fin 1024, a (ix2 kk rb) = M3 (Cert.Spec.blockAt kb kk) q)
    (hb : ∀ kk : Fin 1024, b (ix2 kk rb) = M4 (Cert.Spec.blockAt kb kk) q) :
    k1_pay2 (F := Ideal) wr wi a b acc (ix2 ra rb)
      = acc (ix2 ra rb) + (Cert.Spec.colBlk M1 M3 kb p q - Cert.Spec.colBlk M2 M4 kb p q) := by
  refine (Cert.KernelIdeal.Pay.pay1_2 wr wi a b acc ra rb).trans ?_
  unfold Cert.Spec.colBlk
  simp only [hwr, hwi, ha, hb]

/-- One block's share of the output entry (p, q). -/
def term1 (c : Dev nD) (p q : Fin 4096) (kb : Fin 4) : EReal :=
  Cert.Spec.colBlk (Cert.Spec.mat (V c main_v1)) (Cert.Spec.mat (V c main_v3_0)) kb p q
    - Cert.Spec.colBlk (Cert.Spec.mat (V c main_v2)) (Cert.Spec.mat (V c main_v3_1)) kb p q

/-- The step at position t, at in-block entry (a, b). -/
theorem step1_at (c : Dev nD) (t : Fin cfg1.N) (acc : Vec Ideal S1024x1024 .f32) (a b : Fin 1024) :
    k1_pay2 (F := Ideal) (iblk1 V c 0 t) (iblk1 V c 1 t) (iblk1 V c 2 t) (iblk1 V c 3 t) acc (ix2 a b)
      = acc (ix2 a b) + term1 V c (rowAt t.val a) (colAt t.val b) (stepAt t.val) :=
  step_at (iblk1 V c 0 t) (iblk1 V c 1 t) (iblk1 V c 2 t) (iblk1 V c 3 t) acc (Cert.Spec.mat (V c main_v1)) (Cert.Spec.mat (V c main_v2)) (Cert.Spec.mat (V c main_v3_0)) (Cert.Spec.mat (V c main_v3_1))
    (stepAt t.val) (rowAt t.val a) (colAt t.val b) a b
    (fun kk => blk0_at V c t kk a) (fun kk => blk1_at V c t kk a) (fun kk => blk2_at V c t kk b) (fun kk => blk3_at V c t kk b)

/-- The accumulator started at zero after the contracted axis' steps 0 … k. -/
def pfold (s : Fin 4 → EReal) : ℕ → EReal
  | 0 => 0 + s 0
  | 1 => (0 + s 0) + s 1
  | 2 => ((0 + s 0) + s 1) + s 2
  | _ => Cert.Spec.fold4 s

theorem pfold_succ (s : Fin 4 → EReal) (k : ℕ) (hk : k + 1 < 4) : pfold s (k + 1) = pfold s k + s ⟨k + 1, hk⟩ := by
  have h3 : k < 3 := by omega
  interval_cases k <;> rfl

/-- THE INVARIANT: after position n the accumulator holds, at in-block entry (a, b), the fold so far of the blocks'
    shares of the output entry the point's tile puts there. -/
theorem acc1_eq (c : Dev nD) : ∀ (n : ℕ) (hn : n < cfg1.N) (a b : Fin 1024),
    (outsAt1 V c n hn).2 (ix2 a b) = pfold (term1 V c (rowAt n a) (colAt n b)) (n % 4)
  | 0, hn, a, b => by
    refine (congrFun (acc1_A V c ⟨0, hn⟩ rfl (by show ¬(0 : ℕ) % 4 = 3; decide)) (ix2 a b)).trans ?_
    refine (step1_at V c ⟨0, hn⟩ (k1_pay1 (F := Ideal)) a b).trans ?_
    rw [Cert.KernelIdeal.Pay.pay1_1]
    rfl
  | n + 1, hn, a, b => by
    have hN : n + 1 < 64 := lt_of_lt_of_eq hn N_1
    by_cases h0 : (n + 1) % 4 = 0
    · have h1 : ¬(n + 1) % 4 = 3 := by omega
      refine (congrFun (acc1_A V c ⟨n + 1, hn⟩ h0 h1) (ix2 a b)).trans ?_
      refine (step1_at V c ⟨n + 1, hn⟩ (k1_pay1 (F := Ideal)) a b).trans ?_
      have hk : stepAt (n + 1) = 0 := Fin.ext h0
      show k1_pay1 (F := Ideal) (ix2 a b) + term1 V c (rowAt (n + 1) a) (colAt (n + 1) b) (stepAt (n + 1)) = _
      rw [Cert.KernelIdeal.Pay.pay1_1, hk, h0]
      rfl
    · have e : (outsAt1 V c (n + 1) hn).2
          = k1_pay2 (F := Ideal) (iblk1 V c 0 ⟨n + 1, hn⟩) (iblk1 V c 1 ⟨n + 1, hn⟩) (iblk1 V c 2 ⟨n + 1, hn⟩) (iblk1 V c 3 ⟨n + 1, hn⟩)
              (outsAt1 V c n (Nat.lt_of_succ_lt hn)).2 := by
        by_cases h1 : (n + 1) % 4 = 3
        · exact acc1_C V c ⟨n + 1, hn⟩ h0 h1
        · exact acc1_B V c ⟨n + 1, hn⟩ h0 h1
      refine (congrFun e (ix2 a b)).trans ?_
      refine (step1_at V c ⟨n + 1, hn⟩ _ a b).trans ?_
      have hr : rowAt (n + 1) a = rowAt n a := Fin.ext (by show (n + 1) / 16 % 4 * 1024 + a.val = n / 16 % 4 * 1024 + a.val; omega)
      have hc : colAt (n + 1) b = colAt n b := Fin.ext (by show (n + 1) / 4 % 4 * 1024 + b.val = n / 4 % 4 * 1024 + b.val; omega)
      have hm : (n + 1) % 4 = n % 4 + 1 := by omega
      have hs : stepAt (n + 1) = ⟨n % 4 + 1, by omega⟩ := Fin.ext hm
      show (outsAt1 V c n (Nat.lt_of_succ_lt hn)).2 (ix2 a b) + term1 V c (rowAt (n + 1) a) (colAt (n + 1) b) (stepAt (n + 1)) = _
      rw [acc1_eq c n (Nat.lt_of_succ_lt hn) a b, hr, hc, hs, hm, pfold_succ _ _ (by omega)]

end AtIdeal

section Array
variable (V : (c : Dev nD) → (b : Ref sig .tc) → Buf (Elt Ideal) ((c : Thread nD τ).loc b))

/-- The invariant at an in-block index that has not been split into coordinates. -/
theorem acc1_eq_at (c : Dev nD) (n : ℕ) (hn : n < cfg1.N) (y : S1024x1024.Idx) :
    (outsAt1 V c n hn).2 y = pfold (term1 V c (rowAt n (y 0)) (colAt n (y 1))) (n % 4) :=
  (congrArg (outsAt1 V c n hn).2 (eq_ix2 y)).trans (acc1_eq V c n hn (y 0) (y 1))

/-- What the kernel leaves in its output array: entry (p, q) is the four blocks' shares, folded in order. -/
def G1 (c : Dev nD) : S4096x4096.Idx → EReal := fun i => Cert.Spec.fold4 (term1 V c (i 0) (i 1))

/-- WHAT A LAST STEP WRITES BACK is its tile of that array. -/
theorem flushed1_eq (c : Dev nD) (t : Fin cfg1.N) (hf : (cfg1.win 4).flush t = true) :
    (dat1 V c).flushed 4 t = ((cfg1.win 4).blk t).view.read (Elt Ideal) (G1 V c) := by
  have h3 : t.val % 4 = 3 := (flush1_4 t).mp hf
  have h0 : ¬t.val % 4 = 0 := by omega
  obtain ⟨-, -, -, -, -, -, -, -, e40, e41⟩ := idx_facts1 t
  show (cfg1.win 4).cut (grid1.coords t) ((dat1 V c).after 4 t) = _
  rw [after1_4, (outblk1_C V c t h0 h3).trans (acc1_C V c t h0 h3).symm]
  funext y
  show (outsAt1 V c t.val t.isLt).2 y = G1 V c (((cfg1.win 4).blk t).view.emb y)
  rw [acc1_eq_at V c t.val t.isLt y, h3]
  have r0 : rowAt t.val (y 0) = (((cfg1.win 4).blk t).view.emb y) 0 :=
    Fin.ext (by show t.val / 16 % 4 * 1024 + (y 0).val = win1_4.index t (0 : Fin 2) * 1024 + 1 * (y 0).val; rw [e40]; omega)
  have r1 : colAt t.val (y 1) = (((cfg1.win 4).blk t).view.emb y) 1 :=
    Fin.ext (by show t.val / 4 % 4 * 1024 + (y 1).val = win1_4.index t (1 : Fin 2) * 1024 + 1 * (y 1).val; rw [e41]; omega)
  rw [r0, r1]
  rfl

/-- An index of the array is in position t's tile iff each coordinate is in the tile's range on its axis. -/
theorem mem_blk1 (t : Fin cfg1.N) (i : S4096x4096.Idx) :
    i ∈ ((cfg1.win 4).blk t).view.set ↔ ∀ a : Fin 2, win1_4.index t a * S1024x1024.size a ≤ (i a).val ∧ (i a).val < win1_4.index t a * S1024x1024.size a + S1024x1024.size a := by
  show i ∈ ((View.whole main_v4).slice (win1_4.rect t)).set ↔ _
  rw [View.set_slice_whole, Rect.mem_set_unit]
  exact Iff.rfl

/-- Every entry is in the tile of a last step: entry (p, q) in that of ((p / 1024) · 4 + q / 1024) · 4 + 3. -/
theorem cover1 (i : S4096x4096.Idx) :
    ∃ t : Fin cfg1.N, (cfg1.win 4).flush t = true ∧ i ∈ ((cfg1.win 4).blk t).view.set := by
  have hi0 : (i 0).val < 4096 := (i 0).isLt
  have hi1 : (i 1).val < 4096 := (i 1).isLt
  have hN : cfg1.N = 64 := N_1
  have hlt : ((i 0).val / 1024 * 4 + (i 1).val / 1024) * 4 + 3 < cfg1.N := lt_of_lt_of_eq (by omega) hN.symm
  refine ⟨⟨((i 0).val / 1024 * 4 + (i 1).val / 1024) * 4 + 3, hlt⟩, (flush1_4 _).mpr (by show (((i 0).val / 1024 * 4 + (i 1).val / 1024) * 4 + 3) % 4 = 3; omega), ?_⟩
  obtain ⟨-, -, -, -, -, -, -, -, e40, e41⟩ := idx_facts1 ⟨((i 0).val / 1024 * 4 + (i 1).val / 1024) * 4 + 3, hlt⟩
  rw [mem_blk1]
  intro a
  match a with
  | ⟨0, _⟩ =>
    show win1_4.index _ (0 : Fin 2) * 1024 ≤ (i 0).val ∧ (i 0).val < win1_4.index _ (0 : Fin 2) * 1024 + 1024
    rw [e40]
    show (((i 0).val / 1024 * 4 + (i 1).val / 1024) * 4 + 3) / 16 % 4 * 1024 ≤ (i 0).val ∧ (i 0).val < (((i 0).val / 1024 * 4 + (i 1).val / 1024) * 4 + 3) / 16 % 4 * 1024 + 1024
    omega
  | ⟨1, _⟩ =>
    show win1_4.index _ (1 : Fin 2) * 1024 ≤ (i 1).val ∧ (i 1).val < win1_4.index _ (1 : Fin 2) * 1024 + 1024
    rw [e41]
    show (((i 0).val / 1024 * 4 + (i 1).val / 1024) * 4 + 3) / 4 % 4 * 1024 ≤ (i 1).val ∧ (i 1).val < (((i 0).val / 1024 * 4 + (i 1).val / 1024) * 4 + 3) / 4 % 4 * 1024 + 1024
    omega

/-- THE ARRAY after the kernel: entry by entry the blocks' shares folded in order. -/
theorem final1_arr (c : Dev nD) : (dat1 V c).arrAt 4 cfg1.N = G1 V c :=
  (dat1 V c).arrAt_eq_of_cover 4 (G1 V c) (flushed1_eq V c) cover1

/-- The same at one entry, in the specification's words. -/
theorem final1 (c : Dev nD) (p q : Fin 4096) :
    (dat1 (F := Ideal) V c).arrAt 4 cfg1.N (ix2 p q)
      = Cert.Spec.fold4 fun kb => Cert.Spec.colBlk (Cert.Spec.mat (V c main_v1)) (Cert.Spec.mat (V c main_v3_0)) kb p q
                                   - Cert.Spec.colBlk (Cert.Spec.mat (V c main_v2)) (Cert.Spec.mat (V c main_v3_1)) kb p q := by
  rw [final1_arr]
  rfl

end Array

end Cert.KernelIdeal.Hand

end
-- ==== Proof.KI.R2Value.lean ====
/-
  Column-pass kernel 2 (the imaginary half, W_rᵀ·R_i + W_iᵀ·R_r): the value it leaves in its output array.

  The grid is 4 × 4 × 4; position t = (i · 4 + j) · 4 + k works on output tile (i, j) at step k of the contracted
  axis. At that position the two W blocks are block (k, i) of W_r and W_i, the two row-product blocks are block (k, j)
  of R_i and R_r (in that order). The accumulator is zeroed at k = 0, every step adds its block's wrᵀ·a + wiᵀ·b, and
  at k = 3 the accumulator is copied into the output tile, which is written back there. So after position t the
  accumulator holds, at in-block entry (a, b), the fold (from zero, in order) of the shares of blocks 0 … k of the
  entry (i · 1024 + a, j · 1024 + b); by induction on the position, each step read off the pieces the body's run left.
  The tiles of the last steps cover the array, so entry (p, q) of the array ends as the four blocks' shares folded in
  order.
-/
import proofs.«175415_j18622978196102_2_alg».proof.Proof.KI.R2
import proofs.«175415_j18622978196102_2_alg».proof.Proof.Payloads
import proofs.«175415_j18622978196102_2_alg».proof.Proof.Spec
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Pieces
variable {F : FTy → Type} [FloatOps F]

theorem hz2 : (![0, 0] : Fin 2 → Nat) = fun _ => 0 := funext fun a => by fin_cases a <;> rfl

/-- A first step leaves in the accumulator the zero block plus the step's own contribution. -/
theorem sout2_A (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i) (x0 x1 x2 x3 : Vec F S1024x1024 .bf16) :
    sout2_A_0 c i arg3 harg3 arg4 harg4 arg5 harg5 arg6 harg6 arg7 harg7 arg8 harg8 hc0 hc1 x0 x1 x2 x3 = k2_pay2 x0 x1 x2 x3 (k2_pay1 (F := F)) := by
  unfold sout2_A_0
  rw [View.read_writes_eq_canon _ _ _ (scover2_A_0 c i arg3 harg3 arg4 harg4 arg5 harg5 arg6 harg6 arg7 harg7 arg8 harg8 hc0 hc1 x0 x1 x2 x3)]
  unfold kernelRun2_A
  dsimp only
  sl_unfold_words
  rw [View.canon_cons_unit_zero (S := S1024x1024) hz2, View.readCov_unit_zero (S := S1024x1024) _ hz2]
  simp only [View.readAt_eq_ld, harg3.read_unread, harg4.read_unread, harg5.read_unread, harg6.read_unread, View.ld_unit_zero (S := S1024x1024) hz2]

/-- A middle step leaves in the accumulator what it found plus the step's own contribution. -/
theorem sout2_B (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : ¬cond2_1 i) (x0 x1 x2 x3 : Vec F S1024x1024 .bf16) (xs0 : Vec F S1024x1024 .f32) :
    sout2_B_0 c i arg3 harg3 arg4 harg4 arg5 harg5 arg6 harg6 arg7 harg7 arg8 harg8 hc0 hc1 x0 x1 x2 x3 xs0 = k2_pay2 x0 x1 x2 x3 xs0 := by
  unfold sout2_B_0
  rw [View.read_writes_eq_canon _ _ _ (scover2_B_0 c i arg3 harg3 arg4 harg4 arg5 harg5 arg6 harg6 arg7 harg7 arg8 harg8 hc0 hc1 x0 x1 x2 x3 xs0)]
  unfold kernelRun2_B
  dsimp only
  rw [View.canon_unit_zero hz2]
  simp only [View.readAt_eq_ld, harg3.read_unread, harg4.read_unread, harg5.read_unread, harg6.read_unread, harg8.read_unread, View.ld_unit_zero (S := S1024x1024) hz2]

/-- A last step leaves in the accumulator what it found plus the step's own contribution, -/
theorem sout2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i) (x0 x1 x2 x3 : Vec F S1024x1024 .bf16) (xs0 : Vec F S1024x1024 .f32) :
    sout2_C_0 c i arg3 harg3 arg4 harg4 arg5 harg5 arg6 harg6 arg7 harg7 arg8 harg8 hc0 hc1 x0 x1 x2 x3 xs0 = k2_pay2 x0 x1 x2 x3 xs0 := by
  unfold sout2_C_0
  rw [View.read_writes_eq_canon _ _ _ (scover2_C_0 c i arg3 harg3 arg4 harg4 arg5 harg5 arg6 harg6 arg7 harg7 arg8 harg8 hc0 hc1 x0 x1 x2 x3 xs0)]
  unfold kernelRun2_C
  dsimp only
  sl_unfold_words
  rw [View.canon_unit_zero hz2]
  simp only [View.readAt_eq_ld, harg3.read_unread, harg4.read_unread, harg5.read_unread, harg6.read_unread, harg8.read_unread, View.ld_unit_zero (S := S1024x1024) hz2]

/-- and the same in the output block. -/
theorem out2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i) (x0 x1 x2 x3 : Vec F S1024x1024 .bf16) (xs0 : Vec F S1024x1024 .f32) :
    out2_C_4 c i arg3 harg3 arg4 harg4 arg5 harg5 arg6 harg6 arg7 harg7 arg8 harg8 hc0 hc1 x0 x1 x2 x3 xs0 = k2_pay2 x0 x1 x2 x3 xs0 := by
  unfold out2_C_4
  rw [View.read_writes_eq_canon _ _ _ (cover2_C_4 c i arg3 harg3 arg4 harg4 arg5 harg5 arg6 harg6 arg7 harg7 arg8 harg8 hc0 hc1 x0 x1 x2 x3 xs0)]
  unfold kernelRun2_C
  dsimp only
  sl_unfold_words
  rw [View.canon_unit_zero hz2, View.readCov_unit_zero (S := S1024x1024) _ hz2]
  simp only [View.readAt_eq_ld, harg3.read_unread, harg4.read_unread, harg5.read_unread, harg6.read_unread, harg8.read_unread, View.ld_unit_zero (S := S1024x1024) hz2]

end Pieces

section PointByPoint
variable {F : FTy → Type} [FloatOps F]
variable (V : (c : Dev nD) → (b : Ref sig .tc) → Buf (Elt F) ((c : Thread nD τ).loc b))

/-- After a first step the accumulator holds the zero block plus the step's contribution. -/
theorem acc2_A (c : Dev nD) (t : Fin cfg2.N) (h0 : t.val % 4 = 0) (h1 : ¬t.val % 4 = 3) :
    (outsAt2 V c t.val t.isLt).2 = k2_pay2 (iblk2 V c 0 t) (iblk2 V c 1 t) (iblk2 V c 2 t) (iblk2 V c 3 t) (k2_pay1 (F := F)) := by
  rw [outsAt2_A V c t h0 h1]
  dsimp only
  exact sout2_A (F := F) c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t)

/-- After a middle step it holds what the step before left plus the step's contribution. -/
theorem acc2_B (c : Dev nD) (t : Fin cfg2.N) (h0 : ¬t.val % 4 = 0) (h1 : ¬t.val % 4 = 3) :
    (outsAt2 V c t.val t.isLt).2 = k2_pay2 (iblk2 V c 0 t) (iblk2 V c 1 t) (iblk2 V c 2 t) (iblk2 V c 3 t) (outsAt2 V c (t.val - 1) (Nat.lt_of_le_of_lt (Nat.sub_le _ _) t.isLt)).2 := by
  rw [outsAt2_B V c t h0 h1]
  dsimp only
  exact sout2_B (F := F) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2

/-- After a last step likewise, -/
theorem acc2_C (c : Dev nD) (t : Fin cfg2.N) (h0 : ¬t.val % 4 = 0) (h1 : t.val % 4 = 3) :
    (outsAt2 V c t.val t.isLt).2 = k2_pay2 (iblk2 V c 0 t) (iblk2 V c 1 t) (iblk2 V c 2 t) (iblk2 V c 3 t) (outsAt2 V c (t.val - 1) (Nat.lt_of_le_of_lt (Nat.sub_le _ _) t.isLt)).2 := by
  rw [outsAt2_C V c t h0 h1]
  dsimp only
  exact sout2_C (F := F) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2

/-- and the output block holds the same. -/
theorem outblk2_C (c : Dev nD) (t : Fin cfg2.N) (h0 : ¬t.val % 4 = 0) (h1 : t.val % 4 = 3) :
    (outsAt2 V c t.val t.isLt).1 = k2_pay2 (iblk2 V c 0 t) (iblk2 V c 1 t) (iblk2 V c 2 t) (iblk2 V c 3 t) (outsAt2 V c (t.val - 1) (Nat.lt_of_le_of_lt (Nat.sub_le _ _) t.isLt)).2 := by
  rw [outsAt2_C V c t h0 h1]
  dsimp only
  exact out2_C (F := F) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2

end PointByPoint

section AtIdeal
variable (V : (c : Dev nD) → (b : Ref sig .tc) → Buf (Elt Ideal) ((c : Thread nD τ).loc b))

/-- The printed index maps over the grid: at position t = (i · 4 + j) · 4 + k the two W windows sit at block (k, i),
    the two row-product windows at block (k, j), the output at block (i, j). -/
theorem idx_facts2 : ∀ t : Fin cfg2.N,
    win2_0.index t (0 : Fin 2) = t.val % 4 ∧ win2_0.index t (1 : Fin 2) = t.val / 16 % 4
    ∧ win2_1.index t (0 : Fin 2) = t.val % 4 ∧ win2_1.index t (1 : Fin 2) = t.val / 16 % 4
    ∧ win2_2.index t (0 : Fin 2) = t.val % 4 ∧ win2_2.index t (1 : Fin 2) = t.val / 4 % 4
    ∧ win2_3.index t (0 : Fin 2) = t.val % 4 ∧ win2_3.index t (1 : Fin 2) = t.val / 4 % 4
    ∧ win2_4.index t (0 : Fin 2) = t.val / 16 % 4 ∧ win2_4.index t (1 : Fin 2) = t.val / 4 % 4 :=
  (by decide +kernel : ∀ t : Fin grid2.N, _)

/-- The output row of in-block row a at position n. -/
def rowAt2 (n : ℕ) (a : Fin 1024) : Fin 4096 := ⟨n / 16 % 4 * 1024 + a.val, by have := a.isLt; omega⟩
/-- The output column of in-block column b at position n. -/
def colAt2 (n : ℕ) (b : Fin 1024) : Fin 4096 := ⟨n / 4 % 4 * 1024 + b.val, by have := b.isLt; omega⟩
/-- The contracted axis' block at position n. -/
def stepAt2 (n : ℕ) : Fin 4 := ⟨n % 4, Nat.mod_lt _ (by decide)⟩

/-- W_r's block at position t, read at (kk, a): W_r at row (block k, kk) and the output's row. -/
theorem blk0_at2 (c : Dev nD) (t : Fin cfg2.N) (kk a : Fin 1024) :
    (iblk2 V c 0 t : Vec Ideal S1024x1024 .bf16) (ix2 kk a)
      = Cert.Spec.mat (V c main_v1) (Cert.Spec.blockAt (stepAt2 t.val) kk) (rowAt2 t.val a) := by
  obtain ⟨e00, e01, -⟩ := idx_facts2 t
  unfold iblk2
  rw [View.read_apply]
  show V c main_v1 _ = V c main_v1 _
  congr 1
  funext d
  apply Fin.ext
  match d with
  | ⟨0, _⟩ => show win2_0.index t (0 : Fin 2) * 1024 + 1 * kk.val = t.val % 4 * 1024 + kk.val; rw [e00]; omega
  | ⟨1, _⟩ => show win2_0.index t (1 : Fin 2) * 1024 + 1 * a.val = t.val / 16 % 4 * 1024 + a.val; rw [e01]; omega

/-- W_i's block likewise. -/
theorem blk1_at2 (c : Dev nD) (t : Fin cfg2.N) (kk a : Fin 1024) :
    (iblk2 V c 1 t : Vec Ideal S1024x1024 .bf16) (ix2 kk a)
      = Cert.Spec.mat (V c main_v2) (Cert.Spec.blockAt (stepAt2 t.val) kk) (rowAt2 t.val a) := by
  obtain ⟨-, -, e10, e11, -⟩ := idx_facts2 t
  unfold iblk2
  rw [View.read_apply]
  show V c main_v2 _ = V c main_v2 _
  congr 1
  funext d
  apply Fin.ext
  match d with
  | ⟨0, _⟩ => show win2_1.index t (0 : Fin 2) * 1024 + 1 * kk.val = t.val % 4 * 1024 + kk.val; rw [e10]; omega
  | ⟨1, _⟩ => show win2_1.index t (1 : Fin 2) * 1024 + 1 * a.val = t.val / 16 % 4 * 1024 + a.val; rw [e11]; omega

/-- The imaginary row product's block at position t, read at (kk, b): row (block k, kk) and the output's column. -/
theorem blk2_at2 (c : Dev nD) (t : Fin cfg2.N) (kk a : Fin 1024) :
    (iblk2 V c 2 t : Vec Ideal S1024x1024 .bf16) (ix2 kk a)
      = Cert.Spec.mat (V c main_v3_1) (Cert.Spec.blockAt (stepAt2 t.val) kk) (colAt2 t.val a) := by
  obtain ⟨-, -, -, -, e20, e21, -⟩ := idx_facts2 t
  unfold iblk2
  rw [View.read_apply]
  show V c main_v3_1 _ = V c main_v3_1 _
  congr 1
  funext d
  apply Fin.ext
  match d with
  | ⟨0, _⟩ => show win2_2.index t (0 : Fin 2) * 1024 + 1 * kk.val = t.val % 4 * 1024 + kk.val; rw [e20]; omega
  | ⟨1, _⟩ => show win2_2.index t (1 : Fin 2) * 1024 + 1 * a.val = t.val / 4 % 4 * 1024 + a.val; rw [e21]; omega

/-- The real row product's block likewise. -/
theorem blk3_at2 (c : Dev nD) (t : Fin cfg2.N) (kk a : Fin 1024) :
    (iblk2 V c 3 t : Vec Ideal S1024x1024 .bf16) (ix2 kk a)
      = Cert.Spec.mat (V c main_v3_0) (Cert.Spec.blockAt (stepAt2 t.val) kk) (colAt2 t.val a) := by
  obtain ⟨-, -, -, -, -, -, e30, e31, -⟩ := idx_facts2 t
  unfold iblk2
  rw [View.read_apply]
  show V c main_v3_0 _ = V c main_v3_0 _
  congr 1
  funext d
  apply Fin.ext
  match d with
  | ⟨0, _⟩ => show win2_3.index t (0 : Fin 2) * 1024 + 1 * kk.val = t.val % 4 * 1024 + kk.val; rw [e30]; omega
  | ⟨1, _⟩ => show win2_3.index t (1 : Fin 2) * 1024 + 1 * a.val = t.val / 4 % 4 * 1024 + a.val; rw [e31]; omega

/-- One step's stored value at an entry, over blocks that read four matrices at the block's rows: what the accumulator
    held plus the block's share of the two column products' sum. -/
theorem step_at2 (wr wi a b : Vec Ideal S1024x1024 .bf16) (acc : Vec Ideal S1024x1024 .f32)
    (M1 M2 M3 M4 : Cert.Spec.Mat) (kb : Fin 4) (p q : Fin 4096) (ra rb : Fin 1024)
    (hwr : ∀ kk : Fin 1024, wr (ix2 kk ra) = M1 (Cert.Spec.blockAt kb kk) p)
    (hwi : ∀ kk : Fin 1024, wi (ix2 kk ra) = M2 (Cert.Spec.blockAt kb kk) p)
    (ha : ∀ kk : Fin 1024, a (ix2 kk rb) = M3 (Cert.Spec.blockAt kb kk) q)
    (hb : ∀ kk : Fin 1024, b (ix2 kk rb) = M4 (Cert.Spec.blockAt kb kk) q) :
    k2_pay2 (F := Ideal) wr wi a b acc (ix2 ra rb)
      = acc (ix2 ra rb) + (Cert.Spec.colBlk M1 M3 kb p q + Cert.Spec.colBlk M2 M4 kb p q) := by
  refine (Cert.KernelIdeal.Pay.pay2_2 wr wi a b acc ra rb).trans ?_
  unfold Cert.Spec.colBlk
  simp only [hwr, hwi, ha, hb]

/-- One block's share of the output entry (p, q). -/
def term2 (c : Dev nD) (p q : Fin 4096) (kb : Fin 4) : EReal :=
  Cert.Spec.colBlk (Cert.Spec.mat (V c main_v1)) (Cert.Spec.mat (V c main_v3_1)) kb p q
    + Cert.Spec.colBlk (Cert.Spec.mat (V c main_v2)) (Cert.Spec.mat (V c main_v3_0)) kb p q

/-- The step at position t, at in-block entry (a, b). -/
theorem step2_at (c : Dev nD) (t : Fin cfg2.N) (acc : Vec Ideal S1024x1024 .f32) (a b : Fin 1024) :
    k2_pay2 (F := Ideal) (iblk2 V c 0 t) (iblk2 V c 1 t) (iblk2 V c 2 t) (iblk2 V c 3 t) acc (ix2 a b)
      = acc (ix2 a b) + term2 V c (rowAt2 t.val a) (colAt2 t.val b) (stepAt2 t.val) :=
  step_at2 (iblk2 V c 0 t) (iblk2 V c 1 t) (iblk2 V c 2 t) (iblk2 V c 3 t) acc (Cert.Spec.mat (V c main_v1)) (Cert.Spec.mat (V c main_v2)) (Cert.Spec.mat (V c main_v3_1)) (Cert.Spec.mat (V c main_v3_0))
    (stepAt2 t.val) (rowAt2 t.val a) (colAt2 t.val b) a b
    (fun kk => blk0_at2 V c t kk a) (fun kk => blk1_at2 V c t kk a) (fun kk => blk2_at2 V c t kk b) (fun kk => blk3_at2 V c t kk b)

/-- The accumulator started at zero after the contracted axis' steps 0 … k. -/
def pfold2 (s : Fin 4 → EReal) : ℕ → EReal
  | 0 => 0 + s 0
  | 1 => (0 + s 0) + s 1
  | 2 => ((0 + s 0) + s 1) + s 2
  | _ => Cert.Spec.fold4 s

theorem pfold2_succ (s : Fin 4 → EReal) (k : ℕ) (hk : k + 1 < 4) : pfold2 s (k + 1) = pfold2 s k + s ⟨k + 1, hk⟩ := by
  have h3 : k < 3 := by omega
  interval_cases k <;> rfl

/-- THE INVARIANT: after position n the accumulator holds, at in-block entry (a, b), the fold so far of the blocks'
    shares of the output entry the point's tile puts there. -/
theorem acc2_eq (c : Dev nD) : ∀ (n : ℕ) (hn : n < cfg2.N) (a b : Fin 1024),
    (outsAt2 V c n hn).2 (ix2 a b) = pfold2 (term2 V c (rowAt2 n a) (colAt2 n b)) (n % 4)
  | 0, hn, a, b => by
    refine (congrFun (acc2_A V c ⟨0, hn⟩ rfl (by show ¬(0 : ℕ) % 4 = 3; decide)) (ix2 a b)).trans ?_
    refine (step2_at V c ⟨0, hn⟩ (k2_pay1 (F := Ideal)) a b).trans ?_
    rw [Cert.KernelIdeal.Pay.pay2_1]
    rfl
  | n + 1, hn, a, b => by
    have hN : n + 1 < 64 := lt_of_lt_of_eq hn N_2
    by_cases h0 : (n + 1) % 4 = 0
    · have h1 : ¬(n + 1) % 4 = 3 := by omega
      refine (congrFun (acc2_A V c ⟨n + 1, hn⟩ h0 h1) (ix2 a b)).trans ?_
      refine (step2_at V c ⟨n + 1, hn⟩ (k2_pay1 (F := Ideal)) a b).trans ?_
      have hk : stepAt2 (n + 1) = 0 := Fin.ext h0
      show k2_pay1 (F := Ideal) (ix2 a b) + term2 V c (rowAt2 (n + 1) a) (colAt2 (n + 1) b) (stepAt2 (n + 1)) = _
      rw [Cert.KernelIdeal.Pay.pay2_1, hk, h0]
      rfl
    · have e : (outsAt2 V c (n + 1) hn).2
          = k2_pay2 (F := Ideal) (iblk2 V c 0 ⟨n + 1, hn⟩) (iblk2 V c 1 ⟨n + 1, hn⟩) (iblk2 V c 2 ⟨n + 1, hn⟩) (iblk2 V c 3 ⟨n + 1, hn⟩)
              (outsAt2 V c n (Nat.lt_of_succ_lt hn)).2 := by
        by_cases h1 : (n + 1) % 4 = 3
        · exact acc2_C V c ⟨n + 1, hn⟩ h0 h1
        · exact acc2_B V c ⟨n + 1, hn⟩ h0 h1
      refine (congrFun e (ix2 a b)).trans ?_
      refine (step2_at V c ⟨n + 1, hn⟩ _ a b).trans ?_
      have hr : rowAt2 (n + 1) a = rowAt2 n a := Fin.ext (by show (n + 1) / 16 % 4 * 1024 + a.val = n / 16 % 4 * 1024 + a.val; omega)
      have hc : colAt2 (n + 1) b = colAt2 n b := Fin.ext (by show (n + 1) / 4 % 4 * 1024 + b.val = n / 4 % 4 * 1024 + b.val; omega)
      have hm : (n + 1) % 4 = n % 4 + 1 := by omega
      have hs : stepAt2 (n + 1) = ⟨n % 4 + 1, by omega⟩ := Fin.ext hm
      show (outsAt2 V c n (Nat.lt_of_succ_lt hn)).2 (ix2 a b) + term2 V c (rowAt2 (n + 1) a) (colAt2 (n + 1) b) (stepAt2 (n + 1)) = _
      rw [acc2_eq c n (Nat.lt_of_succ_lt hn) a b, hr, hc, hs, hm, pfold2_succ _ _ (by omega)]

end AtIdeal

section Array
variable (V : (c : Dev nD) → (b : Ref sig .tc) → Buf (Elt Ideal) ((c : Thread nD τ).loc b))

/-- The invariant at an in-block index that has not been split into coordinates. -/
theorem acc2_eq_at (c : Dev nD) (n : ℕ) (hn : n < cfg2.N) (y : S1024x1024.Idx) :
    (outsAt2 V c n hn).2 y = pfold2 (term2 V c (rowAt2 n (y 0)) (colAt2 n (y 1))) (n % 4) :=
  (congrArg (outsAt2 V c n hn).2 (eq_ix2 y)).trans (acc2_eq V c n hn (y 0) (y 1))

/-- What the kernel leaves in its output array: entry (p, q) is the four blocks' shares, folded in order. -/
def G2 (c : Dev nD) : S4096x4096.Idx → EReal := fun i => Cert.Spec.fold4 (term2 V c (i 0) (i 1))

/-- WHAT A LAST STEP WRITES BACK is its tile of that array. -/
theorem flushed2_eq (c : Dev nD) (t : Fin cfg2.N) (hf : (cfg2.win 4).flush t = true) :
    (dat2 V c).flushed 4 t = ((cfg2.win 4).blk t).view.read (Elt Ideal) (G2 V c) := by
  have h3 : t.val % 4 = 3 := (flush2_4 t).mp hf
  have h0 : ¬t.val % 4 = 0 := by omega
  obtain ⟨-, -, -, -, -, -, -, -, e40, e41⟩ := idx_facts2 t
  show (cfg2.win 4).cut (grid2.coords t) ((dat2 V c).after 4 t) = _
  rw [after2_4, (outblk2_C V c t h0 h3).trans (acc2_C V c t h0 h3).symm]
  funext y
  show (outsAt2 V c t.val t.isLt).2 y = G2 V c (((cfg2.win 4).blk t).view.emb y)
  rw [acc2_eq_at V c t.val t.isLt y, h3]
  have r0 : rowAt2 t.val (y 0) = (((cfg2.win 4).blk t).view.emb y) 0 :=
    Fin.ext (by show t.val / 16 % 4 * 1024 + (y 0).val = win2_4.index t (0 : Fin 2) * 1024 + 1 * (y 0).val; rw [e40]; omega)
  have r1 : colAt2 t.val (y 1) = (((cfg2.win 4).blk t).view.emb y) 1 :=
    Fin.ext (by show t.val / 4 % 4 * 1024 + (y 1).val = win2_4.index t (1 : Fin 2) * 1024 + 1 * (y 1).val; rw [e41]; omega)
  rw [r0, r1]
  rfl

/-- An index of the array is in position t's tile iff each coordinate is in the tile's range on its axis. -/
theorem mem_blk2 (t : Fin cfg2.N) (i : S4096x4096.Idx) :
    i ∈ ((cfg2.win 4).blk t).view.set ↔ ∀ a : Fin 2, win2_4.index t a * S1024x1024.size a ≤ (i a).val ∧ (i a).val < win2_4.index t a * S1024x1024.size a + S1024x1024.size a := by
  show i ∈ ((View.whole main_v5).slice (win2_4.rect t)).set ↔ _
  rw [View.set_slice_whole, Rect.mem_set_unit]
  exact Iff.rfl

/-- Every entry is in the tile of a last step: entry (p, q) in that of ((p / 1024) · 4 + q / 1024) · 4 + 3. -/
theorem cover2 (i : S4096x4096.Idx) :
    ∃ t : Fin cfg2.N, (cfg2.win 4).flush t = true ∧ i ∈ ((cfg2.win 4).blk t).view.set := by
  have hi0 : (i 0).val < 4096 := (i 0).isLt
  have hi1 : (i 1).val < 4096 := (i 1).isLt
  have hN : cfg2.N = 64 := N_2
  have hlt : ((i 0).val / 1024 * 4 + (i 1).val / 1024) * 4 + 3 < cfg2.N := lt_of_lt_of_eq (by omega) hN.symm
  refine ⟨⟨((i 0).val / 1024 * 4 + (i 1).val / 1024) * 4 + 3, hlt⟩, (flush2_4 _).mpr (by show (((i 0).val / 1024 * 4 + (i 1).val / 1024) * 4 + 3) % 4 = 3; omega), ?_⟩
  obtain ⟨-, -, -, -, -, -, -, -, e40, e41⟩ := idx_facts2 ⟨((i 0).val / 1024 * 4 + (i 1).val / 1024) * 4 + 3, hlt⟩
  rw [mem_blk2]
  intro a
  match a with
  | ⟨0, _⟩ =>
    show win2_4.index _ (0 : Fin 2) * 1024 ≤ (i 0).val ∧ (i 0).val < win2_4.index _ (0 : Fin 2) * 1024 + 1024
    rw [e40]
    show (((i 0).val / 1024 * 4 + (i 1).val / 1024) * 4 + 3) / 16 % 4 * 1024 ≤ (i 0).val ∧ (i 0).val < (((i 0).val / 1024 * 4 + (i 1).val / 1024) * 4 + 3) / 16 % 4 * 1024 + 1024
    omega
  | ⟨1, _⟩ =>
    show win2_4.index _ (1 : Fin 2) * 1024 ≤ (i 1).val ∧ (i 1).val < win2_4.index _ (1 : Fin 2) * 1024 + 1024
    rw [e41]
    show (((i 0).val / 1024 * 4 + (i 1).val / 1024) * 4 + 3) / 4 % 4 * 1024 ≤ (i 1).val ∧ (i 1).val < (((i 0).val / 1024 * 4 + (i 1).val / 1024) * 4 + 3) / 4 % 4 * 1024 + 1024
    omega

/-- THE ARRAY after the kernel: entry by entry the blocks' shares folded in order. -/
theorem final2_arr (c : Dev nD) : (dat2 V c).arrAt 4 cfg2.N = G2 V c :=
  (dat2 V c).arrAt_eq_of_cover 4 (G2 V c) (flushed2_eq V c) cover2

/-- The same at one entry, in the specification's words. -/
theorem final2 (c : Dev nD) (p q : Fin 4096) :
    (dat2 (F := Ideal) V c).arrAt 4 cfg2.N (ix2 p q)
      = Cert.Spec.fold4 fun kb => Cert.Spec.colBlk (Cert.Spec.mat (V c main_v1)) (Cert.Spec.mat (V c main_v3_1)) kb p q
                                   + Cert.Spec.colBlk (Cert.Spec.mat (V c main_v2)) (Cert.Spec.mat (V c main_v3_0)) kb p q := by
  rw [final2_arr]
  rfl

end Array

end Cert.KernelIdeal.Hand

end
-- ==== Proof.LibReal.lean ====
/-
  Extended reals that are real numbers: the closure of "is a real number" under the exact operations (sum, product,
  finite sums, the logistic function, a quotient by a non-zero real), the positivity of the logistic function, and the
  real values of a few float words. General lemmas; nothing here mentions a program.
-/
import Idealize.ShloMosaic.PureOps.Ideal
import Idealize.ShloMosaic.PureOps.Ideal.Laws

noncomputable section

open scoped BigOperators

namespace Cert.LibReal

open Idealize.ShloMosaic

/-- An extended real that is (the coercion of) a real number. -/
def IsReal (x : EReal) : Prop := ∃ r : ℝ, x = (r : EReal)

theorem isReal_coe (r : ℝ) : IsReal (r : EReal) := ⟨r, rfl⟩

theorem isReal_zero : IsReal (0 : EReal) := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A finite sum of real numbers is a real number. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logistic function of a real number is a real number … -/
theorem IsReal.logistic {x : EReal} (hx : IsReal x) : IsReal (Ideal.logistic x) := by
  obtain ⟨a, rfl⟩ := hx; exact ⟨_, Ideal.logistic_coe a⟩

/-- … and is positive. -/
theorem logistic_pos {x : EReal} (hx : IsReal x) : 0 < Ideal.logistic x := by
  obtain ⟨a, rfl⟩ := hx
  rw [Ideal.logistic_coe]
  have : (0 : ℝ) < (1 + Real.exp (-a))⁻¹ := inv_pos.mpr (by positivity)
  exact_mod_cast this

/-- A quotient of real numbers by a non-zero one is a real number. -/
theorem IsReal.div {x y : EReal} (hx : IsReal x) (hy : IsReal y) (hne : y ≠ 0) : IsReal (Ideal.div x y) := by
  obtain ⟨a, rfl⟩ := hx; obtain ⟨b, rfl⟩ := hy
  have hb : b ≠ 0 := fun h => hne (by rw [h]; rfl)
  rw [Ideal.div_coe hb]
  exact (isReal_coe a).mul (isReal_coe _)

/-- A non-negative real number plus a positive real number is not zero. -/
theorem add_pos_ne_zero {x y : EReal} (hx : 0 ≤ x) (hy : 0 < y) : x + y ≠ 0 :=
  ne_of_gt (lt_of_lt_of_le hy (le_add_of_nonneg_left hx))

/-! ## Float words as real numbers -/

/-- The word of `5.0e4` is the real number 50000. -/
theorem ofBits_50000 : Ideal.ofBits .f32 0x47435000#32 = ((50000 : ℝ) : EReal) := by
  simp [Ideal.ofBits, Ideal.ieee]
  exact_mod_cast (by norm_num : (12800000 : ℝ) * (2 ^ 8)⁻¹ = 50000)

/-- The word of `8.0e5` is the real number 800000. -/
theorem ofBits_800000 : Ideal.ofBits .f32 0x49435000#32 = ((800000 : ℝ) : EReal) := by
  simp [Ideal.ofBits, Ideal.ieee]
  exact_mod_cast (by norm_num : (12800000 : ℝ) * (2 ^ 4)⁻¹ = 800000)

/-- The word of `1.0` is one. -/
theorem ofBits_one : Ideal.ofBits .f32 0x3F800000#32 = (1 : EReal) := by
  simp [Ideal.ofBits, Ideal.ieee]
  exact_mod_cast (by norm_num : (8388608 : ℝ) * (2 ^ 23)⁻¹ = 1)

/-- The word nearest the decimal 1e-6 is a positive real number. -/
theorem ofBits_epsGate : ∃ r : ℝ, 0 < r ∧ Ideal.ofBits .f32 0x358637BD#32 = (r : EReal) := by
  refine ⟨(8796093 : ℝ) * (2 ^ 43)⁻¹, by positivity, ?_⟩
  simp [Ideal.ofBits, Ideal.ieee]

end Cert.LibReal

end
-- ==== Proof.LibSums.lean ====
/-
  General facts about finite sums: a sum over `a · b` consecutive indices regrouped as `a` consecutive parts of
  `b` terms each; the coercion from the reals to the extended reals taken through a finite sum; and the identity
  between the two ways of writing a population variance, `q / n − μ²` (clamped at zero) and the mean squared
  deviation from the mean.
-/
import Idealize.ShloMosaic.PureOps.Ideal
import Mathlib.Tactic.FieldSimp
import Mathlib.Tactic.Ring
import Mathlib.Algebra.BigOperators.Fin
import Mathlib.Logic.Equiv.Fin.Basic
import Mathlib.Data.EReal.Basic

noncomputable section

open scoped BigOperators

namespace Cert.LibSums

/-- The `r`-th index of the `p`-th part, among `a` parts of `b` indices each, is below `a · b`. -/
theorem part_lt {a b : ℕ} (p : Fin a) (r : Fin b) : p.val * b + r.val < a * b :=
  calc p.val * b + r.val < p.val * b + b := Nat.add_lt_add_left r.isLt _
    _ = (p.val + 1) * b := (Nat.succ_mul _ _).symm
    _ ≤ a * b := Nat.mul_le_mul_right b p.isLt

/-- The same bound against a number `n` known to be `a · b`. -/
theorem part_lt' {a b n : ℕ} (h : a * b = n) (p : Fin a) (r : Fin b) : p.val * b + r.val < n :=
  lt_of_lt_of_eq (part_lt p r) h

/-- Regrouping: the sum over `n = a · b` consecutive indices is the sum over the `a` parts of the sum over each
    part's `b` consecutive indices `p · b + r`. -/
theorem sum_parts {M : Type*} [AddCommMonoid M] {a b n : ℕ} (h : a * b = n) (f : Fin n → M) :
    ∑ p : Fin a, ∑ r : Fin b, f ⟨p.val * b + r.val, part_lt' h p r⟩ = ∑ i : Fin n, f i := by
  subst h
  rw [← Equiv.sum_comp finProdFinEquiv f, Fintype.sum_prod_type]
  refine Finset.sum_congr rfl fun p _ => Finset.sum_congr rfl fun r _ => congrArg f (Fin.ext ?_)
  show p.val * b + r.val = r.val + b * p.val
  rw [Nat.mul_comm, Nat.add_comm]

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The sum of the squared deviations from the mean `μ = s / n` is `q − n μ²`, where `s` is the sum and `q` the
    sum of the squares. -/
theorem sum_sq_dev {n : ℕ} (hn : 0 < n) (y : Fin n → ℝ) :
    ∑ i, (y i - (∑ j, y j) / n) * (y i - (∑ j, y j) / n)
      = (∑ i, y i * y i) - n * (((∑ j, y j) / n) * ((∑ j, y j) / n)) := by
  have hn' : (n : ℝ) ≠ 0 := Nat.cast_ne_zero.mpr hn.ne'
  generalize hμ : (∑ j, y j) / (n : ℝ) = μ
  have hs : ∑ j, y j = n * μ := by rw [← hμ]; field_simp
  have e : ∀ i, (y i - μ) * (y i - μ) = y i * y i - 2 * μ * y i + μ * μ := fun i => by ring
  simp only [e, Finset.sum_add_distrib, Finset.sum_sub_distrib, ← Finset.mul_sum, Finset.sum_const,
    Finset.card_univ, Fintype.card_fin, nsmul_eq_mul, hs]
  ring

/-- The variance identity over the reals: with `s = Σ y`, `q = Σ y²` and `μ = s / n`, the clamped difference
    `max (q / n − μ · μ) 0` is the mean squared deviation `(Σ (y − μ)²) / n`. -/
theorem variance_real {n : ℕ} (hn : 0 < n) (y : Fin n → ℝ) :
    max ((∑ i, y i * y i) / n - ((∑ j, y j) / n) * ((∑ j, y j) / n)) 0
      = (∑ i, (y i - (∑ j, y j) / n) * (y i - (∑ j, y j) / n)) / n := by
  have hn' : (n : ℝ) ≠ 0 := Nat.cast_ne_zero.mpr hn.ne'
  have key := sum_sq_dev hn y
  have e : (∑ i, y i * y i) / n - ((∑ j, y j) / n) * ((∑ j, y j) / n)
      = (∑ i, (y i - (∑ j, y j) / n) * (y i - (∑ j, y j) / n)) / n := by
    rw [key]; field_simp
  rw [e]
  exact max_eq_left (div_nonneg (Finset.sum_nonneg fun i _ => mul_self_nonneg _) (Nat.cast_nonneg n))

/-- The same on the extended reals, every quantity the coercion of a real: the clamped difference of the
    coerced `q / n` and the coerced mean's square is the coerced mean squared deviation. -/
theorem variance_ereal {n : ℕ} (hn : 0 < n) (y : Fin n → ℝ) :
    max ((((∑ i, y i * y i) / n : ℝ) : EReal) - (((∑ j, y j) / n : ℝ) : EReal) * (((∑ j, y j) / n : ℝ) : EReal)) 0
      = (((∑ i, (y i - (∑ j, y j) / n) * (y i - (∑ j, y j) / n)) / n : ℝ) : EReal) := by
  rw [← EReal.coe_mul, ← EReal.coe_sub, ← EReal.coe_zero, ← EReal.coe_strictMono.monotone.map_max, variance_real hn y]

end Cert.LibSums

end
-- ==== Proof.SpecLaw.lean ====
/-
  The blocked accumulation equals the single sums.

  The kernels take the contracted axis of every product in four consecutive blocks of 1024 indices and add the
  blocks' partial sums, in order, to an accumulator that starts at zero; the reference takes one sum over all
  4096 indices. Three facts make the two agree:

  * the accumulator's four additions are a sum over the four blocks (addition of extended reals is commutative
    and associative and 0 + a = a; nothing about finiteness is used);
  * the index map (kb, kk) ↦ kb · 1024 + kk is a bijection Fin 4 × Fin 1024 ≃ Fin 4096, so the sum over the
    blocks of the sums over each block is the sum over all indices — hence the row pass and the imaginary half
    of the column pass agree with the reference for ALL extended-real inputs;
  * in the real half each block contributes a DIFFERENCE, and Σ (A − B) = Σ A − Σ B fails on the extended reals
    at infinities of opposite sign; it holds once every term is a real number, which it is when every input
    entry is real, because a finite sum of products of reals is real. The regrouping is then done in ℝ and
    carried back through the coercion.
-/
import proofs.«175415_j18622978196102_2_alg».proof.Proof.Spec
import proofs.«175415_j18622978196102_2_alg».proof.Proof.LibReal
import proofs.«175415_j18622978196102_2_alg».proof.Proof.LibSums

noncomputable section

open scoped BigOperators

namespace Cert.Spec

open Cert.LibReal (IsReal)

/-! ## The accumulator and the re-indexing -/

/-- An accumulator started at zero and added to four times holds the sum of the four terms. -/
theorem fold4_eq_sum (s : Fin 4 → EReal) : fold4 s = ∑ kb : Fin 4, s kb := by
  unfold fold4
  rw [Fin.sum_univ_four, zero_add]

/-- Re-indexing along (kb, kk) ↦ kb · 1024 + kk: the four blocks of 1024 consecutive indices exhaust the 4096
    indices, each exactly once, so summing block by block is summing over all of them. -/
theorem sum_blocks {M : Type*} [AddCommMonoid M] (f : Fin 4096 → M) :
    ∑ kb : Fin 4, ∑ kk : Fin 1024, f (blockAt kb kk) = ∑ k : Fin 4096, f k :=
  Cert.LibSums.sum_parts (a := 4) (b := 1024) (n := 4096) (by norm_num) f

/-- The four blocks' shares of a row product add up to the row product. -/
theorem sum_rowBlk (a b : Mat) (p q : Fin 4096) : ∑ kb : Fin 4, rowBlk a b kb p q = rowDot a b p q :=
  sum_blocks fun k => a p k * b q k

/-- The four blocks' shares of a column product add up to the column product. -/
theorem sum_colBlk (a b : Mat) (p q : Fin 4096) : ∑ kb : Fin 4, colBlk a b kb p q = colDot a b p q :=
  sum_blocks fun k => a k p * b k q

/-- The row pass as accumulated is the row product, for all extended-real entries. -/
theorem kerRow_eq (a b : Mat) : kerRow a b = rowDot a b := by
  funext p q
  show fold4 (fun kb => rowBlk a b kb p q) = rowDot a b p q
  rw [fold4_eq_sum, sum_rowBlk]

/-! ## Real entries stay real -/

/-- An entry of a matrix of reals is a real number. -/
theorem isReal_entry {a : Mat} (ha : AllReal a) (p q : Fin 4096) : IsReal (a p q) := ha p q

/-- A row product of matrices of reals is a matrix of reals: each entry is a finite sum of products of reals. -/
theorem allReal_rowDot {a b : Mat} (ha : AllReal a) (hb : AllReal b) : AllReal (rowDot a b) := fun p q =>
  Cert.LibReal.IsReal.sum _ _ fun k _ => (isReal_entry ha p k).mul (isReal_entry hb q k)

/-- A column product of matrices of reals is a matrix of reals. -/
theorem allReal_colDot {a b : Mat} (ha : AllReal a) (hb : AllReal b) : AllReal (colDot a b) := fun p q =>
  Cert.LibReal.IsReal.sum _ _ fun k _ => (isReal_entry ha k p).mul (isReal_entry hb k q)

/-- One block's share of a column product of matrices of reals is a real number. -/
theorem isReal_colBlk {a b : Mat} (ha : AllReal a) (hb : AllReal b) (kb : Fin 4) (p q : Fin 4096) :
    IsReal (colBlk a b kb p q) :=
  Cert.LibReal.IsReal.sum _ _ fun kk _ =>
    (isReal_entry ha (blockAt kb kk) p).mul (isReal_entry hb (blockAt kb kk) q)

/-! ## Regrouping a sum of differences -/

/-- For real terms the sum of the differences is the difference of the sums: both sides are the coercion of
    the same real number, by the identity Σ (a − b) = Σ a − Σ b in ℝ. (On the extended reals the identity
    fails when the two sums are infinities of the same sign.) -/
theorem sum_sub_of_isReal {ι : Type*} (s : Finset ι) (A B : ι → EReal)
    (hA : ∀ i, IsReal (A i)) (hB : ∀ i, IsReal (B i)) :
    ∑ i ∈ s, (A i - B i) = ∑ i ∈ s, A i - ∑ i ∈ s, B i := by
  choose a ha using hA
  choose b hb using hB
  obtain rfl : A = fun i => ((a i : ℝ) : EReal) := funext ha
  obtain rfl : B = fun i => ((b i : ℝ) : EReal) := funext hb
  calc ∑ i ∈ s, (((a i : ℝ) : EReal) - ((b i : ℝ) : EReal))
      = ∑ i ∈ s, ((a i - b i : ℝ) : EReal) := Finset.sum_congr rfl fun i _ => (EReal.coe_sub (a i) (b i)).symm
    _ = ((∑ i ∈ s, (a i - b i) : ℝ) : EReal) := (Cert.LibReal.coe_sum s fun i => a i - b i).symm
    _ = ((∑ i ∈ s, a i - ∑ i ∈ s, b i : ℝ) : EReal) := by rw [Finset.sum_sub_distrib]
    _ = ((∑ i ∈ s, a i : ℝ) : EReal) - ((∑ i ∈ s, b i : ℝ) : EReal) := EReal.coe_sub _ _
    _ = ∑ i ∈ s, ((a i : ℝ) : EReal) - ∑ i ∈ s, ((b i : ℝ) : EReal) := by
        rw [Cert.LibReal.coe_sum s a, Cert.LibReal.coe_sum s b]

/-! ## The two halves of the column pass -/

/-- The imaginary half: each block adds the SUM of its two partial products, and a sum of sums regroups in any
    commutative monoid, so the accumulated value is the reference's for all extended-real entries. -/
theorem kerIm_eq (x wr wi : Mat) : kerIm x wr wi = refIm x wr wi := by
  funext p q
  show fold4 (fun kb => colBlk wr (kerRow x wi) kb p q + colBlk wi (kerRow x wr) kb p q)
      = colDot wr (rowDot x wi) p q + colDot wi (rowDot x wr) p q
  rw [fold4_eq_sum, Finset.sum_add_distrib, sum_colBlk, sum_colBlk, kerRow_eq, kerRow_eq]

/-- The real half: each block adds the DIFFERENCE of its two partial products; with every input entry real,
    every partial product is real and the differences regroup into the difference of the two column products. -/
theorem kerRe_eq (x wr wi : Mat) (hx : AllReal x) (hr : AllReal wr) (hi : AllReal wi) :
    kerRe x wr wi = refRe x wr wi := by
  funext p q
  show fold4 (fun kb => colBlk wr (kerRow x wr) kb p q - colBlk wi (kerRow x wi) kb p q)
      = colDot wr (rowDot x wr) p q - colDot wi (rowDot x wi) p q
  rw [fold4_eq_sum, kerRow_eq, kerRow_eq,
    sum_sub_of_isReal Finset.univ (fun kb => colBlk wr (rowDot x wr) kb p q) (fun kb => colBlk wi (rowDot x wi) kb p q)
      (fun kb => isReal_colBlk hr (allReal_rowDot hx hr) kb p q)
      (fun kb => isReal_colBlk hi (allReal_rowDot hx hi) kb p q),
    sum_colBlk, sum_colBlk]

/-- The kernel's accumulated values are the reference's, on inputs whose every entry is a real number. -/
theorem ker_eq_ref (x wr wi : Mat) (hx : AllReal x) (hr : AllReal wr) (hi : AllReal wi) :
    kerRe x wr wi = refRe x wr wi ∧ kerIm x wr wi = refIm x wr wi :=
  ⟨kerRe_eq x wr wi hx hr hi, kerIm_eq x wr wi⟩

end Cert.Spec

end
-- ==== Proof.Finite.lean ====
/-
  From the precondition to real entries.

  The precondition says, of each of the three inputs, that every entry's absolute value is below +∞: a comparison
  against the splat of +∞, reduced by `and` over both axes, the three results joined by `and`. Read back: the
  joined bit is 1, so each reduction is 1, so each comparison is 1 at every index; and an extended real whose
  absolute value max(x, −x) is below +∞ is neither +∞ nor −∞, hence a real number.
-/
import proofs.«175415_j18622978196102_2_alg».proof.Defs
import proofs.«175415_j18622978196102_2_alg».proof.Proof.Gen.Pre_finite_inputs
import proofs.«175415_j18622978196102_2_alg».proof.Proof.Spec
import Idealize.ShloMosaic.Lib.ReduceAll

noncomputable section

namespace Cert.Finite

open Idealize.ShloMosaic Idealize.ShloMosaic.ValueIdx Idealize.SL.Sem

/-- The scalar shape has one index. -/
instance : Subsingleton Cert.Pre_finite_inputs.S_.Idx := ⟨fun _ _ => funext fun d => d.elim0⟩

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The word 0x7F800000 denotes +∞. -/
theorem inf_word : Ideal.ofBits .f32 0x7F800000#32 = (⊤ : EReal) := by simp [Ideal.ofBits, Ideal.ieee]

/-- One input: if the `and` over all entries of "|x| < +∞" is 1, every entry of x is a real number. -/
theorem allReal_of_all [Cert.Pre_finite_inputs.Facts] (x : FVec Ideal Cert.Pre_finite_inputs.S4096x4096 .f32)
    (h : Host.reduce IntOp.andi
        (cmpf .olt (Host.absf x)
          (broadcastInDim Cert.Pre_finite_inputs.S4096x4096 ![] Cert.Pre_finite_inputs.Facts.bcast_S_S4096x4096
            (constant (F := Ideal) Cert.Pre_finite_inputs.S_ .f32 0x7F800000#32)))
        (constantI Cert.Pre_finite_inputs.S_ 1 1#1)
        Cert.Pre_finite_inputs.Facts.reducesTo_S4096x4096_S_d0_1 Cert.Pre_finite_inputs.Facts.h_S_ ix0 = 1#1) :
    Cert.Spec.AllReal (Cert.Spec.mat x) := by
  intro p q
  have e := Host.reduce_andi_all _ _ _ _ _ h (ix2 p q)
  have e' : Ideal.cmp .olt (max (x (ix2 p q)) (-(x (ix2 p q)))) (Ideal.ofBits .f32 0x7F800000#32) = 1#1 := e
  rw [inf_word] at e'
  refine real_of_abs_lt_top (x (ix2 p q)) ?_
  by_contra hn
  simp [Ideal.cmp, hn] at e'

/-- The precondition makes every entry of each of the three inputs a real number. -/
theorem allReal_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.AllReal (Cert.Spec.mat (m ((c.tc : Thread Cert.KernelIdeal.nD Cert.KernelIdeal.τ).loc Cert.KernelIdeal.main_arg0)))
    ∧ Cert.Spec.AllReal (Cert.Spec.mat (m ((c.tc : Thread Cert.KernelIdeal.nD Cert.KernelIdeal.τ).loc Cert.KernelIdeal.main_arg1)))
    ∧ Cert.Spec.AllReal (Cert.Spec.mat (m ((c.tc : Thread Cert.KernelIdeal.nD Cert.KernelIdeal.τ).loc Cert.KernelIdeal.main_arg2))) := by
  have h0 := congrFun (h c) ix0
  dsimp only [Cert.Pre_finite_inputs.fn] at h0
  obtain ⟨h01, h2⟩ := IntOp.andi_eq_one.1 h0
  obtain ⟨h0', h1⟩ := IntOp.andi_eq_one.1 h01
  exact ⟨allReal_of_all _ h0', allReal_of_all _ h1, allReal_of_all _ h2⟩

end Cert.Finite

end
-- ==== Proof.RefValue.lean ====
/-
  The reference program's two halves, read at one entry, are the specification's sums.

  The reference forms W_rᵀ and W_iᵀ by transposition and takes four products, each a single sum over the 4096
  contracted indices: x · W_rᵀ and x · W_iᵀ (rows of x against rows of W), then W_rᵀ against those (columns of W
  against columns of the row products). Reading every transpose and every product at an index and naming the
  coordinates gives exactly `rowDot` and `colDot`; the last subtraction and addition are the extended reals' own.
-/
import proofs.«175415_j18622978196102_2_alg».proof.Proof.Gen.ReferenceIdeal.Read
import proofs.«175415_j18622978196102_2_alg».proof.Proof.Spec

noncomputable section

open scoped BigOperators

namespace Cert.RefBridge

open Idealize.ShloMosaic Idealize.ShloMosaic.ValueIdx Cert.ReferenceIdeal Cert.ReferenceIdeal.Read

/-- x · W_rᵀ at (k, q): Σ_k' x(k, k') · W_r(q, k'). -/
theorem v1_at (x0 x1 : (⟨S4096x4096, .f32⟩ : BufTy).Contents (Elt Ideal)) (k q : Fin 4096) :
    val_main_v1 (F := Ideal) x0 x1 (ix2 k q) = Cert.Spec.rowDot (Cert.Spec.mat x0) (Cert.Spec.mat x1) k q := by
  rw [val_main_v1_apply]
  unfold Cert.Spec.rowDot
  refine Finset.sum_congr rfl fun k' _ => ?_
  rw [val_main_v0_apply]
  have e1 : lidx_main_v1 (ix2 k q) k' = ix2 k k' :=
    funext fun a => by match a with | ⟨0, _⟩ => rfl | ⟨1, _⟩ => rfl
  have e2 : idx_main_v0 (ridx_main_v1 (ix2 k q) k') = ix2 q k' :=
    funext fun a => by match a with | ⟨0, _⟩ => rfl | ⟨1, _⟩ => rfl
  rw [e1, e2]

/-- x · W_iᵀ at (k, q): Σ_k' x(k, k') · W_i(q, k'). -/
theorem v3_at (x0 x2 : (⟨S4096x4096, .f32⟩ : BufTy).Contents (Elt Ideal)) (k q : Fin 4096) :
    val_main_v3 (F := Ideal) x0 x2 (ix2 k q) = Cert.Spec.rowDot (Cert.Spec.mat x0) (Cert.Spec.mat x2) k q := by
  rw [val_main_v3_apply]
  unfold Cert.Spec.rowDot
  refine Finset.sum_congr rfl fun k' _ => ?_
  rw [val_main_v2_apply]
  have e1 : lidx_main_v3 (ix2 k q) k' = ix2 k k' :=
    funext fun a => by match a with | ⟨0, _⟩ => rfl | ⟨1, _⟩ => rfl
  have e2 : idx_main_v2 (ridx_main_v3 (ix2 k q) k') = ix2 q k' :=
    funext fun a => by match a with | ⟨0, _⟩ => rfl | ⟨1, _⟩ => rfl
  rw [e1, e2]

/-- W_rᵀ · (x · W_rᵀ) at (p, q): Σ_k W_r(k, p) · (x · W_rᵀ)(k, q). -/
theorem v5_at (x0 x1 : (⟨S4096x4096, .f32⟩ : BufTy).Contents (Elt Ideal)) (p q : Fin 4096) :
    val_main_v5 (F := Ideal) x0 x1 (ix2 p q)
      = Cert.Spec.colDot (Cert.Spec.mat x1) (Cert.Spec.rowDot (Cert.Spec.mat x0) (Cert.Spec.mat x1)) p q := by
  rw [val_main_v5_apply]
  unfold Cert.Spec.colDot
  refine Finset.sum_congr rfl fun k _ => ?_
  rw [val_main_v4_apply]
  have e1 : idx_main_v4 (lidx_main_v5 (ix2 p q) k) = ix2 k p :=
    funext fun a => by match a with | ⟨0, _⟩ => rfl | ⟨1, _⟩ => rfl
  have e2 : ridx_main_v5 (ix2 p q) k = ix2 k q :=
    funext fun a => by match a with | ⟨0, _⟩ => rfl | ⟨1, _⟩ => rfl
  rw [e1, e2, v1_at]

/-- W_iᵀ · (x · W_iᵀ) at (p, q). -/
theorem v7_at (x0 x2 : (⟨S4096x4096, .f32⟩ : BufTy).Contents (Elt Ideal)) (p q : Fin 4096) :
    val_main_v7 (F := Ideal) x0 x2 (ix2 p q)
      = Cert.Spec.colDot (Cert.Spec.mat x2) (Cert.Spec.rowDot (Cert.Spec.mat x0) (Cert.Spec.mat x2)) p q := by
  rw [val_main_v7_apply]
  unfold Cert.Spec.colDot
  refine Finset.sum_congr rfl fun k _ => ?_
  rw [val_main_v6_apply]
  have e1 : idx_main_v6 (lidx_main_v7 (ix2 p q) k) = ix2 k p :=
    funext fun a => by match a with | ⟨0, _⟩ => rfl | ⟨1, _⟩ => rfl
  have e2 : ridx_main_v7 (ix2 p q) k = ix2 k q :=
    funext fun a => by match a with | ⟨0, _⟩ => rfl | ⟨1, _⟩ => rfl
  rw [e1, e2, v3_at]

/-- W_rᵀ · (x · W_iᵀ) at (p, q). -/
theorem v10_at (x0 x1 x2 : (⟨S4096x4096, .f32⟩ : BufTy).Contents (Elt Ideal)) (p q : Fin 4096) :
    val_main_v10 (F := Ideal) x0 x1 x2 (ix2 p q)
      = Cert.Spec.colDot (Cert.Spec.mat x1) (Cert.Spec.rowDot (Cert.Spec.mat x0) (Cert.Spec.mat x2)) p q := by
  rw [val_main_v10_apply]
  unfold Cert.Spec.colDot
  refine Finset.sum_congr rfl fun k _ => ?_
  rw [val_main_v9_apply]
  have e1 : idx_main_v9 (lidx_main_v10 (ix2 p q) k) = ix2 k p :=
    funext fun a => by match a with | ⟨0, _⟩ => rfl | ⟨1, _⟩ => rfl
  have e2 : ridx_main_v10 (ix2 p q) k = ix2 k q :=
    funext fun a => by match a with | ⟨0, _⟩ => rfl | ⟨1, _⟩ => rfl
  rw [e1, e2, v3_at]

/-- W_iᵀ · (x · W_rᵀ) at (p, q). -/
theorem v12_at (x0 x1 x2 : (⟨S4096x4096, .f32⟩ : BufTy).Contents (Elt Ideal)) (p q : Fin 4096) :
    val_main_v12 (F := Ideal) x0 x1 x2 (ix2 p q)
      = Cert.Spec.colDot (Cert.Spec.mat x2) (Cert.Spec.rowDot (Cert.Spec.mat x0) (Cert.Spec.mat x1)) p q := by
  rw [val_main_v12_apply]
  unfold Cert.Spec.colDot
  refine Finset.sum_congr rfl fun k _ => ?_
  rw [val_main_v11_apply]
  have e1 : idx_main_v11 (lidx_main_v12 (ix2 p q) k) = ix2 k p :=
    funext fun a => by match a with | ⟨0, _⟩ => rfl | ⟨1, _⟩ => rfl
  have e2 : ridx_main_v12 (ix2 p q) k = ix2 k q :=
    funext fun a => by match a with | ⟨0, _⟩ => rfl | ⟨1, _⟩ => rfl
  rw [e1, e2, v1_at]

/-- The reference's real half at (p, q) is the specification's. -/
theorem ref_re (x0 x1 x2 : (⟨S4096x4096, .f32⟩ : BufTy).Contents (Elt Ideal)) (p q : Fin 4096) :
    val_main_v8 (F := Ideal) x0 x1 x2 (ix2 p q)
      = Cert.Spec.refRe (Cert.Spec.mat x0) (Cert.Spec.mat x1) (Cert.Spec.mat x2) p q := by
  rw [val_main_v8_apply, Ideal.subf_def, v5_at, v7_at]
  rfl

/-- The reference's imaginary half at (p, q) is the specification's. -/
theorem ref_im (x0 x1 x2 : (⟨S4096x4096, .f32⟩ : BufTy).Contents (Elt Ideal)) (p q : Fin 4096) :
    val_main_v13 (F := Ideal) x0 x1 x2 (ix2 p q)
      = Cert.Spec.refIm (Cert.Spec.mat x0) (Cert.Spec.mat x1) (Cert.Spec.mat x2) p q := by
  rw [val_main_v13_apply, Ideal.addf_def, v10_at, v12_at]
  rfl

end Cert.RefBridge

end
-- ==== Proof.KI.Bridge.lean ====
/-
  The two programs' results are equal. The kernels' result array is the two column-pass outputs joined along the
  second axis; the column pass reads the weight matrices as the row pass found them (the arguments, a change of
  float format being the identity on extended reals) and the row pass's two outputs; so, index by index, the halves
  are the block-wise accumulated products of Spec.lean over the three arguments. The reference's halves are the plain
  products over the same arguments. The two agree once every entry of the arguments is a real number (the regrouped
  subtraction of the column pass), which is what the precondition says.
-/
import proofs.«175415_j18622978196102_2_alg».proof.Proof.KI.Main
import proofs.«175415_j18622978196102_2_alg».proof.Proof.KI.R0Value
import proofs.«175415_j18622978196102_2_alg».proof.Proof.KI.R1Value
import proofs.«175415_j18622978196102_2_alg».proof.Proof.KI.R2Value
import proofs.«175415_j18622978196102_2_alg».proof.Proof.SpecLaw
import proofs.«175415_j18622978196102_2_alg».proof.Proof.Finite
import proofs.«175415_j18622978196102_2_alg».proof.Proof.RefValue

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The three arguments on core `c`, as matrices. -/
abbrev argX (c : Dev nD) : Cert.Spec.Mat := Cert.Spec.mat (m ((c : Thread nD τ).loc main_arg0))
abbrev argWr (c : Dev nD) : Cert.Spec.Mat := Cert.Spec.mat (m ((c : Thread nD τ).loc main_arg1))
abbrev argWi (c : Dev nD) : Cert.Spec.Mat := Cert.Spec.mat (m ((c : Thread nD τ).loc main_arg2))

/-! ## The row pass's operands are the arguments -/

theorem mat_W1_v0 (c : Dev nD) : Cert.Spec.mat (W1 m c (Proc.devRef .tc main_v0)) = argX m c := by
  funext p q; show W1 m c (Proc.devRef .tc main_v0) (ix2 p q) = _; rw [W1_main_v0]; rfl
theorem mat_W1_v1 (c : Dev nD) : Cert.Spec.mat (W1 m c (Proc.devRef .tc main_v1)) = argWr m c := by
  funext p q; show W1 m c (Proc.devRef .tc main_v1) (ix2 p q) = _; rw [W1_main_v1]; rfl
theorem mat_W1_v2 (c : Dev nD) : Cert.Spec.mat (W1 m c (Proc.devRef .tc main_v2)) = argWi m c := by
  funext p q; show W1 m c (Proc.devRef .tc main_v2) (ix2 p q) = _; rw [W1_main_v2]; rfl

/-! ## The row pass's outputs -/

/-- R_r as the kernel accumulates it. -/
theorem rowRe (c : Dev nD) : Cert.Spec.mat ((dat0 (V1 m) c).arrAt 3 cfg0.N) = Cert.Spec.kerRow (argX m c) (argWr m c) := by
  funext p q
  show (dat0 (V1 m) c).arrAt 3 cfg0.N (ix2 p q) = _
  rw [final0_3 (V1 m) c p q]
  show Cert.Spec.kerRow (Cert.Spec.mat (W1 m c (Proc.devRef .tc main_v0))) (Cert.Spec.mat (W1 m c (Proc.devRef .tc main_v1))) p q = _
  rw [mat_W1_v0, mat_W1_v1]
/-- R_i as the kernel accumulates it. -/
theorem rowIm (c : Dev nD) : Cert.Spec.mat ((dat0 (V1 m) c).arrAt 4 cfg0.N) = Cert.Spec.kerRow (argX m c) (argWi m c) := by
  funext p q
  show (dat0 (V1 m) c).arrAt 4 cfg0.N (ix2 p q) = _
  rw [final0_4 (V1 m) c p q]
  show Cert.Spec.kerRow (Cert.Spec.mat (W1 m c (Proc.devRef .tc main_v0))) (Cert.Spec.mat (W1 m c (Proc.devRef .tc main_v2))) p q = _
  rw [mat_W1_v0, mat_W1_v2]

/-! ## The column pass's outputs -/

/-- C_r as the kernel accumulates it. -/
theorem colRe (c : Dev nD) (p q : Fin 4096) :
    (dat1 (V2 m) c).arrAt 4 cfg1.N (ix2 p q) = Cert.Spec.kerRe (argX m c) (argWr m c) (argWi m c) p q := by
  rw [final1 (V2 m) c p q]
  rw [V2_main_v1 m c, V2_main_v2 m c, V2_main_v3_0 m c, V2_main_v3_1 m c, mat_W1_v1, mat_W1_v2, rowRe, rowIm]
  rfl
/-- C_i as the kernel accumulates it. -/
theorem colIm (c : Dev nD) (p q : Fin 4096) :
    (dat2 (V3 m) c).arrAt 4 cfg2.N (ix2 p q) = Cert.Spec.kerIm (argX m c) (argWr m c) (argWi m c) p q := by
  rw [final2 (V3 m) c p q]
  rw [V3_main_v1 m c, V3_main_v2 m c, V3_main_v3_0 m c, V3_main_v3_1 m c, mat_W1_v1, mat_W1_v2, rowRe, rowIm]
  rfl

/-! ## Against the reference -/

open Cert.ReferenceIdeal.Read in
/-- Under the precondition the kernels' result is the reference's last stage of the same arguments. -/
theorem result_eq [Cert.Pre_finite_inputs.Facts] (hpre : Cert.Pre_KernelIdeal m) (c : Dev nD) :
    (W5 m c (Proc.devRef .tc main_v6) : (⟨S4096x8192, .f32⟩ : BufTy).Contents (Elt Ideal))
      = val_main_v14 (F := Ideal) (m ((c : Thread nD τ).loc main_arg0)) (m ((c : Thread nD τ).loc main_arg1)) (m ((c : Thread nD τ).loc main_arg2)) := by
  obtain ⟨hx, hr, hi⟩ := Cert.Finite.allReal_of_pre m hpre c
  obtain ⟨hre, him⟩ := Cert.Spec.ker_eq_ref _ _ _ hx hr hi
  have h4 : (W4 m c (Proc.devRef .tc main_v4) : (⟨S4096x4096, .f32⟩ : BufTy).Contents (Elt Ideal))
      = val_main_v8 (F := Ideal) (m ((c : Thread nD τ).loc main_arg0)) (m ((c : Thread nD τ).loc main_arg1)) (m ((c : Thread nD τ).loc main_arg2)) := by
    funext j
    obtain ⟨p, q, rfl⟩ : ∃ (p q : Fin 4096), j = ix2 p q := ⟨j 0, j 1, eq_ix2 j⟩
    rw [W4_main_v4, colRe, Cert.RefBridge.ref_re, hre]
  have h5 : (W4 m c (Proc.devRef .tc main_v5) : (⟨S4096x4096, .f32⟩ : BufTy).Contents (Elt Ideal))
      = val_main_v13 (F := Ideal) (m ((c : Thread nD τ).loc main_arg0)) (m ((c : Thread nD τ).loc main_arg1)) (m ((c : Thread nD τ).loc main_arg2)) := by
    funext j
    obtain ⟨p, q, rfl⟩ : ∃ (p q : Fin 4096), j = ix2 p q := ⟨j 0, j 1, eq_ix2 j⟩
    rw [W4_main_v5, colIm, Cert.RefBridge.ref_im, him]
  rw [W5_main_v6, h4, h5]
  rfl

end Cert.KernelIdeal.Hand

end
-- ==== Proof.lean ====
/-
  A complex linear transform applied along rows and then along columns, C = Wᵀ · (x · Wᵀ) with W = W_r + i·W_i taken
  in real arithmetic: R_r = x·W_rᵀ, R_i = x·W_iᵀ, C_r = W_rᵀ·R_r − W_iᵀ·R_i, C_i = W_rᵀ·R_i + W_iᵀ·R_r, the result
  [C_r | C_i]. The kernels compute it in three tiled passes over 1024 × 1024 blocks, each accumulating over the four
  blocks of the contracted axis in a carried accumulator; the reference takes each product as one sum.

  The three frames: each tiled pass runs point by point with its accumulator carried in the region's invariant, its
  inputs only read, and the three passes and the two host stretches chain into one run that ends with every argument
  array as launched (proved once for any float instance, read at the word-level program and at its idealization); the
  reference's frame is its run with the result dropped. The idealization rewrote nothing, so it preserves the program
  trivially. At the ideal instance the run also names the result array: the two column-pass outputs joined, which
  index by index are the block-wise accumulated products of the arguments; they equal the reference's plain products
  because on real entries a sum taken block by block, and a difference of sums regrouped block by block, are the sums
  themselves — and the precondition makes every entry real.
-/
import proofs.«175415_j18622978196102_2_alg».proof.Defs
import proofs.«175415_j18622978196102_2_alg».proof.Proof.Gen.Kernel
import proofs.«175415_j18622978196102_2_alg».proof.Proof.Gen.KernelIdeal
import proofs.«175415_j18622978196102_2_alg».proof.Proof.Gen.ReferenceIdeal
import proofs.«175415_j18622978196102_2_alg».proof.Proof.Gen.Pre_finite_inputs
import proofs.«175415_j18622978196102_2_alg».proof.Proof.Gen.ReferenceIdeal.Run
import proofs.«175415_j18622978196102_2_alg».proof.Proof.Gen.ReferenceIdeal.Read
import proofs.«175415_j18622978196102_2_alg».proof.Proof.K.Main
import proofs.«175415_j18622978196102_2_alg».proof.Proof.KI.Main
import proofs.«175415_j18622978196102_2_alg».proof.Proof.KI.Bridge

noncomputable section

namespace Cert.Proof

open Idealize.ShloMosaic Idealize.ShloMosaic.TcCoe Idealize.SL.Sem

/-- The word-level program runs and leaves its arguments as launched. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, both idealized programs end with the same result array: the kernels'
    at the joined column-pass outputs, which under the precondition are the reference's last stage of the arguments. -/
theorem algebraic : Cert.algebraic_KernelIdeal_ReferenceIdeal := by
  intro m ρ m' ρ' hpre hagree
  refine ⟨fun c => Cert.KernelIdeal.Hand.W5 m c (Proc.devRef .tc Cert.KernelIdeal.main_v6), ?_, ?_⟩
  · exact (θ_run Cert.KernelIdeal.defs _ _).mono (fun r h c =>
      ⟨h c _ (Cert.KernelIdeal.Hand.mem_uc Cert.KernelIdeal.main_v6 (by decide)),
       (h c _ (Cert.KernelIdeal.Hand.mem_uc Cert.KernelIdeal.main_arg0 (by decide))).trans (Cert.KernelIdeal.Hand.W5_main_arg0 m c),
       (h c _ (Cert.KernelIdeal.Hand.mem_uc Cert.KernelIdeal.main_arg1 (by decide))).trans (Cert.KernelIdeal.Hand.W5_main_arg1 m c),
       (h c _ (Cert.KernelIdeal.Hand.mem_uc Cert.KernelIdeal.main_arg2 (by decide))).trans (Cert.KernelIdeal.Hand.W5_main_arg2 m c)⟩)
      (Cert.KernelIdeal.Hand.run_main m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    exact (Cert.ReferenceIdeal.Read.val_main_v14_eq _ _ _).trans (Cert.KernelIdeal.Hand.result_eq m hpre c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
